-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1 : Shape := ⟨2, ![8192, 1]⟩
abbrev S2x262144 : Shape := ⟨2, ![2, 262144]⟩
abbrev S262144x16 : Shape := ⟨2, ![262144, 16]⟩
abbrev S20x128 : Shape := ⟨2, ![20, 128]⟩
abbrev S128x64 : Shape := ⟨2, ![128, 64]⟩
abbrev S64 : Shape := ⟨1, ![64]⟩
abbrev S16x128 : Shape := ⟨2, ![16, 128]⟩
abbrev S128 : Shape := ⟨1, ![128]⟩
abbrev S64x32 : Shape := ⟨2, ![64, 32]⟩
abbrev S32 : Shape := ⟨1, ![32]⟩
abbrev S16x64 : Shape := ⟨2, ![16, 64]⟩
abbrev S_ : Shape := ⟨0, ![]⟩

class Facts : Prop where
  bcast_S_S262144x16 : S_.BroadcastsInDim S262144x16 (![] : Fin 0 → Fin S262144x16.rank)
  reducesTo_S262144x16_S_d0_1 : S262144x16.ReducesTo [0, 1] S_
  h_S_ : 0 < S_.numel
  bcast_S_S20x128 : S_.BroadcastsInDim S20x128 (![] : Fin 0 → Fin S20x128.rank)
  reducesTo_S20x128_S_d0_1 : S20x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S16x64 : S_.BroadcastsInDim S16x64 (![] : Fin 0 → Fin S16x64.rank)
  reducesTo_S16x64_S_d0_1 : S16x64.ReducesTo [0, 1] S_
  bcast_S_S8192x1 : S_.BroadcastsInDim S8192x1 (![] : Fin 0 → Fin S8192x1.rank)
  reducesTo_S8192x1_S_d0_1 : S8192x1.ReducesTo [0, 1] S_

variable [Facts]

def fn_part3 {F : FTy → Type} [FloatOps F] (main_arg0 : IVec S8192x1 32) (main_v48 : IVec S_ 1) (main_v50 : IVec S8192x1 1) : IVec S_ 1 :=
  let main_c_19 : IVec S_ 32 := constantI S_ 32 20#32
  let main_v51 : IVec S8192x1 32 := broadcastInDim S8192x1 ![] bcast_S_S8192x1 main_c_19
  let main_v52 : IVec S8192x1 1 := cmpi .slt main_arg0 main_v51
  let main_v53 : IVec S8192x1 1 := andi main_v50 main_v52
  let main_c_20 : IVec S_ 1 := constantI S_ 1 1#1
  let main_v54 : IVec S_ 1 := (fun x v => Host.reduce IntOp.andi x v reducesTo_S8192x1_S_d0_1 h_S_) main_v53 main_c_20
  let main_v55 : IVec S_ 1 := andi main_v48 main_v54
  main_v55

def fn_part2 {F : FTy → Type} [FloatOps F] (main_arg0 : IVec S8192x1 32) (main_arg9 : FVec F S32 .f32) (main_arg10 : FVec F S16x64 .f32) (main_arg11 : FVec F S64 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S16x64 .f32 := Host.absf main_arg10
  let main_cst_14 : FVec F S_ .f32 := constant S_ .f32 0x7F800000#32
  let main_v40 : FVec F S16x64 .f32 := broadcastInDim S16x64 ![] bcast_S_S16x64 main_cst_14
  let main_v41 : IVec S16x64 1 := cmpf .olt main_v39 main_v40
  let main_c_15 : IVec S_ 1 := constantI S_ 1 1#1
  let main_v42 : IVec S_ 1 := (fun x v => Host.reduce IntOp.andi x v reducesTo_S16x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_c_18 : IVec S_ 32 := constantI S_ 32 0#32
  let main_v49 : IVec S8192x1 32 := broadcastInDim S8192x1 ![] bcast_S_S8192x1 main_c_18
  let main_v50 : IVec S8192x1 1 := cmpi .sge main_arg0 main_v49
  fn_part3 (F := F) main_arg0 main_v48 main_v50

def fn_part1 {F : FTy → Type} [FloatOps F] (main_arg0 : IVec S8192x1 32) (main_arg6 : FVec F S16x128 .f32) (main_arg7 : FVec F S128 .f32) (main_arg8 : FVec F S64x32 .f32) (main_arg9 : FVec F S32 .f32) (main_arg10 : FVec F S16x64 .f32) (main_arg11 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S16x128 .f32 := Host.absf main_arg6
  let main_cst_6 : FVec F S_ .f32 := constant S_ .f32 0x7F800000#32
  let main_v20 : FVec F S16x128 .f32 := broadcastInDim S16x128 ![] bcast_S_S16x128 main_cst_6
  let main_v21 : IVec S16x128 1 := cmpf .olt main_v19 main_v20
  let main_c_7 : IVec S_ 1 := constantI S_ 1 1#1
  let main_v22 : IVec S_ 1 := (fun x v => Host.reduce IntOp.andi x v reducesTo_S16x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x32 .f32 := Host.absf main_arg8
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg0 main_arg9 main_arg10 main_arg11 main_v33

def fn {F : FTy → Type} [FloatOps F] (main_arg0 : IVec S8192x1 32) (main_arg1 : IVec S2x262144 32) (main_arg2 : FVec F S262144x16 .f32) (main_arg3 : FVec F S20x128 .f32) (main_arg4 : FVec F S128x64 .f32) (main_arg5 : FVec F S64 .f32) (main_arg6 : FVec F S16x128 .f32) (main_arg7 : FVec F S128 .f32) (main_arg8 : FVec F S64x32 .f32) (main_arg9 : FVec F S32 .f32) (main_arg10 : FVec F S16x64 .f32) (main_arg11 : FVec F S64 .f32) : IVec S_ 1 :=
  let main_v0 : FVec F S262144x16 .f32 := Host.absf main_arg2
  let main_cst : FVec F S_ .f32 := constant S_ .f32 0x7F800000#32
  let main_v1 : FVec F S262144x16 .f32 := broadcastInDim S262144x16 ![] bcast_S_S262144x16 main_cst
  let main_v2 : IVec S262144x16 1 := cmpf .olt main_v0 main_v1
  let main_c : IVec S_ 1 := constantI S_ 1 1#1
  let main_v3 : IVec S_ 1 := (fun x v => Host.reduce IntOp.andi x v reducesTo_S262144x16_S_d0_1 h_S_) main_v2 main_c
  let main_v4 : FVec F S20x128 .f32 := Host.absf main_arg3
  let main_cst_0 : FVec F S_ .f32 := constant S_ .f32 0x7F800000#32
  let main_v5 : FVec F S20x128 .f32 := broadcastInDim S20x128 ![] bcast_S_S20x128 main_cst_0
  let main_v6 : IVec S20x128 1 := cmpf .olt main_v4 main_v5
  let main_c_1 : IVec S_ 1 := constantI S_ 1 1#1
  let main_v7 : IVec S_ 1 := (fun x v => Host.reduce IntOp.andi x v reducesTo_S20x128_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg0 main_arg6 main_arg7 main_arg8 main_arg9 main_arg10 main_arg11 main_v13 main_v16
-- ==== Kernel.lean ====
abbrev S8192x1 : Shape := ⟨2, ![8192, 1]⟩
abbrev S2x262144 : Shape := ⟨2, ![2, 262144]⟩
abbrev S262144x16 : Shape := ⟨2, ![262144, 16]⟩
abbrev S20x128 : Shape := ⟨2, ![20, 128]⟩
abbrev S128x64 : Shape := ⟨2, ![128, 64]⟩
abbrev S64 : Shape := ⟨1, ![64]⟩
abbrev S16x128 : Shape := ⟨2, ![16, 128]⟩
abbrev S128 : Shape := ⟨1, ![128]⟩
abbrev S64x32 : Shape := ⟨2, ![64, 32]⟩
abbrev S32 : Shape := ⟨1, ![32]⟩
abbrev S16x64 : Shape := ⟨2, ![16, 64]⟩
abbrev S1x262144 : Shape := ⟨2, ![1, 262144]⟩
abbrev S262144 : Shape := ⟨1, ![262144]⟩
abbrev S8192x128 : Shape := ⟨2, ![8192, 128]⟩
abbrev S1024x1 : Shape := ⟨2, ![1024, 1]⟩
abbrev S1024x128 : Shape := ⟨2, ![1024, 128]⟩
abbrev S1024x20 : Shape := ⟨2, ![1024, 20]⟩
abbrev S1x128 : Shape := ⟨2, ![1, 128]⟩
abbrev S1x64 : Shape := ⟨2, ![1, 64]⟩
abbrev S262144x128 : Shape := ⟨2, ![262144, 128]⟩
abbrev S262144x64 : Shape := ⟨2, ![262144, 64]⟩
abbrev S4096x16 : Shape := ⟨2, ![4096, 16]⟩
abbrev S4096x128 : Shape := ⟨2, ![4096, 128]⟩
abbrev S4096x64 : Shape := ⟨2, ![4096, 64]⟩
abbrev S_ : Shape := ⟨0, ![]⟩
abbrev S262144x1 : Shape := ⟨2, ![262144, 1]⟩
abbrev S8192x64 : Shape := ⟨2, ![8192, 64]⟩
abbrev S1024x64 : Shape := ⟨2, ![1024, 64]⟩
abbrev S1x32 : Shape := ⟨2, ![1, 32]⟩
abbrev S8192x32 : Shape := ⟨2, ![8192, 32]⟩
abbrev S1024x32 : Shape := ⟨2, ![1024, 32]⟩
abbrev S8192x8192 : Shape := ⟨2, ![8192, 8192]⟩
abbrev S1024x1024 : Shape := ⟨2, ![1024, 1024]⟩
abbrev S32x1024 : Shape := ⟨2, ![32, 1024]⟩

abbrev nBuf : Space → Nat
  | .hbm => 60
  | .vmem => 37
  | .smem => 0
  | _ => 0

abbrev bufTy : (tb : Table) → Fin (tcTables nBuf tb) → BufTy
  | .hbm, ⟨0, _⟩ => ⟨S8192x1, .i32⟩
  | .hbm, ⟨1, _⟩ => ⟨S2x262144, .i32⟩
  | .hbm, ⟨2, _⟩ => ⟨S262144x16, .f32⟩
  | .hbm, ⟨3, _⟩ => ⟨S20x128, .f32⟩
  | .hbm, ⟨4, _⟩ => ⟨S128x64, .f32⟩
  | .hbm, ⟨5, _⟩ => ⟨S64, .f32⟩
  | .hbm, ⟨6, _⟩ => ⟨S16x128, .f32⟩
  | .hbm, ⟨7, _⟩ => ⟨S128, .f32⟩
  | .hbm, ⟨8, _⟩ => ⟨S64x32, .f32⟩
  | .hbm, ⟨9, _⟩ => ⟨S32, .f32⟩
  | .hbm, ⟨10, _⟩ => ⟨S16x64, .f32⟩
  | .hbm, ⟨11, _⟩ => ⟨S64, .f32⟩
  | .hbm, ⟨12, _⟩ => ⟨S1x262144, .i32⟩
  | .hbm, ⟨13, _⟩ => ⟨S262144, .i32⟩
  | .hbm, ⟨14, _⟩ => ⟨S1x262144, .i32⟩
  | .hbm, ⟨15, _⟩ => ⟨S262144, .i32⟩
  | .hbm, ⟨16, _⟩ => ⟨S8192x128, .f32⟩
  | .hbm, ⟨17, _⟩ => ⟨S1x128, .f32⟩
  | .hbm, ⟨18, _⟩ => ⟨S1x64, .f32⟩
  | .hbm, ⟨19, _⟩ => ⟨S262144x128, .f32⟩
  | .hbm, ⟨20, _⟩ => ⟨S262144x64, .f32⟩
  | .hbm, ⟨21, _⟩ => ⟨S_, .i32⟩
  | .hbm, ⟨22, _⟩ => ⟨S262144, .i32⟩
  | .hbm, ⟨23, _⟩ => ⟨S262144, .i1⟩
  | .hbm, ⟨24, _⟩ => ⟨S_, .i32⟩
  | .hbm, ⟨25, _⟩ => ⟨S262144, .i32⟩
  | .hbm, ⟨26, _⟩ => ⟨S262144, .i32⟩
  | .hbm, ⟨27, _⟩ => ⟨S262144, .i32⟩
  | .hbm, ⟨28, _⟩ => ⟨S262144x1, .i32⟩
  | .hbm, ⟨29, _⟩ => ⟨S262144x128, .f32⟩
  | .hbm, ⟨30, _⟩ => ⟨S262144x128, .f32⟩
  | .hbm, ⟨31, _⟩ => ⟨S_, .f32⟩
  | .hbm, ⟨32, _⟩ => ⟨S262144x128, .f32⟩
  | .hbm, ⟨33, _⟩ => ⟨S262144x128, .f32⟩
  | .hbm, ⟨34, _⟩ => ⟨S_, .f32⟩
  | .hbm, ⟨35, _⟩ => ⟨S8192x128, .f32⟩
  | .hbm, ⟨36, _⟩ => ⟨S262144x1, .i32⟩
  | .hbm, ⟨37, _⟩ => ⟨S8192x128, .f32⟩
  | .hbm, ⟨38, _⟩ => ⟨S1x64, .f32⟩
  | .hbm, ⟨39, _⟩ => ⟨S8192x64, .f32⟩
  | .hbm, ⟨40, _⟩ => ⟨S_, .i32⟩
  | .hbm, ⟨41, _⟩ => ⟨S262144, .i32⟩
  | .hbm, ⟨42, _⟩ => ⟨S262144, .i1⟩
  | .hbm, ⟨43, _⟩ => ⟨S_, .i32⟩
  | .hbm, ⟨44, _⟩ => ⟨S262144, .i32⟩
  | .hbm, ⟨45, _⟩ => ⟨S262144, .i32⟩
  | .hbm, ⟨46, _⟩ => ⟨S262144, .i32⟩
  | .hbm, ⟨47, _⟩ => ⟨S262144x1, .i32⟩
  | .hbm, ⟨48, _⟩ => ⟨S262144x64, .f32⟩
  | .hbm, ⟨49, _⟩ => ⟨S262144x64, .f32⟩
  | .hbm, ⟨50, _⟩ => ⟨S_, .f32⟩
  | .hbm, ⟨51, _⟩ => ⟨S262144x64, .f32⟩
  | .hbm, ⟨52, _⟩ => ⟨S262144x64, .f32⟩
  | .hbm, ⟨53, _⟩ => ⟨S_, .f32⟩
  | .hbm, ⟨54, _⟩ => ⟨S8192x64, .f32⟩
  | .hbm, ⟨55, _⟩ => ⟨S262144x1, .i32⟩
  | .hbm, ⟨56, _⟩ => ⟨S8192x64, .f32⟩
  | .hbm, ⟨57, _⟩ => ⟨S1x32, .f32⟩
  | .hbm, ⟨58, _⟩ => ⟨S8192x32, .f32⟩
  | .hbm, ⟨59, _⟩ => ⟨S8192x8192, .f32⟩
  | .local _ .vmem, ⟨0, _⟩ => ⟨S1024x1, .i32⟩
  | .local _ .vmem, ⟨1, _⟩ => ⟨S1024x1, .i32⟩
  | .local _ .vmem, ⟨2, _⟩ => ⟨S20x128, .f32⟩
  | .local _ .vmem, ⟨3, _⟩ => ⟨S1024x128, .f32⟩
  | .local _ .vmem, ⟨4, _⟩ => ⟨S1024x128, .f32⟩
  | .local _ .vmem, ⟨5, _⟩ => ⟨S4096x16, .f32⟩
  | .local _ .vmem, ⟨6, _⟩ => ⟨S4096x16, .f32⟩
  | .local _ .vmem, ⟨7, _⟩ => ⟨S16x128, .f32⟩
  | .local _ .vmem, ⟨8, _⟩ => ⟨S1x128, .f32⟩
  | .local _ .vmem, ⟨9, _⟩ => ⟨S16x64, .f32⟩
  | .local _ .vmem, ⟨10, _⟩ => ⟨S1x64, .f32⟩
  | .local _ .vmem, ⟨11, _⟩ => ⟨S4096x128, .f32⟩
  | .local _ .vmem, ⟨12, _⟩ => ⟨S4096x128, .f32⟩
  | .local _ .vmem, ⟨13, _⟩ => ⟨S4096x64, .f32⟩
  | .local _ .vmem, ⟨14, _⟩ => ⟨S4096x64, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S128x64, .f32⟩
  | .local _ .vmem, ⟨20, _⟩ => ⟨S1x64, .f32⟩
  | .local _ .vmem, ⟨21, _⟩ => ⟨S1024x64, .f32⟩
  | .local _ .vmem, ⟨22, _⟩ => ⟨S1024x64, .f32⟩
  | .local _ .vmem, ⟨23, _⟩ => ⟨S1024x64, .f32⟩
  | .local _ .vmem, ⟨24, _⟩ => ⟨S1024x64, .f32⟩
  | .local _ .vmem, ⟨25, _⟩ => ⟨S1024x64, .f32⟩
  | .local _ .vmem, ⟨26, _⟩ => ⟨S1024x64, .f32⟩
  | .local _ .vmem, ⟨27, _⟩ => ⟨S64x32, .f32⟩
  | .local _ .vmem, ⟨28, _⟩ => ⟨S1x32, .f32⟩
  | .local _ .vmem, ⟨29, _⟩ => ⟨S1024x32, .f32⟩
  | .local _ .vmem, ⟨30, _⟩ => ⟨S1024x32, .f32⟩
  | .local _ .vmem, ⟨31, _⟩ => ⟨S1024x32, .f32⟩
  | .local _ .vmem, ⟨32, _⟩ => ⟨S1024x32, .f32⟩
  | .local _ .vmem, ⟨33, _⟩ => ⟨S1024x32, .f32⟩
  | .local _ .vmem, ⟨34, _⟩ => ⟨S1024x32, .f32⟩
  | .local _ .vmem, ⟨35, _⟩ => ⟨S1024x1024, .f32⟩
  | .local _ .vmem, ⟨36, _⟩ => ⟨S1024x1024, .f32⟩
  | _, _ => ⟨S8192x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call0_cst : Ref sig .tc := ⟨.hbm, 31, rfl⟩
abbrev main_call0_v0 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_1 : Ref sig .tc := ⟨.hbm, 40, rfl⟩
abbrev main_v22 : Ref sig .tc := ⟨.hbm, 41, rfl⟩
abbrev main_v23 : Ref sig .tc := ⟨.hbm, 42, rfl⟩
abbrev main_c_2 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call1_cst : Ref sig .tc := ⟨.hbm, 50, rfl⟩
abbrev main_call1_v0 : Ref sig .tc := ⟨.hbm, 51, rfl⟩
abbrev main_v30 : Ref sig .tc := ⟨.hbm, 52, rfl⟩
abbrev main_cst_3 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg4_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem4_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem2_1 : DmaSem sig := 36

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4096x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1024x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1024x32 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨2, ![8, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1024x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  iota_S1024x20_d1_w32 : S1024x20.Iotas .tc 32 [1]
  inb_S1024x1_S1024x1_0_0 : ∀ a, (![0, 0] : Fin 2 → Nat) a + S1024x1.size a ≤ S1024x1.size a
  h_S1024x1 : 0 < S1024x1.numel
  broadcasts_S1024x1_S1024x20 : S1024x1.Broadcasts S1024x20
  natLt_1_32 : 1 < 32
  bitsLt_bf16_f32 : FTy.bits .bf16 < FTy.bits .f32
  inb_S20x128_S20x128_0_0 : ∀ a, (![0, 0] : Fin 2 → Nat) a + S20x128.size a ≤ S20x128.size a
  h_S20x128 : 0 < S20x128.numel
  inb_S1024x128_S1024x128_0_0 : ∀ a, (![0, 0] : Fin 2 → Nat) a + S1024x128.size a ≤ S1024x128.size a
  h_S1024x128 : 0 < S1024x128.numel
  shapeCasts_S128_S1x128 : S128.ShapeCasts S1x128
  shapeCasts_S64_S1x64 : S64.ShapeCasts S1x64
  inb_S4096x16_S4096x16_0_0 : ∀ a, (![0, 0] : Fin 2 → Nat) a + S4096x16.size a ≤ S4096x16.size a
  h_S4096x16 : 0 < S4096x16.numel
  inb_S16x128_S16x128_0_0 : ∀ a, (![0, 0] : Fin 2 → Nat) a + S16x128.size a ≤ S16x128.size a
  h_S16x128 : 0 < S16x128.numel
  inb_S16x64_S16x64_0_0 : ∀ a, (![0, 0] : Fin 2 → Nat) a + S16x64.size a ≤ S16x64.size a
  h_S16x64 : 0 < S16x64.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S4096x128_S4096x128_0_0 : ∀ a, (![0, 0] : Fin 2 → Nat) a + S4096x128.size a ≤ S4096x128.size a
  h_S4096x128 : 0 < S4096x128.numel
  inb_S4096x64_S4096x64_0_0 : ∀ a, (![0, 0] : Fin 2 → Nat) a + S4096x64.size a ≤ S4096x64.size a
  h_S4096x64 : 0 < S4096x64.numel
  bcast_S_S262144 : S_.BroadcastsInDim S262144 (![] : Fin 0 → Fin S262144.rank)
  bcast_S262144_S262144x1_0 : S262144.BroadcastsInDim S262144x1 (![0] : Fin 1 → Fin S262144x1.rank)
  bcast_S_S262144x128 : S_.BroadcastsInDim S262144x128 (![] : Fin 0 → Fin S262144x128.rank)
  bcast_S_S8192x128 : S_.BroadcastsInDim S8192x128 (![] : Fin 0 → Fin S8192x128.rank)
  shapeCasts_S1024x128_S1024x128 : S1024x128.ShapeCasts S1024x128
  inb_S128x64_S128x64_0_0 : ∀ a, (![0, 0] : Fin 2 → Nat) a + S128x64.size a ≤ S128x64.size a
  h_S128x64 : 0 < S128x64.numel
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  bcast_S_S262144x64 : S_.BroadcastsInDim S262144x64 (![] : Fin 0 → Fin S262144x64.rank)
  bcast_S_S8192x64 : S_.BroadcastsInDim S8192x64 (![] : Fin 0 → Fin S8192x64.rank)
  shapeCasts_S32_S1x32 : S32.ShapeCasts S1x32
  shapeCasts_S1024x64_S1024x64 : S1024x64.ShapeCasts S1024x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  transposes_S1024x32_p1_0_S32x1024 : S1024x32.Transposes [1, 0] S32x1024
  inb_S1024x1024_S1024x1024_0_0 : ∀ a, (![0, 0] : Fin 2 → Nat) a + S1024x1024.size a ≤ S1024x1024.size a
  h_S1024x1024 : 0 < S1024x1024.numel
  dot_S1024x20_S20x128_S1024x128_1_0_0_1_n_n_wf : DotDims.WF S1024x20 S20x128 S1024x128 [1] [0] [0] [1] [] []
  dot_S4096x16_S16x128_S4096x128_1_0_0_1_n_n_wf : DotDims.WF S4096x16 S16x128 S4096x128 [1] [0] [0] [1] [] []
  dot_S4096x16_S16x64_S4096x64_1_0_0_1_n_n_wf : DotDims.WF S4096x16 S16x64 S4096x64 [1] [0] [0] [1] [] []
  gather_S8192x128_S262144x1_S262144x128_1_0_n_n_0_1_1128_wf : GatherDims.WF S8192x128 S262144x1 S262144x128 [1] [0] [] [0] [] 1 ![1, 128]
  scatter_S8192x128_S262144x1_S262144x128_1_0_0_1_wf : ScatterDims.WF S8192x128 S262144x1 S262144x128 [1] [0] [0] 1
  dot_S1024x128_S128x64_S1024x64_1_0_0_1_n_n_wf : DotDims.WF S1024x128 S128x64 S1024x64 [1] [0] [0] [1] [] []
  gather_S8192x64_S262144x1_S262144x64_1_0_n_n_0_1_164_wf : GatherDims.WF S8192x64 S262144x1 S262144x64 [1] [0] [] [0] [] 1 ![1, 64]
  scatter_S8192x64_S262144x1_S262144x64_1_0_0_1_wf : ScatterDims.WF S8192x64 S262144x1 S262144x64 [1] [0] [0] 1
  dot_S1024x64_S64x32_S1024x32_1_0_0_1_n_n_wf : DotDims.WF S1024x64 S64x32 S1024x32 [1] [0] [0] [1] [] []
  dot_S1024x32_S32x1024_S1024x1024_1_0_0_1_n_n_wf : DotDims.WF S1024x32 S32x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .i32 = 32 ∨ (Rect.block (s := S8192x1) S1024x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x128.size a ≤ S20x128.size a
  hwx0_1 : ∀ i : grid0.Coords, EltTy.bits .f32 = 32 ∨ (Rect.block (s := S20x128) S20x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x16.size a ≤ S262144x16.size a
  hwx1_0 : ∀ i : grid1.Coords, EltTy.bits .f32 = 32 ∨ (Rect.block (s := S262144x16) S4096x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S16x128.size a
  hwx1_1 : ∀ i : grid1.Coords, EltTy.bits .f32 = 32 ∨ (Rect.block (s := S16x128) S16x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x64.size a ≤ S16x64.size a
  hwx1_3 : ∀ i : grid1.Coords, EltTy.bits .f32 = 32 ∨ (Rect.block (s := S16x64) S16x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x128.size a ≤ S262144x128.size a
  hwx1_5 : ∀ i : grid1.Coords, EltTy.bits .f32 = 32 ∨ (Rect.block (s := S262144x128) S4096x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4096x64.size a ≤ S262144x64.size a
  hwx1_6 : ∀ i : grid1.Coords, EltTy.bits .f32 = 32 ∨ (Rect.block (s := S262144x64) S4096x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S8192x128.size a
  hwx2_0 : ∀ i : grid2.Coords, EltTy.bits .f32 = 32 ∨ (Rect.block (s := S8192x128) S1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .f32 = 32 ∨ (Rect.block (s := S8192x128) S1024x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x64.size a ≤ S8192x64.size a
  hwx2_4 : ∀ i : grid2.Coords, EltTy.bits .f32 = 32 ∨ (Rect.block (s := S8192x64) S1024x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x64.size a ≤ S8192x64.size a
  hwx3_0 : ∀ i : grid3.Coords, EltTy.bits .f32 = 32 ∨ (Rect.block (s := S8192x64) S1024x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x64.size a ≤ S8192x64.size a
  hwx3_1 : ∀ i : grid3.Coords, EltTy.bits .f32 = 32 ∨ (Rect.block (s := S8192x64) S1024x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x32.size a ≤ S64x32.size a
  hwx3_2 : ∀ i : grid3.Coords, EltTy.bits .f32 = 32 ∨ (Rect.block (s := S64x32) S64x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x32.size a ≤ S8192x32.size a
  hwx3_4 : ∀ i : grid3.Coords, EltTy.bits .f32 = 32 ∨ (Rect.block (s := S8192x32) S1024x32.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x32.size a ≤ S8192x32.size a
  hwx4_0 : ∀ i : grid4.Coords, EltTy.bits .f32 = 32 ∨ (Rect.block (s := S8192x32) S1024x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x32.size a ≤ S8192x32.size a
  hwx4_1 : ∀ i : grid4.Coords, EltTy.bits .f32 = 32 ∨ (Rect.block (s := S8192x32) S1024x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1024.size a ≤ S8192x8192.size a
  hwx4_2 : ∀ i : grid4.Coords, EltTy.bits .f32 = 32 ∨ (Rect.block (s := S8192x8192) S1024x1024.size (cc4_transform_2 i) (hinb4_2 i)).WholeWords (EltTy.packing .f32)

variable [Facts₀]

def dot_S1024x20_S20x128_S1024x128_1_0_0_1_n_n : DotDims S1024x20 S20x128 S1024x128 where
  lhsContracting := [1]
  rhsContracting := [0]
  lhsNonContracting := [0]
  rhsNonContracting := [1]
  lhsBatch := []
  rhsBatch := []
  wf := dot_S1024x20_S20x128_S1024x128_1_0_0_1_n_n_wf
def dot_S4096x16_S16x128_S4096x128_1_0_0_1_n_n : DotDims S4096x16 S16x128 S4096x128 where
  lhsContracting := [1]
  rhsContracting := [0]
  lhsNonContracting := [0]
  rhsNonContracting := [1]
  lhsBatch := []
  rhsBatch := []
  wf := dot_S4096x16_S16x128_S4096x128_1_0_0_1_n_n_wf
def dot_S4096x16_S16x64_S4096x64_1_0_0_1_n_n : DotDims S4096x16 S16x64 S4096x64 where
  lhsContracting := [1]
  rhsContracting := [0]
  lhsNonContracting := [0]
  rhsNonContracting := [1]
  lhsBatch := []
  rhsBatch := []
  wf := dot_S4096x16_S16x64_S4096x64_1_0_0_1_n_n_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def gather_S8192x64_S262144x1_S262144x64_1_0_n_n_0_1_164 : GatherDims S8192x64 S262144x1 S262144x64 where
  offsetDims := [1]
  collapsedSliceDims := [0]
  operandBatchingDims := []
  startIndicesBatchingDims := []
  startIndexMap := [0]
  indexVectorDim := 1
  sliceSizes := ![1, 64]
  wf := gather_S8192x64_S262144x1_S262144x64_1_0_n_n_0_1_164_wf
def scatter_S8192x64_S262144x1_S262144x64_1_0_0_1 : ScatterDims S8192x64 S262144x1 S262144x64 where
  updateWindowDims := [1]
  insertedWindowDims := [0]
  scatterDimsToOperandDims := [0]
  indexVectorDim := 1
  wf := scatter_S8192x64_S262144x1_S262144x64_1_0_0_1_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x32_S32x1024_S1024x1024_1_0_0_1_n_n : DotDims S1024x32 S32x1024 S1024x1024 where
  lhsContracting := [1]
  rhsContracting := [0]
  lhsNonContracting := [0]
  rhsNonContracting := [1]
  lhsBatch := []
  rhsBatch := []
  wf := dot_S1024x32_S32x1024_S1024x1024_1_0_0_1_n_n_wf

abbrev win0_0 : Pipeline.Window sig grid0 :=
  Pipeline.Window.ofSpec (Memref.whole main_arg0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S20x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S4096x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S16x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S16x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7_0) S4096x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v7_1) S4096x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v4) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v21) S1024x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v21) S1024x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S1024x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S64x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v34) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v35) S1024x32.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v35) S1024x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v35) S1024x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v36) S1024x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S8192x1 : Shape := ⟨2, ![8192, 1]⟩
abbrev S2x262144 : Shape := ⟨2, ![2, 262144]⟩
abbrev S262144x16 : Shape := ⟨2, ![262144, 16]⟩
abbrev S20x128 : Shape := ⟨2, ![20, 128]⟩
abbrev S128x64 : Shape := ⟨2, ![128, 64]⟩
abbrev S64 : Shape := ⟨1, ![64]⟩
abbrev S16x128 : Shape := ⟨2, ![16, 128]⟩
abbrev S128 : Shape := ⟨1, ![128]⟩
abbrev S64x32 : Shape := ⟨2, ![64, 32]⟩
abbrev S32 : Shape := ⟨1, ![32]⟩
abbrev S16x64 : Shape := ⟨2, ![16, 64]⟩
abbrev S8192 : Shape := ⟨1, ![8192]⟩
abbrev S_ : Shape := ⟨0, ![]⟩
abbrev S8192x128 : Shape := ⟨2, ![8192, 128]⟩
abbrev S1x262144 : Shape := ⟨2, ![1, 262144]⟩
abbrev S262144 : Shape := ⟨1, ![262144]⟩
abbrev S262144x128 : Shape := ⟨2, ![262144, 128]⟩
abbrev S1x128 : Shape := ⟨2, ![1, 128]⟩
abbrev S262144x1 : Shape := ⟨2, ![262144, 1]⟩
abbrev S8192x64 : Shape := ⟨2, ![8192, 64]⟩
abbrev S1x64 : Shape := ⟨2, ![1, 64]⟩
abbrev S262144x64 : Shape := ⟨2, ![262144, 64]⟩
abbrev S8192x32 : Shape := ⟨2, ![8192, 32]⟩
abbrev S1x32 : Shape := ⟨2, ![1, 32]⟩
abbrev S32x8192 : Shape := ⟨2, ![32, 8192]⟩
abbrev S8192x8192 : Shape := ⟨2, ![8192, 8192]⟩

abbrev nBuf : Space → Nat
  | .hbm => 93
  | .vmem => 0
  | .smem => 0
  | _ => 0

abbrev bufTy : (tb : Table) → Fin (tcTables nBuf tb) → BufTy
  | .hbm, ⟨0, _⟩ => ⟨S8192x1, .i32⟩
  | .hbm, ⟨1, _⟩ => ⟨S2x262144, .i32⟩
  | .hbm, ⟨2, _⟩ => ⟨S262144x16, .f32⟩
  | .hbm, ⟨3, _⟩ => ⟨S20x128, .f32⟩
  | .hbm, ⟨4, _⟩ => ⟨S128x64, .f32⟩
  | .hbm, ⟨5, _⟩ => ⟨S64, .f32⟩
  | .hbm, ⟨6, _⟩ => ⟨S16x128, .f32⟩
  | .hbm, ⟨7, _⟩ => ⟨S128, .f32⟩
  | .hbm, ⟨8, _⟩ => ⟨S64x32, .f32⟩
  | .hbm, ⟨9, _⟩ => ⟨S32, .f32⟩
  | .hbm, ⟨10, _⟩ => ⟨S16x64, .f32⟩
  | .hbm, ⟨11, _⟩ => ⟨S64, .f32⟩
  | .hbm, ⟨12, _⟩ => ⟨S8192, .i32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S8192, .i32⟩
  | .hbm, ⟨20, _⟩ => ⟨S8192x1, .i32⟩
  | .hbm, ⟨21, _⟩ => ⟨S8192x128, .f32⟩
  | .hbm, ⟨22, _⟩ => ⟨S1x262144, .i32⟩
  | .hbm, ⟨23, _⟩ => ⟨S262144, .i32⟩
  | .hbm, ⟨24, _⟩ => ⟨S1x262144, .i32⟩
  | .hbm, ⟨25, _⟩ => ⟨S262144, .i32⟩
  | .hbm, ⟨26, _⟩ => ⟨S262144x128, .f32⟩
  | .hbm, ⟨27, _⟩ => ⟨S1x128, .f32⟩
  | .hbm, ⟨28, _⟩ => ⟨S262144x128, .f32⟩
  | .hbm, ⟨29, _⟩ => ⟨S262144x128, .f32⟩
  | .hbm, ⟨30, _⟩ => ⟨S_, .i32⟩
  | .hbm, ⟨31, _⟩ => ⟨S262144, .i32⟩
  | .hbm, ⟨32, _⟩ => ⟨S262144, .i1⟩
  | .hbm, ⟨33, _⟩ => ⟨S_, .i32⟩
  | .hbm, ⟨34, _⟩ => ⟨S262144, .i32⟩
  | .hbm, ⟨35, _⟩ => ⟨S262144, .i32⟩
  | .hbm, ⟨36, _⟩ => ⟨S262144, .i32⟩
  | .hbm, ⟨37, _⟩ => ⟨S262144x1, .i32⟩
  | .hbm, ⟨38, _⟩ => ⟨S262144x128, .f32⟩
  | .hbm, ⟨39, _⟩ => ⟨S262144x128, .f32⟩
  | .hbm, ⟨40, _⟩ => ⟨S_, .f32⟩
  | .hbm, ⟨41, _⟩ => ⟨S262144x128, .f32⟩
  | .hbm, ⟨42, _⟩ => ⟨S262144x128, .f32⟩
  | .hbm, ⟨43, _⟩ => ⟨S_, .f32⟩
  | .hbm, ⟨44, _⟩ => ⟨S8192x128, .f32⟩
  | .hbm, ⟨45, _⟩ => ⟨S262144x1, .i32⟩
  | .hbm, ⟨46, _⟩ => ⟨S8192x128, .f32⟩
  | .hbm, ⟨47, _⟩ => ⟨S_, .f32⟩
  | .hbm, ⟨48, _⟩ => ⟨S8192x128, .f32⟩
  | .hbm, ⟨49, _⟩ => ⟨S8192x128, .f32⟩
  | .hbm, ⟨50, _⟩ => ⟨S8192x128, .f32⟩
  | .hbm, ⟨51, _⟩ => ⟨S8192x64, .f32⟩
  | .hbm, ⟨52, _⟩ => ⟨S1x64, .f32⟩
  | .hbm, ⟨53, _⟩ => ⟨S8192x64, .f32⟩
  | .hbm, ⟨54, _⟩ => ⟨S8192x64, .f32⟩
  | .hbm, ⟨55, _⟩ => ⟨S_, .f32⟩
  | .hbm, ⟨56, _⟩ => ⟨S8192x64, .f32⟩
  | .hbm, ⟨57, _⟩ => ⟨S8192x64, .i1⟩
  | .hbm, ⟨58, _⟩ => ⟨S_, .f32⟩
  | .hbm, ⟨59, _⟩ => ⟨S8192x64, .f32⟩
  | .hbm, ⟨60, _⟩ => ⟨S8192x64, .f32⟩
  | .hbm, ⟨61, _⟩ => ⟨S8192x64, .f32⟩
  | .hbm, ⟨62, _⟩ => ⟨S262144x64, .f32⟩
  | .hbm, ⟨63, _⟩ => ⟨S1x64, .f32⟩
  | .hbm, ⟨64, _⟩ => ⟨S262144x64, .f32⟩
  | .hbm, ⟨65, _⟩ => ⟨S262144x64, .f32⟩
  | .hbm, ⟨66, _⟩ => ⟨S_, .i32⟩
  | .hbm, ⟨67, _⟩ => ⟨S262144, .i32⟩
  | .hbm, ⟨68, _⟩ => ⟨S262144, .i1⟩
  | .hbm, ⟨69, _⟩ => ⟨S_, .i32⟩
  | .hbm, ⟨70, _⟩ => ⟨S262144, .i32⟩
  | .hbm, ⟨71, _⟩ => ⟨S262144, .i32⟩
  | .hbm, ⟨72, _⟩ => ⟨S262144, .i32⟩
  | .hbm, ⟨73, _⟩ => ⟨S262144x1, .i32⟩
  | .hbm, ⟨74, _⟩ => ⟨S262144x64, .f32⟩
  | .hbm, ⟨75, _⟩ => ⟨S262144x64, .f32⟩
  | .hbm, ⟨76, _⟩ => ⟨S_, .f32⟩
  | .hbm, ⟨77, _⟩ => ⟨S262144x64, .f32⟩
  | .hbm, ⟨78, _⟩ => ⟨S262144x64, .f32⟩
  | .hbm, ⟨79, _⟩ => ⟨S_, .f32⟩
  | .hbm, ⟨80, _⟩ => ⟨S8192x64, .f32⟩
  | .hbm, ⟨81, _⟩ => ⟨S262144x1, .i32⟩
  | .hbm, ⟨82, _⟩ => ⟨S8192x64, .f32⟩
  | .hbm, ⟨83, _⟩ => ⟨S_, .f32⟩
  | .hbm, ⟨84, _⟩ => ⟨S8192x64, .f32⟩
  | .hbm, ⟨85, _⟩ => ⟨S8192x64, .f32⟩
  | .hbm, ⟨86, _⟩ => ⟨S8192x64, .f32⟩
  | .hbm, ⟨87, _⟩ => ⟨S8192x32, .f32⟩
  | .hbm, ⟨88, _⟩ => ⟨S1x32, .f32⟩
  | .hbm, ⟨89, _⟩ => ⟨S8192x32, .f32⟩
  | .hbm, ⟨90, _⟩ => ⟨S8192x32, .f32⟩
  | .hbm, ⟨91, _⟩ => ⟨S32x8192, .f32⟩
  | .hbm, ⟨92, _⟩ => ⟨S8192x8192, .f32⟩
  | _, _ => ⟨S8192x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call0_cst : Ref sig .tc := ⟨.hbm, 40, rfl⟩
abbrev main_call0_v0 : Ref sig .tc := ⟨.hbm, 41, rfl⟩
abbrev main_v24 : Ref sig .tc := ⟨.hbm, 42, rfl⟩
abbrev main_cst : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_v36 : Ref sig .tc := ⟨.hbm, 57, rfl⟩
abbrev main_cst_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_6 : Ref sig .tc := ⟨.hbm, 66, rfl⟩
abbrev main_v44 : Ref sig .tc := ⟨.hbm, 67, rfl⟩
abbrev main_v45 : Ref sig .tc := ⟨.hbm, 68, rfl⟩
abbrev main_c_7 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call2_cst : Ref sig .tc := ⟨.hbm, 76, rfl⟩
abbrev main_call2_v0 : Ref sig .tc := ⟨.hbm, 77, rfl⟩
abbrev main_v52 : Ref sig .tc := ⟨.hbm, 78, rfl⟩
abbrev main_cst_8 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_9 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩

abbrev nD : Nat := 1
abbrev τ : Topo := Topo.v7x

variable {F : FTy → Type} [FloatOps F]

class Facts₀ : Prop where
  shapeCasts_S8192x1_S8192 : S8192x1.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144 : S_.BroadcastsInDim S262144 (![] : Fin 0 → Fin S262144.rank)
  bcast_S262144_S262144x1_0 : S262144.BroadcastsInDim S262144x1 (![0] : Fin 1 → Fin S262144x1.rank)
  bcast_S_S262144x128 : S_.BroadcastsInDim S262144x128 (![] : Fin 0 → Fin S262144x128.rank)
  bcast_S_S8192x128 : S_.BroadcastsInDim S8192x128 (![] : Fin 0 → Fin S8192x128.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  transposes_S8192x32_S32x8192_1_0 : S8192x32.Transposes [1, 0] S32x8192
  gather_S20x128_S8192x1_S8192x128_1_0_n_n_0_1_1128_wf : GatherDims.WF S20x128 S8192x1 S8192x128 [1] [0] [] [0] [] 1 ![1, 128]
  dot_S262144x16_S16x128_S262144x128_1_0_0_1_n_n_wf : DotDims.WF S262144x16 S16x128 S262144x128 [1] [0] [0] [1] [] []
  gather_S8192x128_S262144x1_S262144x128_1_0_n_n_0_1_1128_wf : GatherDims.WF S8192x128 S262144x1 S262144x128 [1] [0] [] [0] [] 1 ![1, 128]
  scatter_S8192x128_S262144x1_S262144x128_1_0_0_1_wf : ScatterDims.WF S8192x128 S262144x1 S262144x128 [1] [0] [0] 1
  dot_S8192x128_S128x64_S8192x64_1_0_0_1_n_n_wf : DotDims.WF S8192x128 S128x64 S8192x64 [1] [0] [0] [1] [] []
  dot_S262144x16_S16x64_S262144x64_1_0_0_1_n_n_wf : DotDims.WF S262144x16 S16x64 S262144x64 [1] [0] [0] [1] [] []
  gather_S8192x64_S262144x1_S262144x64_1_0_n_n_0_1_164_wf : GatherDims.WF S8192x64 S262144x1 S262144x64 [1] [0] [] [0] [] 1 ![1, 64]
  scatter_S8192x64_S262144x1_S262144x64_1_0_0_1_wf : ScatterDims.WF S8192x64 S262144x1 S262144x64 [1] [0] [0] 1
  dot_S8192x64_S64x32_S8192x32_1_0_0_1_n_n_wf : DotDims.WF S8192x64 S64x32 S8192x32 [1] [0] [0] [1] [] []
  dot_S8192x32_S32x8192_S8192x8192_1_0_0_1_n_n_wf : DotDims.WF S8192x32 S32x8192 S8192x8192 [1] [0] [0] [1] [] []

variable [Facts₀]

def gather_S20x128_S8192x1_S8192x128_1_0_n_n_0_1_1128 : GatherDims S20x128 S8192x1 S8192x128 where
  offsetDims := [1]
  collapsedSliceDims := [0]
  operandBatchingDims := []
  startIndicesBatchingDims := []
  startIndexMap := [0]
  indexVectorDim := 1
  sliceSizes := ![1, 128]
  wf := gather_S20x128_S8192x1_S8192x128_1_0_n_n_0_1_1128_wf
def dot_S262144x16_S16x128_S262144x128_1_0_0_1_n_n : DotDims S262144x16 S16x128 S262144x128 where
  lhsContracting := [1]
  rhsContracting := [0]
  lhsNonContracting := [0]
  rhsNonContracting := [1]
  lhsBatch := []
  rhsBatch := []
  wf := dot_S262144x16_S16x128_S262144x128_1_0_0_1_n_n_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S262144x16_S16x64_S262144x64_1_0_0_1_n_n : DotDims S262144x16 S16x64 S262144x64 where
  lhsContracting := [1]
  rhsContracting := [0]
  lhsNonContracting := [0]
  rhsNonContracting := [1]
  lhsBatch := []
  rhsBatch := []
  wf := dot_S262144x16_S16x64_S262144x64_1_0_0_1_n_n_wf
def gather_S8192x64_S262144x1_S262144x64_1_0_n_n_0_1_164 : GatherDims S8192x64 S262144x1 S262144x64 where
  offsetDims := [1]
  collapsedSliceDims := [0]
  operandBatchingDims := []
  startIndicesBatchingDims := []
  startIndexMap := [0]
  indexVectorDim := 1
  sliceSizes := ![1, 64]
  wf := gather_S8192x64_S262144x1_S262144x64_1_0_n_n_0_1_164_wf
def scatter_S8192x64_S262144x1_S262144x64_1_0_0_1 : ScatterDims S8192x64 S262144x1 S262144x64 where
  updateWindowDims := [1]
  insertedWindowDims := [0]
  scatterDimsToOperandDims := [0]
  indexVectorDim := 1
  wf := scatter_S8192x64_S262144x1_S262144x64_1_0_0_1_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def dot_S8192x32_S32x8192_S8192x8192_1_0_0_1_n_n : DotDims S8192x32 S32x8192 S8192x8192 where
  lhsContracting := [1]
  rhsContracting := [0]
  lhsNonContracting := [0]
  rhsNonContracting := [1]
  lhsBatch := []
  rhsBatch := []
  wf := dot_S8192x32_S32x8192_S8192x8192_1_0_0_1_n_n_wf

class Facts : Prop extends Facts₀ where

variable [Facts]
-- ==== Proof.K.Share4.lean ====
import proofs.«102501_j18846316494852_1_alg».proof.Proof.Gen.Kernel.Launch
import Idealize.ShloMosaic.Lib.Pipeline.FrameBody

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.Kernel Cert.Kernel.Gen

variable {F : FTy → Type} [FloatOps F]

local notation "𝕄" => MT nD τ sig Unit (Elt F) ℕ (UR sig nD τ) ℕ

/-! # Region 4's shares: two input windows on one array

Windows 0 and 1 of region 4 both read the array behind `main_v35` (row block `i` and row block `j` of it) and
window 2 writes `main_v36`. The array's full share is halved: window 0 holds the left half, window 1 the right
half, and the two halves compose back to the full share; the output's array is held whole. -/

/-- The share of its array each window of region 4 holds: the two input windows the two halves of the full share
    of the one array they read, the output window the full share of its own. -/
def q4 : Fin 3 → PosShare TreeShare
  | ⟨0, _⟩ => fullShare.left
  | ⟨1, _⟩ => fullShare.right
  | ⟨2, _⟩ => fullShare

theorem q4_zero : q4 0 = fullShare.left := rfl
theorem q4_one : q4 1 = fullShare.right := rfl
theorem q4_two : q4 2 = fullShare := rfl

/-- A buffer held whole at the full share is the same buffer held at the two input windows' shares, at the same
    contents. -/
theorem pointsTo_q4 {ℓ : Loc nD τ sig} (f : Buf (Elt F) ℓ) :
    (ℓ ↦{fullShare} f : sProp 𝕄) = iprop((ℓ ↦{fullShare.left} f) ∗ ℓ ↦{fullShare.right} f) :=
  Entails.antisymm (pointsTo_share (PosShare.mem_left_op_right fullShare)).1 (pointsTo_share (PosShare.mem_left_op_right fullShare)).2

/-- The distinct buffers behind region 4's three windows are two. -/
theorem arrImage4 : (Finset.univ.image (Pipeline.arrRef spec4) : Finset (Ref sig .tc)) = {main_v35, main_v36} := by decide

/-- The buffers behind region 4's arrays, each whole at the full share at contents `V`, with the shared one's share
    halved. -/
theorem arrBufs4_eq (c : Dev nD) (V : (b : Ref sig .tc) → Buf (Elt F) ((c : Thread nD τ).loc b)) :
    (Pipeline.arrBufs spec4 c V : sProp 𝕄)
      = iprop((((c : Thread nD τ).loc main_v35) ↦{fullShare.left} V main_v35) ∗ (((c : Thread nD τ).loc main_v35) ↦{fullShare.right} V main_v35)
          ∗ (((c : Thread nD τ).loc main_v36) ↦{fullShare} V main_v36)) := by
  unfold Pipeline.arrBufs
  rw [arrImage4, bigSep_insert (by decide), bigSep_singleton, pointsTo_q4]
  exact Entails.antisymm BI.sep_assoc BI.sep_assoc'

/-- The windows' arrays of a proof data that deals the shares as `q4`, window by window. -/
theorem arrays4_eq (c : Dev nD) (dat : Dat τ (Elt F) Unit ℕ (UR sig nD τ) ℕ cfg4 c) (hq : dat.q = q4)
    (G : (w : Fin cfg4.W) → Buf (Elt F) ((cfg4.win w).arr.view.loc (c : Thread nD τ))) :
    (dat.arrays G : sProp 𝕄)
      = iprop((((c : Thread nD τ).loc main_v35) ↦{fullShare.left} G 0) ∗ (((c : Thread nD τ).loc main_v35) ↦{fullShare.right} G 1)
          ∗ (((c : Thread nD τ).loc main_v36) ↦{fullShare} G 2)) := by
  have h0 : dat.share 0 = fullShare.left := by unfold Dat.share; rw [hq]; rfl
  have h1 : dat.share 1 = fullShare.right := by unfold Dat.share; rw [hq]; rfl
  have h2 : dat.share 2 = fullShare := by unfold Dat.share; rfl
  unfold Dat.arrays
  rw [bigSep_W4]
  refine congrArg₂ _ ?_ (congrArg₂ _ ?_ ?_)
  · rw [(arr_whole4 0).set_eq_univ, h0]
  · rw [(arr_whole4 1).set_eq_univ, h1]
  · rw [(arr_whole4 2).set_eq_univ, h2]

/-- ENTRY, the arrays' part, for windows that share an array: a core's unscoped buffers at contents `V` are region
    4's arrays at contents `G` read off `V` (`hG`) — the shared array's full share halved between the two
    windows on it — and the unscoped rest. -/
theorem arrays4_of_unscopedBufs (c : Dev nD) (dat : Dat τ (Elt F) Unit ℕ (UR sig nD τ) ℕ cfg4 c) (hq : dat.q = q4)
    (V : (b : Ref sig .tc) → Buf (Elt F) ((c : Thread nD τ).loc b))
    (G : (w : Fin cfg4.W) → Buf (Elt F) ((cfg4.win w).arr.view.loc (c : Thread nD τ)))
    (hG : ∀ w, G w = V (Pipeline.arrRef spec4 w)) :
    (unscopedBufs c V : sProp 𝕄) ⊢ iprop(dat.arrays G ∗ Pipeline.unscopedRest spec4 c V) := by
  have hs : (unscopedBufs c V : sProp 𝕄) = iprop(Pipeline.arrBufs spec4 c V ∗ Pipeline.unscopedRest spec4 c V) :=
    Pipeline.unscopedBufs_split₀ cfgs 4 winFacts₀4.arr_unscoped c V
  rw [hs, arrBufs4_eq, arrays4_eq c dat hq G, hG 0, hG 1, hG 2]

/-- EXIT, the arrays' part, for windows that share an array: region 4's arrays at contents `G` and the unscoped
    rest at `V` are the core's unscoped buffers at any valuation `V'` that has the arrays at `G` and agrees with
    `V` off them: the two halves of the shared array's share, held at the same contents, rejoin. -/
theorem unscopedBufs_of_arrays4 (c : Dev nD) (dat : Dat τ (Elt F) Unit ℕ (UR sig nD τ) ℕ cfg4 c) (hq : dat.q = q4)
    (V V' : (b : Ref sig .tc) → Buf (Elt F) ((c : Thread nD τ).loc b))
    (G : (w : Fin cfg4.W) → Buf (Elt F) ((cfg4.win w).arr.view.loc (c : Thread nD τ)))
    (hG : ∀ w, G w = V' (Pipeline.arrRef spec4 w))
    (hrest : ∀ b, b ∉ Finset.univ.image (Pipeline.arrRef spec4) → V' b = V b) :
    iprop(dat.arrays G ∗ Pipeline.unscopedRest spec4 c V) ⊢ (unscopedBufs c V' : sProp 𝕄) := by
  have hs : (unscopedBufs c V' : sProp 𝕄) = iprop(Pipeline.arrBufs spec4 c V' ∗ Pipeline.unscopedRest spec4 c V') :=
    Pipeline.unscopedBufs_split₀ cfgs 4 winFacts₀4.arr_unscoped c V'
  rw [hs, arrBufs4_eq, arrays4_eq c dat hq G, hG 0, hG 1, hG 2]
  refine sep_mono .rfl (Entails.of_eq ?_)
  unfold Pipeline.unscopedRest
  exact bigSep_congr fun b hb => by rw [hrest b (Finset.mem_sdiff.mp hb).2]

end Cert.Kernel.Hand

end
-- ==== Proof.K.Dat0.lean ====
import proofs.«102501_j18846316494852_1_alg».proof.Proof.Gen.Kernel.Launch
import proofs.«102501_j18846316494852_1_alg».proof.Proof.Gen.Kernel.Skeleton
import proofs.«102501_j18846316494852_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0 of @main (pipeline 0), at the entry contents `V`: the definitions -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block
    index has not moved, and the previous point's block is this point's; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block
    index has not moved, and the previous point's block is this point's; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole -/

abbrev r0_0 : Rect S1024x1 := Rect.unit (s := S1024x1) ![0, 0] S1024x1.size inb_S1024x1_S1024x1_0_0
abbrev r0_1 : Rect S20x128 := Rect.unit (s := S20x128) ![0, 0] S20x128.size inb_S20x128_S20x128_0_0
abbrev r0_2 : Rect S1024x128 := Rect.unit (s := S1024x128) ![0, 0] S1024x128.size inb_S1024x128_S1024x128_0_0

/-! ## What the body leaves in each output window's buffer -/

/-- Window 2's staging buffer after the body, from the input windows' blocks: its one store, of the whole buffer. -/
def out0_2 (x0 : Vec F S1024x1 .i32) (x1 : Vec F S20x128 .f32) : Vec F S1024x128 .f32 :=
  View.canon [⟨r0_2, k0_pay1 (View.ld x0 r0_0) (View.ld x1 r0_1)⟩]

/-- The store is of the whole buffer, so it covers it. -/
theorem cover0_2 (p0 : Vec F S1024x128 .f32) (y : S1024x128.Idx) :
    ∃ pc ∈ ([⟨r0_2, p0⟩] : List (View.Piece (Elt F) S1024x128 .f32)), y ∈ pc.1.set :=
  View.cover_of_tiled [⟨r0_2, p0⟩] S1024x128.size (by rfl) y

/-! ## The pipeline's proof data -/

/-- The proof data of pipeline 0 on core `c`: the arrays as the region finds them (`V`); after the body at
    point `t` each input's buffer at its block and each output's at `out0_w` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Cert.Kernel.Hand

end
-- ==== Proof.K.Dat1.lean ====
import proofs.«102501_j18846316494852_1_alg».proof.Proof.Gen.Kernel.Launch
import proofs.«102501_j18846316494852_1_alg».proof.Proof.Gen.Kernel.Skeleton
import proofs.«102501_j18846316494852_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1 of @main (pipeline 1), at the entry contents `V`: the definitions -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block
    index has not moved, and the previous point's block is this point's; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): unfetched, the block
    index has not moved, and the previous point's block is this point's; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): unfetched, the block
    index has not moved, and the previous point's block is this point's; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s (`hA`) and whose body leaves the block in place (`hafter`): unfetched, the block
    index has not moved, and the previous point's block is this point's; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s (`hA`) and whose body leaves the block in place (`hafter`): unfetched, the block
    index has not moved, and the previous point's block is this point's; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer whole -/

abbrev r1_0 : Rect S4096x16 := Rect.unit (s := S4096x16) ![0, 0] S4096x16.size inb_S4096x16_S4096x16_0_0
abbrev r1_1 : Rect S16x128 := Rect.unit (s := S16x128) ![0, 0] S16x128.size inb_S16x128_S16x128_0_0
abbrev r1_2 : Rect S1x128 := Rect.unit (s := S1x128) ![0, 0] S1x128.size inb_S1x128_S1x128_0_0
abbrev r1_3 : Rect S16x64 := Rect.unit (s := S16x64) ![0, 0] S16x64.size inb_S16x64_S16x64_0_0
abbrev r1_4 : Rect S1x64 := Rect.unit (s := S1x64) ![0, 0] S1x64.size inb_S1x64_S1x64_0_0
abbrev r1_5 : Rect S4096x128 := Rect.unit (s := S4096x128) ![0, 0] S4096x128.size inb_S4096x128_S4096x128_0_0
abbrev r1_6 : Rect S4096x64 := Rect.unit (s := S4096x64) ![0, 0] S4096x64.size inb_S4096x64_S4096x64_0_0

/-! ## What the body leaves in each output window's buffer -/

/-- Window 5's staging buffer after the body, from the input windows' blocks: its one store, of the whole buffer. -/
def out1_5 (x0 : Vec F S4096x16 .f32) (x1 : Vec F S16x128 .f32) (x2 : Vec F S1x128 .f32) (x3 : Vec F S16x64 .f32) (x4 : Vec F S1x64 .f32) : Vec F S4096x128 .f32 :=
  View.canon [⟨r1_5, k1_pay2 (View.ld x0 r1_0) (View.ld x1 r1_1) (View.ld x2 r1_2)⟩]

/-- The store is of the whole buffer, so it covers it. -/
theorem cover1_5 (p0 : Vec F S4096x128 .f32) (y : S4096x128.Idx) :
    ∃ pc ∈ ([⟨r1_5, p0⟩] : List (View.Piece (Elt F) S4096x128 .f32)), y ∈ pc.1.set :=
  View.cover_of_tiled [⟨r1_5, p0⟩] S4096x128.size (by rfl) y

/-- Window 6's staging buffer after the body, from the input windows' blocks: its one store, of the whole buffer. -/
def out1_6 (x0 : Vec F S4096x16 .f32) (x1 : Vec F S16x128 .f32) (x2 : Vec F S1x128 .f32) (x3 : Vec F S16x64 .f32) (x4 : Vec F S1x64 .f32) : Vec F S4096x64 .f32 :=
  View.canon [⟨r1_6, k1_pay3 (View.ld x0 r1_0) (View.ld x3 r1_3) (View.ld x4 r1_4)⟩]

/-- The store is of the whole buffer, so it covers it. -/
theorem cover1_6 (p0 : Vec F S4096x64 .f32) (y : S4096x64.Idx) :
    ∃ pc ∈ ([⟨r1_6, p0⟩] : List (View.Piece (Elt F) S4096x64 .f32)), y ∈ pc.1.set :=
  View.cover_of_tiled [⟨r1_6, p0⟩] S4096x64.size (by rfl) y

/-! ## The pipeline's proof data -/

/-- The proof data of pipeline 1 on core `c`: the arrays as the region finds them (`V`); after the body at
    point `t` each input's buffer at its block and each output's at `out1_w` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the definition's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

end Cert.Kernel.Hand

end
-- ==== Proof.K.Dat2.lean ====
import proofs.«102501_j18846316494852_1_alg».proof.Proof.Gen.Kernel.Launch
import proofs.«102501_j18846316494852_1_alg».proof.Proof.Gen.Kernel.Skeleton
import proofs.«102501_j18846316494852_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 2 of @main: custom_call 2, `cc2_kernel` (pipeline 2), at the entry contents `V` — the definitions -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block index
    has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): unfetched, the block index
    has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): unfetched, the block index
    has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s (`hA`) and whose body leaves the block in place (`hafter`): unfetched, the block index
    has not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each load and the store go through the whole staging buffer -/

abbrev r2_0 : Rect S1024x128 := Rect.unit (s := S1024x128) ![0, 0] S1024x128.size inb_S1024x128_S1024x128_0_0
abbrev r2_1 : Rect S128x64 := Rect.unit (s := S128x64) ![0, 0] S128x64.size inb_S128x64_S128x64_0_0
abbrev r2_2 : Rect S1x64 := Rect.unit (s := S1x64) ![0, 0] S1x64.size inb_S1x64_S1x64_0_0
abbrev r2_3 : Rect S1024x64 := Rect.unit (s := S1024x64) ![0, 0] S1024x64.size inb_S1024x64_S1024x64_0_0

/-! ## What the body leaves in the output window's buffer -/

/-- Window 4's staging buffer after the body, from the input windows' blocks: its one store as a piece, the payload
    computed from what the four loads read. -/
def out2_4 (x0 : Vec F S1024x128 .f32) (x1 : Vec F S1024x128 .f32) (x2 : Vec F S128x64 .f32) (x3 : Vec F S1x64 .f32) : Vec F S1024x64 .f32 :=
  View.canon [⟨r2_3, k2_pay1 (View.ld x0 r2_0) (View.ld x1 r2_0) (View.ld x2 r2_1) (View.ld x3 r2_2)⟩]

/-- The one store is the whole buffer, so it covers it (one block index per axis). -/
theorem cover2_4 (p0 : Vec F S1024x64 .f32) (y : S1024x64.Idx) :
    ∃ pc ∈ ([⟨r2_3, p0⟩] : List (View.Piece (Elt F) S1024x64 .f32)), y ∈ pc.1.set :=
  View.cover_of_tiled [⟨r2_3, p0⟩] S1024x64.size (by rfl) y

/-! ## The pipeline's proof data -/

/-- The proof data of pipeline 2 on core `c`: the arrays as the region finds them (`V`); after the body at
    point `t` each input's buffer at its block and the output's at `out2_4` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the `match` of the proof data reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

end Cert.Kernel.Hand

end
-- ==== Proof.K.Dat3.lean ====
import proofs.«102501_j18846316494852_1_alg».proof.Proof.Gen.Kernel.Launch
import proofs.«102501_j18846316494852_1_alg».proof.Proof.Gen.Kernel.Skeleton
import proofs.«102501_j18846316494852_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 3 of @main: custom_call 3, `cc3_kernel` (pipeline 3), at the entry contents `V` — the definitions -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the block index
    has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): unfetched, the block index
    has not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s (`hA`) and whose body leaves the block in place (`hafter`): unfetched, the block index
    has not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s (`hA`) and whose body leaves the block in place (`hafter`): unfetched, the block index
    has not moved; the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each load and the store go through the whole staging buffer -/

abbrev r3_0 : Rect S1024x64 := Rect.unit (s := S1024x64) ![0, 0] S1024x64.size inb_S1024x64_S1024x64_0_0
abbrev r3_1 : Rect S64x32 := Rect.unit (s := S64x32) ![0, 0] S64x32.size inb_S64x32_S64x32_0_0
abbrev r3_2 : Rect S1x32 := Rect.unit (s := S1x32) ![0, 0] S1x32.size inb_S1x32_S1x32_0_0
abbrev r3_3 : Rect S1024x32 := Rect.unit (s := S1024x32) ![0, 0] S1024x32.size inb_S1024x32_S1024x32_0_0

/-! ## What the body leaves in the output window's buffer -/

/-- Window 4's staging buffer after the body, from the input windows' blocks: its one store as a piece, the payload
    computed from what the four loads read. -/
def out3_4 (x0 : Vec F S1024x64 .f32) (x1 : Vec F S1024x64 .f32) (x2 : Vec F S64x32 .f32) (x3 : Vec F S1x32 .f32) : Vec F S1024x32 .f32 :=
  View.canon [⟨r3_3, k3_pay1 (View.ld x0 r3_0) (View.ld x1 r3_0) (View.ld x2 r3_1) (View.ld x3 r3_2)⟩]

/-- The one store is the whole buffer, so it covers it (one block index per axis). -/
theorem cover3_4 (p0 : Vec F S1024x32 .f32) (y : S1024x32.Idx) :
    ∃ pc ∈ ([⟨r3_3, p0⟩] : List (View.Piece (Elt F) S1024x32 .f32)), y ∈ pc.1.set :=
  View.cover_of_tiled [⟨r3_3, p0⟩] S1024x32.size (by rfl) y

/-! ## The pipeline's proof data -/

/-- The proof data of pipeline 3 on core `c`: the arrays as the region finds them (`V`); after the body at
    point `t` each input's buffer at its block and the output's at `out3_4` of the input blocks; the invariant
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the `match` of the proof data reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

end Cert.Kernel.Hand

end
-- ==== Proof.K.Dat4.lean ====
import proofs.«102501_j18846316494852_1_alg».proof.Proof.Gen.Kernel.Launch
import proofs.«102501_j18846316494852_1_alg».proof.Proof.Gen.Kernel.Skeleton
import proofs.«102501_j18846316494852_1_alg».proof.Proof.Gen.Kernel.Points
import proofs.«102501_j18846316494852_1_alg».proof.Proof.K.Share4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 4 of @main: custom_call 4, `cc4_kernel` (pipeline 4), at the entry contents `V` — the definitions.
    Windows 0 and 1 are two windows on one array (row block `i` and row block `j` of it); window 2 is the output. -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): unfetched, the block index
    has not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s (`hA`) and whose body leaves the block in place (`hafter`): unfetched, the block index
    has not moved; the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each load and the store go through the whole staging buffer -/

abbrev r4_0 : Rect S1024x32 := Rect.unit (s := S1024x32) ![0, 0] S1024x32.size inb_S1024x32_S1024x32_0_0
abbrev r4_1 : Rect S1024x1024 := Rect.unit (s := S1024x1024) ![0, 0] S1024x1024.size inb_S1024x1024_S1024x1024_0_0

/-! ## What the body leaves in the output window's buffer -/

/-- Window 2's staging buffer after the body, from the input windows' blocks: its one store as a piece, the payload
    computed from what the two loads read. -/
def out4_2 (x0 : Vec F S1024x32 .f32) (x1 : Vec F S1024x32 .f32) : Vec F S1024x1024 .f32 :=
  View.canon [⟨r4_1, k4_pay1 (View.ld x0 r4_0) (View.ld x1 r4_0)⟩]

/-- The one store is the whole buffer, so it covers it (one block index per axis). -/
theorem cover4_2 (p0 : Vec F S1024x1024 .f32) (y : S1024x1024.Idx) :
    ∃ pc ∈ ([⟨r4_1, p0⟩] : List (View.Piece (Elt F) S1024x1024 .f32)), y ∈ pc.1.set :=
  View.cover_of_tiled [⟨r4_1, p0⟩] S1024x1024.size (by rfl) y

/-! ## The pipeline's proof data -/

/-- The proof data of pipeline 4 on core `c`: the arrays as the region finds them (`V`); after the body at
    point `t` each input's buffer at its block and the output's at `out4_2` of the input blocks; the invariant
    the scoped rest and the generator register, untouched; nothing owed; of the array the two input windows
    share, each window the share `q4` gives it. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q := q4
  owed _ := 0

/-- The proof data's arrays are the region-entry contents (the definition projected). -/
theorem A_eq4 (c : Dev nD) (w : Fin cfg4.W) : (dat4 V c).A w = V c (Pipeline.arrRef spec4 w) := by
  dsimp only [dat4]

/-- What the body leaves, window by window (the `match` of the proof data reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

end Cert.Kernel.Hand

end
-- ==== Proof.K.Body0.lean ====
import proofs.«102501_j18846316494852_1_alg».proof.Proof.Gen.Kernel.Launch
import proofs.«102501_j18846316494852_1_alg».proof.Proof.Gen.Kernel.Skeleton
import proofs.«102501_j18846316494852_1_alg».proof.Proof.Gen.Kernel.Points
import proofs.«102501_j18846316494852_1_alg».proof.Proof.K.Dat0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0 of @main (pipeline 0), at the entry contents `V`: the body -/

/-! ## The body's triple -/

set_option maxHeartbeats 1000000 in
/-- The kernel body on whole staging memrefs, the inputs' at read contents `x_w` and the outputs' at anything, runs to
    the continuation holding the inputs' as they were and each output's at `out0_w` of the inputs': the printed function
    is its skeleton of loads and stores over named payloads, run step by step. -/
theorem sound_kernel0 (c : Dev nD) (E : Set ℕ) (i : grid0.Coords) (arg1 : Memref sig .tc .vmem S1024x1 .i32) (harg1 : arg1.IsWhole) (arg2 : Memref sig .tc .vmem S20x128 .f32) (harg2 : arg2.IsWhole) (arg3 : Memref sig .tc .vmem S1024x128 .f32) (harg3 : arg3.IsWhole)
    (x0 : Vec F S1024x1 .i32) (x1 : Vec F S20x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_w`), so `sound_kernel0` applies; the invariant
    and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
import proofs.«102501_j18846316494852_1_alg».proof.Proof.Gen.Kernel.Launch
import proofs.«102501_j18846316494852_1_alg».proof.Proof.Gen.Kernel.Skeleton
import proofs.«102501_j18846316494852_1_alg».proof.Proof.Gen.Kernel.Points
import proofs.«102501_j18846316494852_1_alg».proof.Proof.K.Dat1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1 of @main (pipeline 1), at the entry contents `V`: the body -/

/-! ## The body's triple -/

set_option maxHeartbeats 1000000 in
/-- The kernel body on whole staging memrefs, the inputs' at read contents `x_w` and the outputs' at anything, runs to
    the continuation holding the inputs' as they were and each output's at `out1_w` of the inputs': the printed function
    is its skeleton of loads and stores over named payloads, run step by step. -/
theorem sound_kernel1 (c : Dev nD) (E : Set ℕ) (i : grid1.Coords) (arg1 : Memref sig .tc .vmem S4096x16 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S16x64 .f32) (harg4 : arg4.IsWhole) (arg5 : Memref sig .tc .vmem S1x64 .f32) (harg5 : arg5.IsWhole) (arg6 : Memref sig .tc .vmem S4096x128 .f32) (harg6 : arg6.IsWhole) (arg7 : Memref sig .tc .vmem S4096x64 .f32) (harg7 : arg7.IsWhole)
    (x0 : Vec F S4096x16 .f32) (x1 : Vec F S16x128 .f32) (x2 : Vec F S1x128 .f32) (x3 : Vec F S16x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4) ∗ owns (c : Thread nD τ) arg7 fullShare (out1_6 x0 x1 x2 x3 x4)) -∗ K ⟨⟩))
      ⊢ wp frame (wpE (defs₀ (F := F)) Variants.none c none) E (cc1_kernel i arg1 harg1 arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_w`), so `sound_kernel1` applies; the invariant
    and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
import proofs.«102501_j18846316494852_1_alg».proof.Proof.Gen.Kernel.Launch
import proofs.«102501_j18846316494852_1_alg».proof.Proof.Gen.Kernel.Skeleton
import proofs.«102501_j18846316494852_1_alg».proof.Proof.Gen.Kernel.Points
import proofs.«102501_j18846316494852_1_alg».proof.Proof.K.Dat2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 2 of @main: custom_call 2, `cc2_kernel` (pipeline 2), at the entry contents `V` — the body -/

/-! ## The body's triple -/

set_option maxHeartbeats 1000000 in
/-- The kernel body on whole staging memrefs, the inputs' at read contents `x0 … x3` and the output's at anything, runs
    to the continuation holding the inputs' as they were and the output's at `out2_4` of the inputs': four loads, a
    load of the output buffer whose value is not used, and one store over the whole output buffer. -/
theorem sound_kernel2 (c : Dev nD) (E : Set ℕ) (i : grid2.Coords) (arg1 : Memref sig .tc .vmem S1024x128 .f32) (harg1 : arg1.IsWhole) (arg2 : Memref sig .tc .vmem S1024x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1024x64 .f32) (harg5 : arg5.IsWhole)
    (x0 : Vec F S1024x128 .f32) (x1 : Vec F S1024x128 .f32) (x2 : Vec F S128x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2_kernel i arg1 harg1 arg2 harg2 arg3 harg3 arg4 harg4 arg5 harg5) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_w`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Body3.lean ====
import proofs.«102501_j18846316494852_1_alg».proof.Proof.Gen.Kernel.Launch
import proofs.«102501_j18846316494852_1_alg».proof.Proof.Gen.Kernel.Skeleton
import proofs.«102501_j18846316494852_1_alg».proof.Proof.Gen.Kernel.Points
import proofs.«102501_j18846316494852_1_alg».proof.Proof.K.Dat3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 3 of @main: custom_call 3, `cc3_kernel` (pipeline 3), at the entry contents `V` — the body -/

/-! ## The body's triple -/

set_option maxHeartbeats 1000000 in
/-- The kernel body on whole staging memrefs, the inputs' at read contents `x0 … x3` and the output's at anything, runs
    to the continuation holding the inputs' as they were and the output's at `out3_4` of the inputs': four loads, a
    load of the output buffer whose value is not used, and one store over the whole output buffer. -/
theorem sound_kernel3 (c : Dev nD) (E : Set ℕ) (i : grid3.Coords) (arg1 : Memref sig .tc .vmem S1024x64 .f32) (harg1 : arg1.IsWhole) (arg2 : Memref sig .tc .vmem S1024x64 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S1024x32 .f32) (harg5 : arg5.IsWhole)
    (x0 : Vec F S1024x64 .f32) (x1 : Vec F S1024x64 .f32) (x2 : Vec F S64x32 .f32) (x3 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3_kernel i arg1 harg1 arg2 harg2 arg3 harg3 arg4 harg4 arg5 harg5) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The body obligation, at a generic point -/

/-- What the body is called with at point `t` (the obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks (`before3_w`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Body4.lean ====
import proofs.«102501_j18846316494852_1_alg».proof.Proof.Gen.Kernel.Launch
import proofs.«102501_j18846316494852_1_alg».proof.Proof.Gen.Kernel.Skeleton
import proofs.«102501_j18846316494852_1_alg».proof.Proof.Gen.Kernel.Points
import proofs.«102501_j18846316494852_1_alg».proof.Proof.K.Dat4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 4 of @main: custom_call 4, `cc4_kernel` (pipeline 4), at the entry contents `V` — the body -/

/-! ## The body's triple -/

set_option maxHeartbeats 1000000 in
/-- The kernel body on whole staging memrefs, the inputs' at read contents `x0`, `x1` and the output's at anything, runs
    to the continuation holding the inputs' as they were and the output's at `out4_2` of the inputs': two loads, a
    load of the output buffer whose value is not used, and one store over the whole output buffer. -/
theorem sound_kernel4 (c : Dev nD) (E : Set ℕ) (i : grid4.Coords) (arg2 : Memref sig .tc .vmem S1024x32 .f32) (harg2 : arg2.IsWhole) (arg3 : Memref sig .tc .vmem S1024x32 .f32) (harg3 : arg3.IsWhole) (arg4 : Memref sig .tc .vmem S1024x1024 .f32) (harg4 : arg4.IsWhole)
    (x0 : Vec F S1024x32 .f32) (x1 : Vec F S1024x32 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out4_2 x0 x1)) -∗ K ⟨⟩))
      ⊢ wp frame (wpE (defs₀ (F := F)) Variants.none c none) E (cc4_kernel i arg2 harg2 arg3 harg3 arg4 harg4) K := by
  simp only [cc4_kernel_eq_skeleton]; unfold cc4_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The body obligation, at a generic point -/

/-- What the body is called with at point `t` (the obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks (`before4_w`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Run.lean ====
import proofs.«102501_j18846316494852_1_alg».proof.Proof.Gen.Kernel.Launch
import proofs.«102501_j18846316494852_1_alg».proof.Proof.Gen.Kernel.Skeleton
import proofs.«102501_j18846316494852_1_alg».proof.Proof.Gen.Kernel.Points
import proofs.«102501_j18846316494852_1_alg».proof.Proof.Gen.Kernel.Regions
import proofs.«102501_j18846316494852_1_alg».proof.Proof.K.Share4
import proofs.«102501_j18846316494852_1_alg».proof.Proof.K.Dat0
import proofs.«102501_j18846316494852_1_alg».proof.Proof.K.Dat1
import proofs.«102501_j18846316494852_1_alg».proof.Proof.K.Dat2
import proofs.«102501_j18846316494852_1_alg».proof.Proof.K.Dat3
import proofs.«102501_j18846316494852_1_alg».proof.Proof.K.Dat4
import proofs.«102501_j18846316494852_1_alg».proof.Proof.K.Body0
import proofs.«102501_j18846316494852_1_alg».proof.Proof.K.Body1
import proofs.«102501_j18846316494852_1_alg».proof.Proof.K.Body2
import proofs.«102501_j18846316494852_1_alg».proof.Proof.K.Body3
import proofs.«102501_j18846316494852_1_alg».proof.Proof.K.Body4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The run of @main: thirteen items — eight stretches of host operations and five kernel regions — from the launch
    to the return

## The buffer contents at each boundary between two items: a fold through @main -/

/-- Core `c`'s buffers at launch. -/
abbrev W0 (m : (ℓ : Loc nD τ sig) → Buf (Elt F) ℓ) (ρ : Dev nD → PrngReg) : Dev nD → Valuation τ sig (Elt F) := fun c b => m ((c : Dev nD), b)

variable (m : (ℓ : Loc nD τ sig) → Buf (Elt F) ℓ) (ρ : Dev nD → PrngReg)

/-- After `hostOps0`. -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- An array of region 0 that only input windows read, and every buffer that is no array of the region, is left as
    entered: an input array is never written back. -/
theorem W2_keep (c : Dev nD) (b : Ref sig .tc) (hb : ∀ w, Pipeline.arrRef spec0 w = b → (cfg0.win w).isOut = false) :
    W2 m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w (hb w rfl) _).trans (A_eq0 (V1 m ρ) c w))
  · exact W2_of_ne m ρ c b fun w e => h ⟨w, e⟩
/-- After `hostOps1`. -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- An array of region 1 that only input windows read, and every buffer that is no array of the region, is left as
    entered: an input array is never written back. -/
theorem W4_keep (c : Dev nD) (b : Ref sig .tc) (hb : ∀ w, Pipeline.arrRef spec1 w = b → (cfg1.win w).isOut = false) :
    W4 m ρ c (Proc.devRef .tc b) = W3 m ρ c (Proc.devRef .tc b) := by
  by_cases h : ∃ w, Pipeline.arrRef spec1 w = b
  · obtain ⟨w, rfl⟩ := h
    exact (W4_arr m ρ c w).trans (((dat1 (V3 m ρ) c).arrAt_in w (hb w rfl) _).trans (A_eq1 (V3 m ρ) c w))
  · exact W4_of_ne m ρ c b fun w e => h ⟨w, e⟩
/-- After `hostOps2`. -/
abbrev W5 : Dev nD → Valuation τ sig (Elt F) := fun c => StableHlo.after hostOps2 (W4 m ρ c)
/-- After `hostOps2_1`. -/
abbrev W6 : Dev nD → Valuation τ sig (Elt F) := fun c => StableHlo.after hostOps2_1 (W5 m ρ c)
/-- After `hostOps2_2`. -/
abbrev W7 : Dev nD → Valuation τ sig (Elt F) := fun c => StableHlo.after hostOps2_2 (W6 m ρ c)
/-- The same read at the TensorCore's references (what region 2's proof data take). -/
abbrev V7 : (c : Dev nD) → (b : Ref sig .tc) → Buf (Elt F) ((c : Thread nD τ).loc b) := fun c b => W7 m ρ c b
/-- At region 2's exit: its arrays at what the pipeline leaves (the inputs as entered, each output's write-backs
    folded), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references (region 2's exit contents). -/
abbrev V8 : (c : Dev nD) → (b : Ref sig .tc) → Buf (Elt F) ((c : Thread nD τ).loc b) := fun c b => W8 m ρ c b
/-- At region 2's exit each of its arrays holds what the pipeline leaves (`hF2`) and every other buffer what it
    held at entry (`hrest2`). -/
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- An array of region 2 that only input windows read, and every buffer that is no array of the region, is left as
    entered: an input array is never written back. -/
theorem W8_keep (c : Dev nD) (b : Ref sig .tc) (hb : ∀ w, Pipeline.arrRef spec2 w = b → (cfg2.win w).isOut = false) :
    W8 m ρ c (Proc.devRef .tc b) = W7 m ρ c (Proc.devRef .tc b) := by
  by_cases h : ∃ w, Pipeline.arrRef spec2 w = b
  · obtain ⟨w, rfl⟩ := h
    exact (W8_arr m ρ c w).trans (((dat2 (V7 m ρ) c).arrAt_in w (hb w rfl) _).trans (A_eq2 (V7 m ρ) c w))
  · exact W8_of_ne m ρ c b fun w e => h ⟨w, e⟩
/-- After `hostOps3`. -/
abbrev W9 : Dev nD → Valuation τ sig (Elt F) := fun c => StableHlo.after hostOps3 (W8 m ρ c)
/-- After `hostOps3_1`. -/
abbrev W10 : Dev nD → Valuation τ sig (Elt F) := fun c => StableHlo.after hostOps3_1 (W9 m ρ c)
/-- After `hostOps3_2`. -/
abbrev W11 : Dev nD → Valuation τ sig (Elt F) := fun c => StableHlo.after hostOps3_2 (W10 m ρ c)
/-- The same read at the TensorCore's references (what region 3's proof data take). -/
abbrev V11 : (c : Dev nD) → (b : Ref sig .tc) → Buf (Elt F) ((c : Thread nD τ).loc b) := fun c b => W11 m ρ c b
/-- At region 3's exit: its arrays at what the pipeline leaves (the inputs as entered, each output's write-backs
    folded), every other buffer as entered. -/
def W12 (c : Dev nD) : Valuation τ sig (Elt F) :=
  Pipeline.withArrays spec3 c (W11 m ρ c) fun w => (dat3 (V11 m ρ) c).arrAt w cfg3.N
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
/-- The same read at the TensorCore's references (region 3's exit contents). -/
abbrev V12 : (c : Dev nD) → (b : Ref sig .tc) → Buf (Elt F) ((c : Thread nD τ).loc b) := fun c b => W12 m ρ c b
/-- At region 3's exit each of its arrays holds what the pipeline leaves (`hF3`) and every other buffer what it
    held at entry (`hrest3`). -/
theorem hF3 (c : Dev nD) (w : Fin cfg3.W) : (dat3 (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)
/-- An array of region 3 that only input windows read, and every buffer that is no array of the region, is left as
    entered: an input array is never written back. -/
theorem W12_keep (c : Dev nD) (b : Ref sig .tc) (hb : ∀ w, Pipeline.arrRef spec3 w = b → (cfg3.win w).isOut = false) :
    W12 m ρ c (Proc.devRef .tc b) = W11 m ρ c (Proc.devRef .tc b) := by
  by_cases h : ∃ w, Pipeline.arrRef spec3 w = b
  · obtain ⟨w, rfl⟩ := h
    exact (W12_arr m ρ c w).trans (((dat3 (V11 m ρ) c).arrAt_in w (hb w rfl) _).trans (A_eq3 (V11 m ρ) c w))
  · exact W12_of_ne m ρ c b fun w e => h ⟨w, e⟩
/-- At region 4's exit: the output window's array `main_v36` at what the pipeline leaves (its write-backs folded), every
    other buffer as entered — the array the two input windows read among them: an input array is never written back. -/
def W13 (c : Dev nD) : Valuation τ sig (Elt F) :=
  Function.update (W12 m ρ c) (Proc.devRef .tc main_v36) ((dat4 (V12 m ρ) c).arrAt 2 cfg4.N)
/-- What the last region leaves in its output array. -/
theorem W13_out (c : Dev nD) : W13 m ρ c (Proc.devRef .tc main_v36) = (dat4 (V12 m ρ) c).arrAt 2 cfg4.N := by
  unfold W13; exact Function.update_self ..
theorem W13_of_ne (c : Dev nD) (b : Ref sig .tc) (hb : b ≠ main_v36) :
    W13 m ρ c (Proc.devRef .tc b) = W12 m ρ c (Proc.devRef .tc b) := by
  unfold W13; exact Function.update_of_ne (StableHlo.devRef_ne_of_ne hb) ..
/-- The same read at the TensorCore's references (region 4's exit contents). -/
abbrev V13 : (c : Dev nD) → (b : Ref sig .tc) → Buf (Elt F) ((c : Thread nD τ).loc b) := fun c b => W13 m ρ c b
/-- At region 4's exit each window's array holds what the pipeline leaves — the two input windows' shared array what it
    held at entry, the output's array its folded write-backs (`hF4`) — and every other buffer what it held at entry (`hrest4`). -/
theorem hF4 (c : Dev nD) : ∀ w : Fin cfg4.W, (dat4 (V12 m ρ) c).arrAt w cfg4.N = V13 m ρ c (Pipeline.arrRef spec4 w)
  | ⟨0, _⟩ => ((dat4 (V12 m ρ) c).arrAt_in 0 rfl _).trans ((A_eq4 (V12 m ρ) c 0).trans (W13_of_ne m ρ c main_v35 (by decide)).symm)
  | ⟨1, _⟩ => ((dat4 (V12 m ρ) c).arrAt_in 1 rfl _).trans ((A_eq4 (V12 m ρ) c 1).trans (W13_of_ne m ρ c main_v35 (by decide)).symm)
  | ⟨2, _⟩ => (W13_out m ρ c).symm
theorem hrest4 (c : Dev nD) : ∀ b, b ∉ Finset.univ.image (Pipeline.arrRef spec4) → V13 m ρ c b = V12 m ρ c b :=
  fun b hb => W13_of_ne m ρ c b fun e => hb (Finset.mem_image.mpr ⟨2, Finset.mem_univ _, e.symm⟩)

/-! ### What each region leaves in its output arrays, by name -/

theorem W2_out (c : Dev nD) : W2 m ρ c (Proc.devRef .tc main_v4) = (dat0 (V1 m ρ) c).arrAt 2 cfg0.N := W2_arr m ρ c 2
theorem W4_out0 (c : Dev nD) : W4 m ρ c (Proc.devRef .tc main_v7_0) = (dat1 (V3 m ρ) c).arrAt 5 cfg1.N := W4_arr m ρ c 5
theorem W4_out1 (c : Dev nD) : W4 m ρ c (Proc.devRef .tc main_v7_1) = (dat1 (V3 m ρ) c).arrAt 6 cfg1.N := W4_arr m ρ c 6
theorem W8_out (c : Dev nD) : W8 m ρ c (Proc.devRef .tc main_v21) = (dat2 (V7 m ρ) c).arrAt 4 cfg2.N := W8_arr m ρ c 4
theorem W12_out (c : Dev nD) : W12 m ρ c (Proc.devRef .tc main_v35) = (dat3 (V11 m ρ) c).arrAt 4 cfg3.N := W12_arr m ρ c 4

/-! ### The arguments end as launched: no host operation writes one, and a region reads it through input windows or
    bypasses it, so the fold at an argument's buffer walks back to the launch memory -/

theorem W13_main_arg0 (c : Dev nD) : W13 m ρ c (Proc.devRef .tc main_arg0) = m ((c : Thread nD τ).loc main_arg0) :=
  (W13_of_ne m ρ c main_arg0 (by decide)).trans <|
  (W12_keep m ρ c main_arg0 (by decide)).trans <|
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  (W8_keep m ρ c main_arg0 (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W4_keep m ρ c main_arg0 (by decide)).trans <|
  (StableHlo.after_of_writes_sub hostOps1 _ hostOps1_writes (by decide)).trans <|
  (W2_keep m ρ c main_arg0 (by decide)).trans <|
  (StableHlo.after_of_writes_sub hostOps0 _ hostOps0_writes (by decide)).trans <| rfl
theorem W13_main_arg1 (c : Dev nD) : W13 m ρ c (Proc.devRef .tc main_arg1) = m ((c : Thread nD τ).loc main_arg1) :=
  (W13_of_ne m ρ c main_arg1 (by decide)).trans <|
  (W12_keep m ρ c main_arg1 (by decide)).trans <|
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  (W8_keep m ρ c main_arg1 (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W4_keep m ρ c main_arg1 (by decide)).trans <|
  (StableHlo.after_of_writes_sub hostOps1 _ hostOps1_writes (by decide)).trans <|
  (W2_keep m ρ c main_arg1 (by decide)).trans <|
  (StableHlo.after_of_writes_sub hostOps0 _ hostOps0_writes (by decide)).trans <| rfl
theorem W13_main_arg2 (c : Dev nD) : W13 m ρ c (Proc.devRef .tc main_arg2) = m ((c : Thread nD τ).loc main_arg2) :=
  (W13_of_ne m ρ c main_arg2 (by decide)).trans <|
  (W12_keep m ρ c main_arg2 (by decide)).trans <|
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  (W8_keep m ρ c main_arg2 (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W4_keep m ρ c main_arg2 (by decide)).trans <|
  (StableHlo.after_of_writes_sub hostOps1 _ hostOps1_writes (by decide)).trans <|
  (W2_keep m ρ c main_arg2 (by decide)).trans <|
  (StableHlo.after_of_writes_sub hostOps0 _ hostOps0_writes (by decide)).trans <| rfl
theorem W13_main_arg3 (c : Dev nD) : W13 m ρ c (Proc.devRef .tc main_arg3) = m ((c : Thread nD τ).loc main_arg3) :=
  (W13_of_ne m ρ c main_arg3 (by decide)).trans <|
  (W12_keep m ρ c main_arg3 (by decide)).trans <|
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  (W8_keep m ρ c main_arg3 (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W4_keep m ρ c main_arg3 (by decide)).trans <|
  (StableHlo.after_of_writes_sub hostOps1 _ hostOps1_writes (by decide)).trans <|
  (W2_keep m ρ c main_arg3 (by decide)).trans <|
  (StableHlo.after_of_writes_sub hostOps0 _ hostOps0_writes (by decide)).trans <| rfl
theorem W13_main_arg4 (c : Dev nD) : W13 m ρ c (Proc.devRef .tc main_arg4) = m ((c : Thread nD τ).loc main_arg4) :=
  (W13_of_ne m ρ c main_arg4 (by decide)).trans <|
  (W12_keep m ρ c main_arg4 (by decide)).trans <|
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  (W8_keep m ρ c main_arg4 (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W4_keep m ρ c main_arg4 (by decide)).trans <|
  (StableHlo.after_of_writes_sub hostOps1 _ hostOps1_writes (by decide)).trans <|
  (W2_keep m ρ c main_arg4 (by decide)).trans <|
  (StableHlo.after_of_writes_sub hostOps0 _ hostOps0_writes (by decide)).trans <| rfl
theorem W13_main_arg5 (c : Dev nD) : W13 m ρ c (Proc.devRef .tc main_arg5) = m ((c : Thread nD τ).loc main_arg5) :=
  (W13_of_ne m ρ c main_arg5 (by decide)).trans <|
  (W12_keep m ρ c main_arg5 (by decide)).trans <|
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  (W8_keep m ρ c main_arg5 (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W4_keep m ρ c main_arg5 (by decide)).trans <|
  (StableHlo.after_of_writes_sub hostOps1 _ hostOps1_writes (by decide)).trans <|
  (W2_keep m ρ c main_arg5 (by decide)).trans <|
  (StableHlo.after_of_writes_sub hostOps0 _ hostOps0_writes (by decide)).trans <| rfl
theorem W13_main_arg6 (c : Dev nD) : W13 m ρ c (Proc.devRef .tc main_arg6) = m ((c : Thread nD τ).loc main_arg6) :=
  (W13_of_ne m ρ c main_arg6 (by decide)).trans <|
  (W12_keep m ρ c main_arg6 (by decide)).trans <|
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  (W8_keep m ρ c main_arg6 (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W4_keep m ρ c main_arg6 (by decide)).trans <|
  (StableHlo.after_of_writes_sub hostOps1 _ hostOps1_writes (by decide)).trans <|
  (W2_keep m ρ c main_arg6 (by decide)).trans <|
  (StableHlo.after_of_writes_sub hostOps0 _ hostOps0_writes (by decide)).trans <| rfl
theorem W13_main_arg7 (c : Dev nD) : W13 m ρ c (Proc.devRef .tc main_arg7) = m ((c : Thread nD τ).loc main_arg7) :=
  (W13_of_ne m ρ c main_arg7 (by decide)).trans <|
  (W12_keep m ρ c main_arg7 (by decide)).trans <|
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  (W8_keep m ρ c main_arg7 (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W4_keep m ρ c main_arg7 (by decide)).trans <|
  (StableHlo.after_of_writes_sub hostOps1 _ hostOps1_writes (by decide)).trans <|
  (W2_keep m ρ c main_arg7 (by decide)).trans <|
  (StableHlo.after_of_writes_sub hostOps0 _ hostOps0_writes (by decide)).trans <| rfl
theorem W13_main_arg8 (c : Dev nD) : W13 m ρ c (Proc.devRef .tc main_arg8) = m ((c : Thread nD τ).loc main_arg8) :=
  (W13_of_ne m ρ c main_arg8 (by decide)).trans <|
  (W12_keep m ρ c main_arg8 (by decide)).trans <|
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  (W8_keep m ρ c main_arg8 (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W4_keep m ρ c main_arg8 (by decide)).trans <|
  (StableHlo.after_of_writes_sub hostOps1 _ hostOps1_writes (by decide)).trans <|
  (W2_keep m ρ c main_arg8 (by decide)).trans <|
  (StableHlo.after_of_writes_sub hostOps0 _ hostOps0_writes (by decide)).trans <| rfl
theorem W13_main_arg9 (c : Dev nD) : W13 m ρ c (Proc.devRef .tc main_arg9) = m ((c : Thread nD τ).loc main_arg9) :=
  (W13_of_ne m ρ c main_arg9 (by decide)).trans <|
  (W12_keep m ρ c main_arg9 (by decide)).trans <|
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  (W8_keep m ρ c main_arg9 (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W4_keep m ρ c main_arg9 (by decide)).trans <|
  (StableHlo.after_of_writes_sub hostOps1 _ hostOps1_writes (by decide)).trans <|
  (W2_keep m ρ c main_arg9 (by decide)).trans <|
  (StableHlo.after_of_writes_sub hostOps0 _ hostOps0_writes (by decide)).trans <| rfl
theorem W13_main_arg10 (c : Dev nD) : W13 m ρ c (Proc.devRef .tc main_arg10) = m ((c : Thread nD τ).loc main_arg10) :=
  (W13_of_ne m ρ c main_arg10 (by decide)).trans <|
  (W12_keep m ρ c main_arg10 (by decide)).trans <|
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  (W8_keep m ρ c main_arg10 (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W4_keep m ρ c main_arg10 (by decide)).trans <|
  (StableHlo.after_of_writes_sub hostOps1 _ hostOps1_writes (by decide)).trans <|
  (W2_keep m ρ c main_arg10 (by decide)).trans <|
  (StableHlo.after_of_writes_sub hostOps0 _ hostOps0_writes (by decide)).trans <| rfl
theorem W13_main_arg11 (c : Dev nD) : W13 m ρ c (Proc.devRef .tc main_arg11) = m ((c : Thread nD τ).loc main_arg11) :=
  (W13_of_ne m ρ c main_arg11 (by decide)).trans <|
  (W12_keep m ρ c main_arg11 (by decide)).trans <|
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  (W8_keep m ρ c main_arg11 (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W4_keep m ρ c main_arg11 (by decide)).trans <|
  (StableHlo.after_of_writes_sub hostOps1 _ hostOps1_writes (by decide)).trans <|
  (W2_keep m ρ c main_arg11 (by decide)).trans <|
  (StableHlo.after_of_writes_sub hostOps0 _ hostOps0_writes (by decide)).trans <| rfl
/-! ## The proof data family and the thread state -/

/-- The prefetched tables' admissible contents: no pipeline has a table. -/
abbrev adm : (p : Fin 5) → (pcfgs (F := F) p).Adm := fun p => (cfgs p).toPCfg_adm
/-- Every pipeline's proof data, each at its region's entry contents — a literal `match`, so that the pinned
    configuration at a numeral reduces to the printed one. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V7 m ρ) c
  | ⟨3, _⟩ => fun c => dat3 (V11 m ρ) c
  | ⟨4, _⟩ => fun c => dat4 (V12 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along (its `post` is
    then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W13`, the
    generator register at some state. -/
abbrev Tₙ (c : Dev nD) : sProp 𝕄 := iprop(StableHlo.held (c : Thread nD τ) (Pipeline.ucRefs τ sig) (W13 m ρ c) ∗ ∃ r, prngReg c r)

/-! ## The regions as segments -/

set_option backward.isDefEq.respectTransparency.types false in
/-- REGION 0 (custom_call 0) over the thread state: entered from every unscoped buffer at `W1`, left at `W2`
    (what the next segment is entered from). Its arrays split out of the unscoped buffers and put back at the exit
    contents; the generator register into the class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state: entered from every unscoped buffer at `W3`, left at `W4`
    (what the next segment is entered from). Its arrays split out of the unscoped buffers and put back at the exit
    contents; the generator register into the class invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (custom_call 2) over the thread state: entered from every unscoped buffer at `W7`, left at `W8`
    (what the next segment is entered from). Its arrays split out of the unscoped buffers and put back at the exit
    contents; the generator register into the class invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 (custom_call 3) over the thread state: entered from every unscoped buffer at `W11`, left at `W12`
    (what the next segment is entered from). Its arrays split out of the unscoped buffers and put back at the exit
    contents; the generator register into the class invariant and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 (custom_call 4) over the thread state: entered from every unscoped buffer at `W12`, left at `W13` (what the
    launch reads at the end). Two of its windows read one array: out of the unscoped buffers that array's full share is
    halved between them at entry (`arrays4_of_unscopedBufs`) and the halves, still at the entry contents, rejoin at exit
    (`unscopedBufs_of_arrays4`); the generator register into the class invariant and out; nothing owed; no semaphore
    of the kernel's own. -/
def reg4 : Pipeline.RegionSeg (pcfgs (F := F)) adm (pdats m ρ) () defs₀ 𝒱₀ L lv 4 where
  win := winFacts₀4
  block_pos := block_pos4
  stage_whole := stage_whole4
  K := PEmpty
  osem k := k.elim
  ho := Pipeline.OwnSemFacts.none _
  hbody c := (body_obligation4 (V12 m ρ) c).loose
  hwaits := Pipeline.hwaits_of_owed_zero _ _ _ _ L lv 4 fun _ _ => rfl
  pre c := iprop(StableHlo.held (c : Thread nD τ) (Pipeline.ucRefs τ sig) (W12 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V12 m ρ c)
  hentry c := by
    rw [Pipeline.ownSems0_none]
    have hsplit := arrays4_of_unscopedBufs (F := F) c (pdats m ρ 4 c) rfl (V12 m ρ c) ((pdats m ρ 4 c).arrAt · 0) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := unscopedBufs_of_arrays4 (F := F) c (pdats m ρ 4 c) rfl (V12 m ρ c) (V13 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 13 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .region (reg2 m ρ),
    .host (hseg hostOps3 hostOps3_sub hostOps3_fresh (W8 m ρ)),
    .host (hseg hostOps3_1 hostOps3_1_sub hostOps3_1_fresh (W9 m ρ)),
    .host (hseg hostOps3_2 hostOps3_2_sub hostOps3_2_fresh (W10 m ρ)),
    .region (reg3 m ρ),
    .region (reg4 m ρ) ]
/-- @main IS the run of the segments: the program as the chain of its items, and the segments' run as the same chain. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state has the last region's output array `main_v36` at
    the last boundary's contents and the twelve argument arrays as launched: the launch over the segments, the last
    thread state read against the final state, the output by name and each argument walked back through the fold. -/
theorem run_main : θ_run defs (onTc (τ := τ) (main (F := F))) ⟨m, fun _ => 0, ρ⟩ (fun r => ∀ c : Dev nD,
      r.2.mem ((c.tc : Thread nD τ).loc main_v36) = W13 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨(h c _ (mem_uc main_v36 (by decide))),
      (h c _ (mem_uc main_arg0 (by decide))).trans (W13_main_arg0 m ρ c),
      (h c _ (mem_uc main_arg1 (by decide))).trans (W13_main_arg1 m ρ c),
      (h c _ (mem_uc main_arg2 (by decide))).trans (W13_main_arg2 m ρ c),
      (h c _ (mem_uc main_arg3 (by decide))).trans (W13_main_arg3 m ρ c),
      (h c _ (mem_uc main_arg4 (by decide))).trans (W13_main_arg4 m ρ c),
      (h c _ (mem_uc main_arg5 (by decide))).trans (W13_main_arg5 m ρ c),
      (h c _ (mem_uc main_arg6 (by decide))).trans (W13_main_arg6 m ρ c),
      (h c _ (mem_uc main_arg7 (by decide))).trans (W13_main_arg7 m ρ c),
      (h c _ (mem_uc main_arg8 (by decide))).trans (W13_main_arg8 m ρ c),
      (h c _ (mem_uc main_arg9 (by decide))).trans (W13_main_arg9 m ρ c),
      (h c _ (mem_uc main_arg10 (by decide))).trans (W13_main_arg10 m ρ c),
      (h c _ (mem_uc main_arg11 (by decide))).trans (W13_main_arg11 m ρ c)⟩)

end Cert.Kernel.Hand

end
-- ==== Proof.KI.Share4.lean ====
import proofs.«102501_j18846316494852_1_alg».proof.Proof.Gen.KernelIdeal.Launch
import Idealize.ShloMosaic.Lib.Pipeline.FrameBody

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

/-! # Region 4's shares: two input windows on one array

Windows 0 and 1 of region 4 both read the array behind `main_v35` (row block `i` and row block `j` of it) and
window 2 writes `main_v36`. The array's full share is halved: window 0 holds the left half, window 1 the right
half, and the two halves compose back to the full share; the output's array is held whole. -/

/-- The share of its array each window of region 4 holds: the two input windows the two halves of the full share
    of the one array they read, the output window the full share of its own. -/
def q4 : Fin 3 → PosShare TreeShare
  | ⟨0, _⟩ => fullShare.left
  | ⟨1, _⟩ => fullShare.right
  | ⟨2, _⟩ => fullShare

theorem q4_zero : q4 0 = fullShare.left := rfl
theorem q4_one : q4 1 = fullShare.right := rfl
theorem q4_two : q4 2 = fullShare := rfl

/-- A buffer held whole at the full share is the same buffer held at the two input windows' shares, at the same
    contents. -/
theorem pointsTo_q4 {ℓ : Loc nD τ sig} (f : Buf (Elt F) ℓ) :
    (ℓ ↦{fullShare} f : sProp 𝕄) = iprop((ℓ ↦{fullShare.left} f) ∗ ℓ ↦{fullShare.right} f) :=
  Entails.antisymm (pointsTo_share (PosShare.mem_left_op_right fullShare)).1 (pointsTo_share (PosShare.mem_left_op_right fullShare)).2

/-- The distinct buffers behind region 4's three windows are two. -/
theorem arrImage4 : (Finset.univ.image (Pipeline.arrRef spec4) : Finset (Ref sig .tc)) = {main_v35, main_v36} := by decide

/-- The buffers behind region 4's arrays, each whole at the full share at contents `V`, with the shared one's share
    halved. -/
theorem arrBufs4_eq (c : Dev nD) (V : (b : Ref sig .tc) → Buf (Elt F) ((c : Thread nD τ).loc b)) :
    (Pipeline.arrBufs spec4 c V : sProp 𝕄)
      = iprop((((c : Thread nD τ).loc main_v35) ↦{fullShare.left} V main_v35) ∗ (((c : Thread nD τ).loc main_v35) ↦{fullShare.right} V main_v35)
          ∗ (((c : Thread nD τ).loc main_v36) ↦{fullShare} V main_v36)) := by
  unfold Pipeline.arrBufs
  rw [arrImage4, bigSep_insert (by decide), bigSep_singleton, pointsTo_q4]
  exact Entails.antisymm BI.sep_assoc BI.sep_assoc'

/-- The windows' arrays of a proof data that deals the shares as `q4`, window by window. -/
theorem arrays4_eq (c : Dev nD) (dat : Dat τ (Elt F) Unit ℕ (UR sig nD τ) ℕ cfg4 c) (hq : dat.q = q4)
    (G : (w : Fin cfg4.W) → Buf (Elt F) ((cfg4.win w).arr.view.loc (c : Thread nD τ))) :
    (dat.arrays G : sProp 𝕄)
      = iprop((((c : Thread nD τ).loc main_v35) ↦{fullShare.left} G 0) ∗ (((c : Thread nD τ).loc main_v35) ↦{fullShare.right} G 1)
          ∗ (((c : Thread nD τ).loc main_v36) ↦{fullShare} G 2)) := by
  have h0 : dat.share 0 = fullShare.left := by unfold Dat.share; rw [hq]; rfl
  have h1 : dat.share 1 = fullShare.right := by unfold Dat.share; rw [hq]; rfl
  have h2 : dat.share 2 = fullShare := by unfold Dat.share; rfl
  unfold Dat.arrays
  rw [bigSep_W4]
  refine congrArg₂ _ ?_ (congrArg₂ _ ?_ ?_)
  · rw [(arr_whole4 0).set_eq_univ, h0]
  · rw [(arr_whole4 1).set_eq_univ, h1]
  · rw [(arr_whole4 2).set_eq_univ, h2]

/-- ENTRY, the arrays' part, for windows that share an array: a core's unscoped buffers at contents `V` are region
    4's arrays at contents `G` read off `V` (`hG`) — the shared array's full share halved between the two
    windows on it — and the unscoped rest. -/
theorem arrays4_of_unscopedBufs (c : Dev nD) (dat : Dat τ (Elt F) Unit ℕ (UR sig nD τ) ℕ cfg4 c) (hq : dat.q = q4)
    (V : (b : Ref sig .tc) → Buf (Elt F) ((c : Thread nD τ).loc b))
    (G : (w : Fin cfg4.W) → Buf (Elt F) ((cfg4.win w).arr.view.loc (c : Thread nD τ)))
    (hG : ∀ w, G w = V (Pipeline.arrRef spec4 w)) :
    (unscopedBufs c V : sProp 𝕄) ⊢ iprop(dat.arrays G ∗ Pipeline.unscopedRest spec4 c V) := by
  have hs : (unscopedBufs c V : sProp 𝕄) = iprop(Pipeline.arrBufs spec4 c V ∗ Pipeline.unscopedRest spec4 c V) :=
    Pipeline.unscopedBufs_split₀ cfgs 4 winFacts₀4.arr_unscoped c V
  rw [hs, arrBufs4_eq, arrays4_eq c dat hq G, hG 0, hG 1, hG 2]

/-- EXIT, the arrays' part, for windows that share an array: region 4's arrays at contents `G` and the unscoped
    rest at `V` are the core's unscoped buffers at any valuation `V'` that has the arrays at `G` and agrees with
    `V` off them: the two halves of the shared array's share, held at the same contents, rejoin. -/
theorem unscopedBufs_of_arrays4 (c : Dev nD) (dat : Dat τ (Elt F) Unit ℕ (UR sig nD τ) ℕ cfg4 c) (hq : dat.q = q4)
    (V V' : (b : Ref sig .tc) → Buf (Elt F) ((c : Thread nD τ).loc b))
    (G : (w : Fin cfg4.W) → Buf (Elt F) ((cfg4.win w).arr.view.loc (c : Thread nD τ)))
    (hG : ∀ w, G w = V' (Pipeline.arrRef spec4 w))
    (hrest : ∀ b, b ∉ Finset.univ.image (Pipeline.arrRef spec4) → V' b = V b) :
    iprop(dat.arrays G ∗ Pipeline.unscopedRest spec4 c V) ⊢ (unscopedBufs c V' : sProp 𝕄) := by
  have hs : (unscopedBufs c V' : sProp 𝕄) = iprop(Pipeline.arrBufs spec4 c V' ∗ Pipeline.unscopedRest spec4 c V') :=
    Pipeline.unscopedBufs_split₀ cfgs 4 winFacts₀4.arr_unscoped c V'
  rw [hs, arrBufs4_eq, arrays4_eq c dat hq G, hG 0, hG 1, hG 2]
  refine sep_mono .rfl (Entails.of_eq ?_)
  unfold Pipeline.unscopedRest
  exact bigSep_congr fun b hb => by rw [hrest b (Finset.mem_sdiff.mp hb).2]

end Cert.KernelIdeal.Hand

end
-- ==== Proof.KI.Dat0.lean ====
import proofs.«102501_j18846316494852_1_alg».proof.Proof.Gen.KernelIdeal.Launch
import proofs.«102501_j18846316494852_1_alg».proof.Proof.Gen.KernelIdeal.Skeleton
import proofs.«102501_j18846316494852_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0 of @main (pipeline 0), at the entry contents `V`: the definitions -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block
    index has not moved, and the previous point's block is this point's; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block
    index has not moved, and the previous point's block is this point's; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole -/

abbrev r0_0 : Rect S1024x1 := Rect.unit (s := S1024x1) ![0, 0] S1024x1.size inb_S1024x1_S1024x1_0_0
abbrev r0_1 : Rect S20x128 := Rect.unit (s := S20x128) ![0, 0] S20x128.size inb_S20x128_S20x128_0_0
abbrev r0_2 : Rect S1024x128 := Rect.unit (s := S1024x128) ![0, 0] S1024x128.size inb_S1024x128_S1024x128_0_0

/-! ## What the body leaves in each output window's buffer -/

/-- Window 2's staging buffer after the body, from the input windows' blocks: its one store, of the whole buffer. -/
def out0_2 (x0 : Vec F S1024x1 .i32) (x1 : Vec F S20x128 .f32) : Vec F S1024x128 .f32 :=
  View.canon [⟨r0_2, k0_pay1 (View.ld x0 r0_0) (View.ld x1 r0_1)⟩]

/-- The store is of the whole buffer, so it covers it. -/
theorem cover0_2 (p0 : Vec F S1024x128 .f32) (y : S1024x128.Idx) :
    ∃ pc ∈ ([⟨r0_2, p0⟩] : List (View.Piece (Elt F) S1024x128 .f32)), y ∈ pc.1.set :=
  View.cover_of_tiled [⟨r0_2, p0⟩] S1024x128.size (by rfl) y

/-! ## The pipeline's proof data -/

/-- The proof data of pipeline 0 on core `c`: the arrays as the region finds them (`V`); after the body at
    point `t` each input's buffer at its block and each output's at `out0_w` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Cert.KernelIdeal.Hand

end
-- ==== Proof.KI.Dat1.lean ====
import proofs.«102501_j18846316494852_1_alg».proof.Proof.Gen.KernelIdeal.Launch
import proofs.«102501_j18846316494852_1_alg».proof.Proof.Gen.KernelIdeal.Skeleton
import proofs.«102501_j18846316494852_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1 of @main (pipeline 1), at the entry contents `V`: the definitions -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block
    index has not moved, and the previous point's block is this point's; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): unfetched, the block
    index has not moved, and the previous point's block is this point's; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): unfetched, the block
    index has not moved, and the previous point's block is this point's; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s (`hA`) and whose body leaves the block in place (`hafter`): unfetched, the block
    index has not moved, and the previous point's block is this point's; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s (`hA`) and whose body leaves the block in place (`hafter`): unfetched, the block
    index has not moved, and the previous point's block is this point's; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer whole -/

abbrev r1_0 : Rect S4096x16 := Rect.unit (s := S4096x16) ![0, 0] S4096x16.size inb_S4096x16_S4096x16_0_0
abbrev r1_1 : Rect S16x128 := Rect.unit (s := S16x128) ![0, 0] S16x128.size inb_S16x128_S16x128_0_0
abbrev r1_2 : Rect S1x128 := Rect.unit (s := S1x128) ![0, 0] S1x128.size inb_S1x128_S1x128_0_0
abbrev r1_3 : Rect S16x64 := Rect.unit (s := S16x64) ![0, 0] S16x64.size inb_S16x64_S16x64_0_0
abbrev r1_4 : Rect S1x64 := Rect.unit (s := S1x64) ![0, 0] S1x64.size inb_S1x64_S1x64_0_0
abbrev r1_5 : Rect S4096x128 := Rect.unit (s := S4096x128) ![0, 0] S4096x128.size inb_S4096x128_S4096x128_0_0
abbrev r1_6 : Rect S4096x64 := Rect.unit (s := S4096x64) ![0, 0] S4096x64.size inb_S4096x64_S4096x64_0_0

/-! ## What the body leaves in each output window's buffer -/

/-- Window 5's staging buffer after the body, from the input windows' blocks: its one store, of the whole buffer. -/
def out1_5 (x0 : Vec F S4096x16 .f32) (x1 : Vec F S16x128 .f32) (x2 : Vec F S1x128 .f32) (x3 : Vec F S16x64 .f32) (x4 : Vec F S1x64 .f32) : Vec F S4096x128 .f32 :=
  View.canon [⟨r1_5, k1_pay2 (View.ld x0 r1_0) (View.ld x1 r1_1) (View.ld x2 r1_2)⟩]

/-- The store is of the whole buffer, so it covers it. -/
theorem cover1_5 (p0 : Vec F S4096x128 .f32) (y : S4096x128.Idx) :
    ∃ pc ∈ ([⟨r1_5, p0⟩] : List (View.Piece (Elt F) S4096x128 .f32)), y ∈ pc.1.set :=
  View.cover_of_tiled [⟨r1_5, p0⟩] S4096x128.size (by rfl) y

/-- Window 6's staging buffer after the body, from the input windows' blocks: its one store, of the whole buffer. -/
def out1_6 (x0 : Vec F S4096x16 .f32) (x1 : Vec F S16x128 .f32) (x2 : Vec F S1x128 .f32) (x3 : Vec F S16x64 .f32) (x4 : Vec F S1x64 .f32) : Vec F S4096x64 .f32 :=
  View.canon [⟨r1_6, k1_pay3 (View.ld x0 r1_0) (View.ld x3 r1_3) (View.ld x4 r1_4)⟩]

/-- The store is of the whole buffer, so it covers it. -/
theorem cover1_6 (p0 : Vec F S4096x64 .f32) (y : S4096x64.Idx) :
    ∃ pc ∈ ([⟨r1_6, p0⟩] : List (View.Piece (Elt F) S4096x64 .f32)), y ∈ pc.1.set :=
  View.cover_of_tiled [⟨r1_6, p0⟩] S4096x64.size (by rfl) y

/-! ## The pipeline's proof data -/

/-- The proof data of pipeline 1 on core `c`: the arrays as the region finds them (`V`); after the body at
    point `t` each input's buffer at its block and each output's at `out1_w` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the definition's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

end Cert.KernelIdeal.Hand

end
-- ==== Proof.KI.Dat2.lean ====
import proofs.«102501_j18846316494852_1_alg».proof.Proof.Gen.KernelIdeal.Launch
import proofs.«102501_j18846316494852_1_alg».proof.Proof.Gen.KernelIdeal.Skeleton
import proofs.«102501_j18846316494852_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 2 of @main: custom_call 2, `cc2_kernel` (pipeline 2), at the entry contents `V` — the definitions -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block index
    has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): unfetched, the block index
    has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): unfetched, the block index
    has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s (`hA`) and whose body leaves the block in place (`hafter`): unfetched, the block index
    has not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each load and the store go through the whole staging buffer -/

abbrev r2_0 : Rect S1024x128 := Rect.unit (s := S1024x128) ![0, 0] S1024x128.size inb_S1024x128_S1024x128_0_0
abbrev r2_1 : Rect S128x64 := Rect.unit (s := S128x64) ![0, 0] S128x64.size inb_S128x64_S128x64_0_0
abbrev r2_2 : Rect S1x64 := Rect.unit (s := S1x64) ![0, 0] S1x64.size inb_S1x64_S1x64_0_0
abbrev r2_3 : Rect S1024x64 := Rect.unit (s := S1024x64) ![0, 0] S1024x64.size inb_S1024x64_S1024x64_0_0

/-! ## What the body leaves in the output window's buffer -/

/-- Window 4's staging buffer after the body, from the input windows' blocks: its one store as a piece, the payload
    computed from what the four loads read. -/
def out2_4 (x0 : Vec F S1024x128 .f32) (x1 : Vec F S1024x128 .f32) (x2 : Vec F S128x64 .f32) (x3 : Vec F S1x64 .f32) : Vec F S1024x64 .f32 :=
  View.canon [⟨r2_3, k2_pay1 (View.ld x0 r2_0) (View.ld x1 r2_0) (View.ld x2 r2_1) (View.ld x3 r2_2)⟩]

/-- The one store is the whole buffer, so it covers it (one block index per axis). -/
theorem cover2_4 (p0 : Vec F S1024x64 .f32) (y : S1024x64.Idx) :
    ∃ pc ∈ ([⟨r2_3, p0⟩] : List (View.Piece (Elt F) S1024x64 .f32)), y ∈ pc.1.set :=
  View.cover_of_tiled [⟨r2_3, p0⟩] S1024x64.size (by rfl) y

/-! ## The pipeline's proof data -/

/-- The proof data of pipeline 2 on core `c`: the arrays as the region finds them (`V`); after the body at
    point `t` each input's buffer at its block and the output's at `out2_4` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the `match` of the proof data reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

end Cert.KernelIdeal.Hand

end
-- ==== Proof.KI.Dat3.lean ====
import proofs.«102501_j18846316494852_1_alg».proof.Proof.Gen.KernelIdeal.Launch
import proofs.«102501_j18846316494852_1_alg».proof.Proof.Gen.KernelIdeal.Skeleton
import proofs.«102501_j18846316494852_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 3 of @main: custom_call 3, `cc3_kernel` (pipeline 3), at the entry contents `V` — the definitions -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the block index
    has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): unfetched, the block index
    has not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s (`hA`) and whose body leaves the block in place (`hafter`): unfetched, the block index
    has not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s (`hA`) and whose body leaves the block in place (`hafter`): unfetched, the block index
    has not moved; the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each load and the store go through the whole staging buffer -/

abbrev r3_0 : Rect S1024x64 := Rect.unit (s := S1024x64) ![0, 0] S1024x64.size inb_S1024x64_S1024x64_0_0
abbrev r3_1 : Rect S64x32 := Rect.unit (s := S64x32) ![0, 0] S64x32.size inb_S64x32_S64x32_0_0
abbrev r3_2 : Rect S1x32 := Rect.unit (s := S1x32) ![0, 0] S1x32.size inb_S1x32_S1x32_0_0
abbrev r3_3 : Rect S1024x32 := Rect.unit (s := S1024x32) ![0, 0] S1024x32.size inb_S1024x32_S1024x32_0_0

/-! ## What the body leaves in the output window's buffer -/

/-- Window 4's staging buffer after the body, from the input windows' blocks: its one store as a piece, the payload
    computed from what the four loads read. -/
def out3_4 (x0 : Vec F S1024x64 .f32) (x1 : Vec F S1024x64 .f32) (x2 : Vec F S64x32 .f32) (x3 : Vec F S1x32 .f32) : Vec F S1024x32 .f32 :=
  View.canon [⟨r3_3, k3_pay1 (View.ld x0 r3_0) (View.ld x1 r3_0) (View.ld x2 r3_1) (View.ld x3 r3_2)⟩]

/-- The one store is the whole buffer, so it covers it (one block index per axis). -/
theorem cover3_4 (p0 : Vec F S1024x32 .f32) (y : S1024x32.Idx) :
    ∃ pc ∈ ([⟨r3_3, p0⟩] : List (View.Piece (Elt F) S1024x32 .f32)), y ∈ pc.1.set :=
  View.cover_of_tiled [⟨r3_3, p0⟩] S1024x32.size (by rfl) y

/-! ## The pipeline's proof data -/

/-- The proof data of pipeline 3 on core `c`: the arrays as the region finds them (`V`); after the body at
    point `t` each input's buffer at its block and the output's at `out3_4` of the input blocks; the invariant
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the `match` of the proof data reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

end Cert.KernelIdeal.Hand

end
-- ==== Proof.KI.Dat4.lean ====
import proofs.«102501_j18846316494852_1_alg».proof.Proof.Gen.KernelIdeal.Launch
import proofs.«102501_j18846316494852_1_alg».proof.Proof.Gen.KernelIdeal.Skeleton
import proofs.«102501_j18846316494852_1_alg».proof.Proof.Gen.KernelIdeal.Points
import proofs.«102501_j18846316494852_1_alg».proof.Proof.KI.Share4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 4 of @main: custom_call 4, `cc4_kernel` (pipeline 4), at the entry contents `V` — the definitions.
    Windows 0 and 1 are two windows on one array (row block `i` and row block `j` of it); window 2 is the output. -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): unfetched, the block index
    has not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s (`hA`) and whose body leaves the block in place (`hafter`): unfetched, the block index
    has not moved; the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each load and the store go through the whole staging buffer -/

abbrev r4_0 : Rect S1024x32 := Rect.unit (s := S1024x32) ![0, 0] S1024x32.size inb_S1024x32_S1024x32_0_0
abbrev r4_1 : Rect S1024x1024 := Rect.unit (s := S1024x1024) ![0, 0] S1024x1024.size inb_S1024x1024_S1024x1024_0_0

/-! ## What the body leaves in the output window's buffer -/

/-- Window 2's staging buffer after the body, from the input windows' blocks: its one store as a piece, the payload
    computed from what the two loads read. -/
def out4_2 (x0 : Vec F S1024x32 .f32) (x1 : Vec F S1024x32 .f32) : Vec F S1024x1024 .f32 :=
  View.canon [⟨r4_1, k4_pay1 (View.ld x0 r4_0) (View.ld x1 r4_0)⟩]

/-- The one store is the whole buffer, so it covers it (one block index per axis). -/
theorem cover4_2 (p0 : Vec F S1024x1024 .f32) (y : S1024x1024.Idx) :
    ∃ pc ∈ ([⟨r4_1, p0⟩] : List (View.Piece (Elt F) S1024x1024 .f32)), y ∈ pc.1.set :=
  View.cover_of_tiled [⟨r4_1, p0⟩] S1024x1024.size (by rfl) y

/-! ## The pipeline's proof data -/

/-- The proof data of pipeline 4 on core `c`: the arrays as the region finds them (`V`); after the body at
    point `t` each input's buffer at its block and the output's at `out4_2` of the input blocks; the invariant
    the scoped rest and the generator register, untouched; nothing owed; of the array the two input windows
    share, each window the share `q4` gives it. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q := q4
  owed _ := 0

/-- The proof data's arrays are the region-entry contents (the definition projected). -/
theorem A_eq4 (c : Dev nD) (w : Fin cfg4.W) : (dat4 V c).A w = V c (Pipeline.arrRef spec4 w) := by
  dsimp only [dat4]

/-- What the body leaves, window by window (the `match` of the proof data reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

end Cert.KernelIdeal.Hand

end
-- ==== Proof.KI.Body0.lean ====
import proofs.«102501_j18846316494852_1_alg».proof.Proof.Gen.KernelIdeal.Launch
import proofs.«102501_j18846316494852_1_alg».proof.Proof.Gen.KernelIdeal.Skeleton
import proofs.«102501_j18846316494852_1_alg».proof.Proof.Gen.KernelIdeal.Points
import proofs.«102501_j18846316494852_1_alg».proof.Proof.KI.Dat0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0 of @main (pipeline 0), at the entry contents `V`: the body -/

/-! ## The body's triple -/

set_option maxHeartbeats 1000000 in
/-- The kernel body on whole staging memrefs, the inputs' at read contents `x_w` and the outputs' at anything, runs to
    the continuation holding the inputs' as they were and each output's at `out0_w` of the inputs': the printed function
    is its skeleton of loads and stores over named payloads, run step by step. -/
theorem sound_kernel0 (c : Dev nD) (E : Set ℕ) (i : grid0.Coords) (arg1 : Memref sig .tc .vmem S1024x1 .i32) (harg1 : arg1.IsWhole) (arg2 : Memref sig .tc .vmem S20x128 .f32) (harg2 : arg2.IsWhole) (arg3 : Memref sig .tc .vmem S1024x128 .f32) (harg3 : arg3.IsWhole)
    (x0 : Vec F S1024x1 .i32) (x1 : Vec F S20x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_w`), so `sound_kernel0` applies; the invariant
    and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
import proofs.«102501_j18846316494852_1_alg».proof.Proof.Gen.KernelIdeal.Launch
import proofs.«102501_j18846316494852_1_alg».proof.Proof.Gen.KernelIdeal.Skeleton
import proofs.«102501_j18846316494852_1_alg».proof.Proof.Gen.KernelIdeal.Points
import proofs.«102501_j18846316494852_1_alg».proof.Proof.KI.Dat1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1 of @main (pipeline 1), at the entry contents `V`: the body -/

/-! ## The body's triple -/

set_option maxHeartbeats 1000000 in
/-- The kernel body on whole staging memrefs, the inputs' at read contents `x_w` and the outputs' at anything, runs to
    the continuation holding the inputs' as they were and each output's at `out1_w` of the inputs': the printed function
    is its skeleton of loads and stores over named payloads, run step by step. -/
theorem sound_kernel1 (c : Dev nD) (E : Set ℕ) (i : grid1.Coords) (arg1 : Memref sig .tc .vmem S4096x16 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S16x64 .f32) (harg4 : arg4.IsWhole) (arg5 : Memref sig .tc .vmem S1x64 .f32) (harg5 : arg5.IsWhole) (arg6 : Memref sig .tc .vmem S4096x128 .f32) (harg6 : arg6.IsWhole) (arg7 : Memref sig .tc .vmem S4096x64 .f32) (harg7 : arg7.IsWhole)
    (x0 : Vec F S4096x16 .f32) (x1 : Vec F S16x128 .f32) (x2 : Vec F S1x128 .f32) (x3 : Vec F S16x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4) ∗ owns (c : Thread nD τ) arg7 fullShare (out1_6 x0 x1 x2 x3 x4)) -∗ K ⟨⟩))
      ⊢ wp frame (wpE (defs₀ (F := F)) Variants.none c none) E (cc1_kernel i arg1 harg1 arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_w`), so `sound_kernel1` applies; the invariant
    and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
import proofs.«102501_j18846316494852_1_alg».proof.Proof.Gen.KernelIdeal.Launch
import proofs.«102501_j18846316494852_1_alg».proof.Proof.Gen.KernelIdeal.Skeleton
import proofs.«102501_j18846316494852_1_alg».proof.Proof.Gen.KernelIdeal.Points
import proofs.«102501_j18846316494852_1_alg».proof.Proof.KI.Dat2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 2 of @main: custom_call 2, `cc2_kernel` (pipeline 2), at the entry contents `V` — the body -/

/-! ## The body's triple -/

set_option maxHeartbeats 1000000 in
/-- The kernel body on whole staging memrefs, the inputs' at read contents `x0 … x3` and the output's at anything, runs
    to the continuation holding the inputs' as they were and the output's at `out2_4` of the inputs': four loads, a
    load of the output buffer whose value is not used, and one store over the whole output buffer. -/
theorem sound_kernel2 (c : Dev nD) (E : Set ℕ) (i : grid2.Coords) (arg1 : Memref sig .tc .vmem S1024x128 .f32) (harg1 : arg1.IsWhole) (arg2 : Memref sig .tc .vmem S1024x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1024x64 .f32) (harg5 : arg5.IsWhole)
    (x0 : Vec F S1024x128 .f32) (x1 : Vec F S1024x128 .f32) (x2 : Vec F S128x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2_kernel i arg1 harg1 arg2 harg2 arg3 harg3 arg4 harg4 arg5 harg5) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_w`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Body3.lean ====
import proofs.«102501_j18846316494852_1_alg».proof.Proof.Gen.KernelIdeal.Launch
import proofs.«102501_j18846316494852_1_alg».proof.Proof.Gen.KernelIdeal.Skeleton
import proofs.«102501_j18846316494852_1_alg».proof.Proof.Gen.KernelIdeal.Points
import proofs.«102501_j18846316494852_1_alg».proof.Proof.KI.Dat3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 3 of @main: custom_call 3, `cc3_kernel` (pipeline 3), at the entry contents `V` — the body -/

/-! ## The body's triple -/

set_option maxHeartbeats 1000000 in
/-- The kernel body on whole staging memrefs, the inputs' at read contents `x0 … x3` and the output's at anything, runs
    to the continuation holding the inputs' as they were and the output's at `out3_4` of the inputs': four loads, a
    load of the output buffer whose value is not used, and one store over the whole output buffer. -/
theorem sound_kernel3 (c : Dev nD) (E : Set ℕ) (i : grid3.Coords) (arg1 : Memref sig .tc .vmem S1024x64 .f32) (harg1 : arg1.IsWhole) (arg2 : Memref sig .tc .vmem S1024x64 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S1024x32 .f32) (harg5 : arg5.IsWhole)
    (x0 : Vec F S1024x64 .f32) (x1 : Vec F S1024x64 .f32) (x2 : Vec F S64x32 .f32) (x3 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3_kernel i arg1 harg1 arg2 harg2 arg3 harg3 arg4 harg4 arg5 harg5) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The body obligation, at a generic point -/

/-- What the body is called with at point `t` (the obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks (`before3_w`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Body4.lean ====
import proofs.«102501_j18846316494852_1_alg».proof.Proof.Gen.KernelIdeal.Launch
import proofs.«102501_j18846316494852_1_alg».proof.Proof.Gen.KernelIdeal.Skeleton
import proofs.«102501_j18846316494852_1_alg».proof.Proof.Gen.KernelIdeal.Points
import proofs.«102501_j18846316494852_1_alg».proof.Proof.KI.Dat4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 4 of @main: custom_call 4, `cc4_kernel` (pipeline 4), at the entry contents `V` — the body -/

/-! ## The body's triple -/

set_option maxHeartbeats 1000000 in
/-- The kernel body on whole staging memrefs, the inputs' at read contents `x0`, `x1` and the output's at anything, runs
    to the continuation holding the inputs' as they were and the output's at `out4_2` of the inputs': two loads, a
    load of the output buffer whose value is not used, and one store over the whole output buffer. -/
theorem sound_kernel4 (c : Dev nD) (E : Set ℕ) (i : grid4.Coords) (arg2 : Memref sig .tc .vmem S1024x32 .f32) (harg2 : arg2.IsWhole) (arg3 : Memref sig .tc .vmem S1024x32 .f32) (harg3 : arg3.IsWhole) (arg4 : Memref sig .tc .vmem S1024x1024 .f32) (harg4 : arg4.IsWhole)
    (x0 : Vec F S1024x32 .f32) (x1 : Vec F S1024x32 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out4_2 x0 x1)) -∗ K ⟨⟩))
      ⊢ wp frame (wpE (defs₀ (F := F)) Variants.none c none) E (cc4_kernel i arg2 harg2 arg3 harg3 arg4 harg4) K := by
  simp only [cc4_kernel_eq_skeleton]; unfold cc4_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The body obligation, at a generic point -/

/-- What the body is called with at point `t` (the obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks (`before4_w`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
import proofs.«102501_j18846316494852_1_alg».proof.Proof.Gen.KernelIdeal.Launch
import proofs.«102501_j18846316494852_1_alg».proof.Proof.Gen.KernelIdeal.Skeleton
import proofs.«102501_j18846316494852_1_alg».proof.Proof.Gen.KernelIdeal.Points
import proofs.«102501_j18846316494852_1_alg».proof.Proof.Gen.KernelIdeal.Regions
import proofs.«102501_j18846316494852_1_alg».proof.Proof.KI.Share4
import proofs.«102501_j18846316494852_1_alg».proof.Proof.KI.Dat0
import proofs.«102501_j18846316494852_1_alg».proof.Proof.KI.Dat1
import proofs.«102501_j18846316494852_1_alg».proof.Proof.KI.Dat2
import proofs.«102501_j18846316494852_1_alg».proof.Proof.KI.Dat3
import proofs.«102501_j18846316494852_1_alg».proof.Proof.KI.Dat4
import proofs.«102501_j18846316494852_1_alg».proof.Proof.KI.Body0
import proofs.«102501_j18846316494852_1_alg».proof.Proof.KI.Body1
import proofs.«102501_j18846316494852_1_alg».proof.Proof.KI.Body2
import proofs.«102501_j18846316494852_1_alg».proof.Proof.KI.Body3
import proofs.«102501_j18846316494852_1_alg».proof.Proof.KI.Body4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The run of @main: thirteen items — eight stretches of host operations and five kernel regions — from the launch
    to the return

## The buffer contents at each boundary between two items: a fold through @main -/

/-- Core `c`'s buffers at launch. -/
abbrev W0 (m : (ℓ : Loc nD τ sig) → Buf (Elt F) ℓ) (ρ : Dev nD → PrngReg) : Dev nD → Valuation τ sig (Elt F) := fun c b => m ((c : Dev nD), b)

variable (m : (ℓ : Loc nD τ sig) → Buf (Elt F) ℓ) (ρ : Dev nD → PrngReg)

/-- After `hostOps0`. -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- An array of region 0 that only input windows read, and every buffer that is no array of the region, is left as
    entered: an input array is never written back. -/
theorem W2_keep (c : Dev nD) (b : Ref sig .tc) (hb : ∀ w, Pipeline.arrRef spec0 w = b → (cfg0.win w).isOut = false) :
    W2 m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w (hb w rfl) _).trans (A_eq0 (V1 m ρ) c w))
  · exact W2_of_ne m ρ c b fun w e => h ⟨w, e⟩
/-- After `hostOps1`. -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- An array of region 1 that only input windows read, and every buffer that is no array of the region, is left as
    entered: an input array is never written back. -/
theorem W4_keep (c : Dev nD) (b : Ref sig .tc) (hb : ∀ w, Pipeline.arrRef spec1 w = b → (cfg1.win w).isOut = false) :
    W4 m ρ c (Proc.devRef .tc b) = W3 m ρ c (Proc.devRef .tc b) := by
  by_cases h : ∃ w, Pipeline.arrRef spec1 w = b
  · obtain ⟨w, rfl⟩ := h
    exact (W4_arr m ρ c w).trans (((dat1 (V3 m ρ) c).arrAt_in w (hb w rfl) _).trans (A_eq1 (V3 m ρ) c w))
  · exact W4_of_ne m ρ c b fun w e => h ⟨w, e⟩
/-- After `hostOps2`. -/
abbrev W5 : Dev nD → Valuation τ sig (Elt F) := fun c => StableHlo.after hostOps2 (W4 m ρ c)
/-- After `hostOps2_1`. -/
abbrev W6 : Dev nD → Valuation τ sig (Elt F) := fun c => StableHlo.after hostOps2_1 (W5 m ρ c)
/-- After `hostOps2_2`. -/
abbrev W7 : Dev nD → Valuation τ sig (Elt F) := fun c => StableHlo.after hostOps2_2 (W6 m ρ c)
/-- The same read at the TensorCore's references (what region 2's proof data take). -/
abbrev V7 : (c : Dev nD) → (b : Ref sig .tc) → Buf (Elt F) ((c : Thread nD τ).loc b) := fun c b => W7 m ρ c b
/-- At region 2's exit: its arrays at what the pipeline leaves (the inputs as entered, each output's write-backs
    folded), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references (region 2's exit contents). -/
abbrev V8 : (c : Dev nD) → (b : Ref sig .tc) → Buf (Elt F) ((c : Thread nD τ).loc b) := fun c b => W8 m ρ c b
/-- At region 2's exit each of its arrays holds what the pipeline leaves (`hF2`) and every other buffer what it
    held at entry (`hrest2`). -/
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- An array of region 2 that only input windows read, and every buffer that is no array of the region, is left as
    entered: an input array is never written back. -/
theorem W8_keep (c : Dev nD) (b : Ref sig .tc) (hb : ∀ w, Pipeline.arrRef spec2 w = b → (cfg2.win w).isOut = false) :
    W8 m ρ c (Proc.devRef .tc b) = W7 m ρ c (Proc.devRef .tc b) := by
  by_cases h : ∃ w, Pipeline.arrRef spec2 w = b
  · obtain ⟨w, rfl⟩ := h
    exact (W8_arr m ρ c w).trans (((dat2 (V7 m ρ) c).arrAt_in w (hb w rfl) _).trans (A_eq2 (V7 m ρ) c w))
  · exact W8_of_ne m ρ c b fun w e => h ⟨w, e⟩
/-- After `hostOps3`. -/
abbrev W9 : Dev nD → Valuation τ sig (Elt F) := fun c => StableHlo.after hostOps3 (W8 m ρ c)
/-- After `hostOps3_1`. -/
abbrev W10 : Dev nD → Valuation τ sig (Elt F) := fun c => StableHlo.after hostOps3_1 (W9 m ρ c)
/-- After `hostOps3_2`. -/
abbrev W11 : Dev nD → Valuation τ sig (Elt F) := fun c => StableHlo.after hostOps3_2 (W10 m ρ c)
/-- The same read at the TensorCore's references (what region 3's proof data take). -/
abbrev V11 : (c : Dev nD) → (b : Ref sig .tc) → Buf (Elt F) ((c : Thread nD τ).loc b) := fun c b => W11 m ρ c b
/-- At region 3's exit: its arrays at what the pipeline leaves (the inputs as entered, each output's write-backs
    folded), every other buffer as entered. -/
def W12 (c : Dev nD) : Valuation τ sig (Elt F) :=
  Pipeline.withArrays spec3 c (W11 m ρ c) fun w => (dat3 (V11 m ρ) c).arrAt w cfg3.N
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
/-- The same read at the TensorCore's references (region 3's exit contents). -/
abbrev V12 : (c : Dev nD) → (b : Ref sig .tc) → Buf (Elt F) ((c : Thread nD τ).loc b) := fun c b => W12 m ρ c b
/-- At region 3's exit each of its arrays holds what the pipeline leaves (`hF3`) and every other buffer what it
    held at entry (`hrest3`). -/
theorem hF3 (c : Dev nD) (w : Fin cfg3.W) : (dat3 (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)
/-- An array of region 3 that only input windows read, and every buffer that is no array of the region, is left as
    entered: an input array is never written back. -/
theorem W12_keep (c : Dev nD) (b : Ref sig .tc) (hb : ∀ w, Pipeline.arrRef spec3 w = b → (cfg3.win w).isOut = false) :
    W12 m ρ c (Proc.devRef .tc b) = W11 m ρ c (Proc.devRef .tc b) := by
  by_cases h : ∃ w, Pipeline.arrRef spec3 w = b
  · obtain ⟨w, rfl⟩ := h
    exact (W12_arr m ρ c w).trans (((dat3 (V11 m ρ) c).arrAt_in w (hb w rfl) _).trans (A_eq3 (V11 m ρ) c w))
  · exact W12_of_ne m ρ c b fun w e => h ⟨w, e⟩
/-- At region 4's exit: the output window's array `main_v36` at what the pipeline leaves (its write-backs folded), every
    other buffer as entered — the array the two input windows read among them: an input array is never written back. -/
def W13 (c : Dev nD) : Valuation τ sig (Elt F) :=
  Function.update (W12 m ρ c) (Proc.devRef .tc main_v36) ((dat4 (V12 m ρ) c).arrAt 2 cfg4.N)
/-- What the last region leaves in its output array. -/
theorem W13_out (c : Dev nD) : W13 m ρ c (Proc.devRef .tc main_v36) = (dat4 (V12 m ρ) c).arrAt 2 cfg4.N := by
  unfold W13; exact Function.update_self ..
theorem W13_of_ne (c : Dev nD) (b : Ref sig .tc) (hb : b ≠ main_v36) :
    W13 m ρ c (Proc.devRef .tc b) = W12 m ρ c (Proc.devRef .tc b) := by
  unfold W13; exact Function.update_of_ne (StableHlo.devRef_ne_of_ne hb) ..
/-- The same read at the TensorCore's references (region 4's exit contents). -/
abbrev V13 : (c : Dev nD) → (b : Ref sig .tc) → Buf (Elt F) ((c : Thread nD τ).loc b) := fun c b => W13 m ρ c b
/-- At region 4's exit each window's array holds what the pipeline leaves — the two input windows' shared array what it
    held at entry, the output's array its folded write-backs (`hF4`) — and every other buffer what it held at entry (`hrest4`). -/
theorem hF4 (c : Dev nD) : ∀ w : Fin cfg4.W, (dat4 (V12 m ρ) c).arrAt w cfg4.N = V13 m ρ c (Pipeline.arrRef spec4 w)
  | ⟨0, _⟩ => ((dat4 (V12 m ρ) c).arrAt_in 0 rfl _).trans ((A_eq4 (V12 m ρ) c 0).trans (W13_of_ne m ρ c main_v35 (by decide)).symm)
  | ⟨1, _⟩ => ((dat4 (V12 m ρ) c).arrAt_in 1 rfl _).trans ((A_eq4 (V12 m ρ) c 1).trans (W13_of_ne m ρ c main_v35 (by decide)).symm)
  | ⟨2, _⟩ => (W13_out m ρ c).symm
theorem hrest4 (c : Dev nD) : ∀ b, b ∉ Finset.univ.image (Pipeline.arrRef spec4) → V13 m ρ c b = V12 m ρ c b :=
  fun b hb => W13_of_ne m ρ c b fun e => hb (Finset.mem_image.mpr ⟨2, Finset.mem_univ _, e.symm⟩)

/-! ### What each region leaves in its output arrays, by name -/

theorem W2_out (c : Dev nD) : W2 m ρ c (Proc.devRef .tc main_v4) = (dat0 (V1 m ρ) c).arrAt 2 cfg0.N := W2_arr m ρ c 2
theorem W4_out0 (c : Dev nD) : W4 m ρ c (Proc.devRef .tc main_v7_0) = (dat1 (V3 m ρ) c).arrAt 5 cfg1.N := W4_arr m ρ c 5
theorem W4_out1 (c : Dev nD) : W4 m ρ c (Proc.devRef .tc main_v7_1) = (dat1 (V3 m ρ) c).arrAt 6 cfg1.N := W4_arr m ρ c 6
theorem W8_out (c : Dev nD) : W8 m ρ c (Proc.devRef .tc main_v21) = (dat2 (V7 m ρ) c).arrAt 4 cfg2.N := W8_arr m ρ c 4
theorem W12_out (c : Dev nD) : W12 m ρ c (Proc.devRef .tc main_v35) = (dat3 (V11 m ρ) c).arrAt 4 cfg3.N := W12_arr m ρ c 4

/-! ### The arguments end as launched: no host operation writes one, and a region reads it through input windows or
    bypasses it, so the fold at an argument's buffer walks back to the launch memory -/

theorem W13_main_arg0 (c : Dev nD) : W13 m ρ c (Proc.devRef .tc main_arg0) = m ((c : Thread nD τ).loc main_arg0) :=
  (W13_of_ne m ρ c main_arg0 (by decide)).trans <|
  (W12_keep m ρ c main_arg0 (by decide)).trans <|
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  (W8_keep m ρ c main_arg0 (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W4_keep m ρ c main_arg0 (by decide)).trans <|
  (StableHlo.after_of_writes_sub hostOps1 _ hostOps1_writes (by decide)).trans <|
  (W2_keep m ρ c main_arg0 (by decide)).trans <|
  (StableHlo.after_of_writes_sub hostOps0 _ hostOps0_writes (by decide)).trans <| rfl
theorem W13_main_arg1 (c : Dev nD) : W13 m ρ c (Proc.devRef .tc main_arg1) = m ((c : Thread nD τ).loc main_arg1) :=
  (W13_of_ne m ρ c main_arg1 (by decide)).trans <|
  (W12_keep m ρ c main_arg1 (by decide)).trans <|
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  (W8_keep m ρ c main_arg1 (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W4_keep m ρ c main_arg1 (by decide)).trans <|
  (StableHlo.after_of_writes_sub hostOps1 _ hostOps1_writes (by decide)).trans <|
  (W2_keep m ρ c main_arg1 (by decide)).trans <|
  (StableHlo.after_of_writes_sub hostOps0 _ hostOps0_writes (by decide)).trans <| rfl
theorem W13_main_arg2 (c : Dev nD) : W13 m ρ c (Proc.devRef .tc main_arg2) = m ((c : Thread nD τ).loc main_arg2) :=
  (W13_of_ne m ρ c main_arg2 (by decide)).trans <|
  (W12_keep m ρ c main_arg2 (by decide)).trans <|
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  (W8_keep m ρ c main_arg2 (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W4_keep m ρ c main_arg2 (by decide)).trans <|
  (StableHlo.after_of_writes_sub hostOps1 _ hostOps1_writes (by decide)).trans <|
  (W2_keep m ρ c main_arg2 (by decide)).trans <|
  (StableHlo.after_of_writes_sub hostOps0 _ hostOps0_writes (by decide)).trans <| rfl
theorem W13_main_arg3 (c : Dev nD) : W13 m ρ c (Proc.devRef .tc main_arg3) = m ((c : Thread nD τ).loc main_arg3) :=
  (W13_of_ne m ρ c main_arg3 (by decide)).trans <|
  (W12_keep m ρ c main_arg3 (by decide)).trans <|
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  (W8_keep m ρ c main_arg3 (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W4_keep m ρ c main_arg3 (by decide)).trans <|
  (StableHlo.after_of_writes_sub hostOps1 _ hostOps1_writes (by decide)).trans <|
  (W2_keep m ρ c main_arg3 (by decide)).trans <|
  (StableHlo.after_of_writes_sub hostOps0 _ hostOps0_writes (by decide)).trans <| rfl
theorem W13_main_arg4 (c : Dev nD) : W13 m ρ c (Proc.devRef .tc main_arg4) = m ((c : Thread nD τ).loc main_arg4) :=
  (W13_of_ne m ρ c main_arg4 (by decide)).trans <|
  (W12_keep m ρ c main_arg4 (by decide)).trans <|
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  (W8_keep m ρ c main_arg4 (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W4_keep m ρ c main_arg4 (by decide)).trans <|
  (StableHlo.after_of_writes_sub hostOps1 _ hostOps1_writes (by decide)).trans <|
  (W2_keep m ρ c main_arg4 (by decide)).trans <|
  (StableHlo.after_of_writes_sub hostOps0 _ hostOps0_writes (by decide)).trans <| rfl
theorem W13_main_arg5 (c : Dev nD) : W13 m ρ c (Proc.devRef .tc main_arg5) = m ((c : Thread nD τ).loc main_arg5) :=
  (W13_of_ne m ρ c main_arg5 (by decide)).trans <|
  (W12_keep m ρ c main_arg5 (by decide)).trans <|
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  (W8_keep m ρ c main_arg5 (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W4_keep m ρ c main_arg5 (by decide)).trans <|
  (StableHlo.after_of_writes_sub hostOps1 _ hostOps1_writes (by decide)).trans <|
  (W2_keep m ρ c main_arg5 (by decide)).trans <|
  (StableHlo.after_of_writes_sub hostOps0 _ hostOps0_writes (by decide)).trans <| rfl
theorem W13_main_arg6 (c : Dev nD) : W13 m ρ c (Proc.devRef .tc main_arg6) = m ((c : Thread nD τ).loc main_arg6) :=
  (W13_of_ne m ρ c main_arg6 (by decide)).trans <|
  (W12_keep m ρ c main_arg6 (by decide)).trans <|
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  (W8_keep m ρ c main_arg6 (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W4_keep m ρ c main_arg6 (by decide)).trans <|
  (StableHlo.after_of_writes_sub hostOps1 _ hostOps1_writes (by decide)).trans <|
  (W2_keep m ρ c main_arg6 (by decide)).trans <|
  (StableHlo.after_of_writes_sub hostOps0 _ hostOps0_writes (by decide)).trans <| rfl
theorem W13_main_arg7 (c : Dev nD) : W13 m ρ c (Proc.devRef .tc main_arg7) = m ((c : Thread nD τ).loc main_arg7) :=
  (W13_of_ne m ρ c main_arg7 (by decide)).trans <|
  (W12_keep m ρ c main_arg7 (by decide)).trans <|
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  (W8_keep m ρ c main_arg7 (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W4_keep m ρ c main_arg7 (by decide)).trans <|
  (StableHlo.after_of_writes_sub hostOps1 _ hostOps1_writes (by decide)).trans <|
  (W2_keep m ρ c main_arg7 (by decide)).trans <|
  (StableHlo.after_of_writes_sub hostOps0 _ hostOps0_writes (by decide)).trans <| rfl
theorem W13_main_arg8 (c : Dev nD) : W13 m ρ c (Proc.devRef .tc main_arg8) = m ((c : Thread nD τ).loc main_arg8) :=
  (W13_of_ne m ρ c main_arg8 (by decide)).trans <|
  (W12_keep m ρ c main_arg8 (by decide)).trans <|
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  (W8_keep m ρ c main_arg8 (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W4_keep m ρ c main_arg8 (by decide)).trans <|
  (StableHlo.after_of_writes_sub hostOps1 _ hostOps1_writes (by decide)).trans <|
  (W2_keep m ρ c main_arg8 (by decide)).trans <|
  (StableHlo.after_of_writes_sub hostOps0 _ hostOps0_writes (by decide)).trans <| rfl
theorem W13_main_arg9 (c : Dev nD) : W13 m ρ c (Proc.devRef .tc main_arg9) = m ((c : Thread nD τ).loc main_arg9) :=
  (W13_of_ne m ρ c main_arg9 (by decide)).trans <|
  (W12_keep m ρ c main_arg9 (by decide)).trans <|
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  (W8_keep m ρ c main_arg9 (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W4_keep m ρ c main_arg9 (by decide)).trans <|
  (StableHlo.after_of_writes_sub hostOps1 _ hostOps1_writes (by decide)).trans <|
  (W2_keep m ρ c main_arg9 (by decide)).trans <|
  (StableHlo.after_of_writes_sub hostOps0 _ hostOps0_writes (by decide)).trans <| rfl
theorem W13_main_arg10 (c : Dev nD) : W13 m ρ c (Proc.devRef .tc main_arg10) = m ((c : Thread nD τ).loc main_arg10) :=
  (W13_of_ne m ρ c main_arg10 (by decide)).trans <|
  (W12_keep m ρ c main_arg10 (by decide)).trans <|
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  (W8_keep m ρ c main_arg10 (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W4_keep m ρ c main_arg10 (by decide)).trans <|
  (StableHlo.after_of_writes_sub hostOps1 _ hostOps1_writes (by decide)).trans <|
  (W2_keep m ρ c main_arg10 (by decide)).trans <|
  (StableHlo.after_of_writes_sub hostOps0 _ hostOps0_writes (by decide)).trans <| rfl
theorem W13_main_arg11 (c : Dev nD) : W13 m ρ c (Proc.devRef .tc main_arg11) = m ((c : Thread nD τ).loc main_arg11) :=
  (W13_of_ne m ρ c main_arg11 (by decide)).trans <|
  (W12_keep m ρ c main_arg11 (by decide)).trans <|
  (StableHlo.after_of_writes_sub hostOps3_2 _ hostOps3_2_writes (by decide)).trans <|
  (StableHlo.after_of_writes_sub hostOps3_1 _ hostOps3_1_writes (by decide)).trans <|
  (StableHlo.after_of_writes_sub hostOps3 _ hostOps3_writes (by decide)).trans <|
  (W8_keep m ρ c main_arg11 (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W4_keep m ρ c main_arg11 (by decide)).trans <|
  (StableHlo.after_of_writes_sub hostOps1 _ hostOps1_writes (by decide)).trans <|
  (W2_keep m ρ c main_arg11 (by decide)).trans <|
  (StableHlo.after_of_writes_sub hostOps0 _ hostOps0_writes (by decide)).trans <| rfl
/-! ## The proof data family and the thread state -/

/-- The prefetched tables' admissible contents: no pipeline has a table. -/
abbrev adm : (p : Fin 5) → (pcfgs (F := F) p).Adm := fun p => (cfgs p).toPCfg_adm
/-- Every pipeline's proof data, each at its region's entry contents — a literal `match`, so that the pinned
    configuration at a numeral reduces to the printed one. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V7 m ρ) c
  | ⟨3, _⟩ => fun c => dat3 (V11 m ρ) c
  | ⟨4, _⟩ => fun c => dat4 (V12 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along (its `post` is
    then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W13`, the
    generator register at some state. -/
abbrev Tₙ (c : Dev nD) : sProp 𝕄 := iprop(StableHlo.held (c : Thread nD τ) (Pipeline.ucRefs τ sig) (W13 m ρ c) ∗ ∃ r, prngReg c r)

/-! ## The regions as segments -/

set_option backward.isDefEq.respectTransparency.types false in
/-- REGION 0 (custom_call 0) over the thread state: entered from every unscoped buffer at `W1`, left at `W2`
    (what the next segment is entered from). Its arrays split out of the unscoped buffers and put back at the exit
    contents; the generator register into the class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state: entered from every unscoped buffer at `W3`, left at `W4`
    (what the next segment is entered from). Its arrays split out of the unscoped buffers and put back at the exit
    contents; the generator register into the class invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (custom_call 2) over the thread state: entered from every unscoped buffer at `W7`, left at `W8`
    (what the next segment is entered from). Its arrays split out of the unscoped buffers and put back at the exit
    contents; the generator register into the class invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 (custom_call 3) over the thread state: entered from every unscoped buffer at `W11`, left at `W12`
    (what the next segment is entered from). Its arrays split out of the unscoped buffers and put back at the exit
    contents; the generator register into the class invariant and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 (custom_call 4) over the thread state: entered from every unscoped buffer at `W12`, left at `W13` (what the
    launch reads at the end). Two of its windows read one array: out of the unscoped buffers that array's full share is
    halved between them at entry (`arrays4_of_unscopedBufs`) and the halves, still at the entry contents, rejoin at exit
    (`unscopedBufs_of_arrays4`); the generator register into the class invariant and out; nothing owed; no semaphore
    of the kernel's own. -/
def reg4 : Pipeline.RegionSeg (pcfgs (F := F)) adm (pdats m ρ) () defs₀ 𝒱₀ L lv 4 where
  win := winFacts₀4
  block_pos := block_pos4
  stage_whole := stage_whole4
  K := PEmpty
  osem k := k.elim
  ho := Pipeline.OwnSemFacts.none _
  hbody c := (body_obligation4 (V12 m ρ) c).loose
  hwaits := Pipeline.hwaits_of_owed_zero _ _ _ _ L lv 4 fun _ _ => rfl
  pre c := iprop(StableHlo.held (c : Thread nD τ) (Pipeline.ucRefs τ sig) (W12 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V12 m ρ c)
  hentry c := by
    rw [Pipeline.ownSems0_none]
    have hsplit := arrays4_of_unscopedBufs (F := F) c (pdats m ρ 4 c) rfl (V12 m ρ c) ((pdats m ρ 4 c).arrAt · 0) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := unscopedBufs_of_arrays4 (F := F) c (pdats m ρ 4 c) rfl (V12 m ρ c) (V13 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 13 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .region (reg2 m ρ),
    .host (hseg hostOps3 hostOps3_sub hostOps3_fresh (W8 m ρ)),
    .host (hseg hostOps3_1 hostOps3_1_sub hostOps3_1_fresh (W9 m ρ)),
    .host (hseg hostOps3_2 hostOps3_2_sub hostOps3_2_fresh (W10 m ρ)),
    .region (reg3 m ρ),
    .region (reg4 m ρ) ]
/-- @main IS the run of the segments: the program as the chain of its items, and the segments' run as the same chain. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state has the last region's output array `main_v36` at
    the last boundary's contents and the twelve argument arrays as launched: the launch over the segments, the last
    thread state read against the final state, the output by name and each argument walked back through the fold. -/
theorem run_main : θ_run defs (onTc (τ := τ) (main (F := F))) ⟨m, fun _ => 0, ρ⟩ (fun r => ∀ c : Dev nD,
      r.2.mem ((c.tc : Thread nD τ).loc main_v36) = W13 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨(h c _ (mem_uc main_v36 (by decide))),
      (h c _ (mem_uc main_arg0 (by decide))).trans (W13_main_arg0 m ρ c),
      (h c _ (mem_uc main_arg1 (by decide))).trans (W13_main_arg1 m ρ c),
      (h c _ (mem_uc main_arg2 (by decide))).trans (W13_main_arg2 m ρ c),
      (h c _ (mem_uc main_arg3 (by decide))).trans (W13_main_arg3 m ρ c),
      (h c _ (mem_uc main_arg4 (by decide))).trans (W13_main_arg4 m ρ c),
      (h c _ (mem_uc main_arg5 (by decide))).trans (W13_main_arg5 m ρ c),
      (h c _ (mem_uc main_arg6 (by decide))).trans (W13_main_arg6 m ρ c),
      (h c _ (mem_uc main_arg7 (by decide))).trans (W13_main_arg7 m ρ c),
      (h c _ (mem_uc main_arg8 (by decide))).trans (W13_main_arg8 m ρ c),
      (h c _ (mem_uc main_arg9 (by decide))).trans (W13_main_arg9 m ρ c),
      (h c _ (mem_uc main_arg10 (by decide))).trans (W13_main_arg10 m ρ c),
      (h c _ (mem_uc main_arg11 (by decide))).trans (W13_main_arg11 m ρ c)⟩)

end Cert.KernelIdeal.Hand

end
-- ==== Proof.KI.Spec.lean ====
/-
  The mathematics of a two-layer edge-conditioned graph network, stage by stage, as functions of whole arrays read
  index by index on the extended reals.

  * `emb`   : the node embedding, row `n` of the result is row `embRow (x n)` of a 20-row table;
  * `lin128`, `lin64` : an affine map of the 16 edge attributes, `Σ_k a(e,k)·w(k,f) + b(f)`;
  * `upd1`  : `leaky (Σ_k (1·h(n,k) + agg(n,k))·w(k,j) + b(j))` with `leaky y = y` when `y ≥ 0` and `c·y` otherwise;
  * `upd2`  : the same affine map of `1·h + agg` without the activation;
  * `sim`   : the Gram matrix `Σ_k h(i,k)·h(j,k)`.

  Every stage is one arrangement of sums and products: no distributive law is used anywhere, so nothing here asks
  the data to be finite.
-/
import Idealize.ShloMosaic.PureOps.Ideal
import Idealize.ShloMosaic.Lib.ValueIdx

noncomputable section

namespace Cert.Gine

open Idealize.ShloMosaic Idealize.ShloMosaic.ValueIdx

abbrev SNx1 : Shape := ⟨2, ![8192, 1]⟩
abbrev STab : Shape := ⟨2, ![20, 128]⟩
abbrev SNx128 : Shape := ⟨2, ![8192, 128]⟩
abbrev SNx64 : Shape := ⟨2, ![8192, 64]⟩
abbrev SNx32 : Shape := ⟨2, ![8192, 32]⟩
abbrev SNxN : Shape := ⟨2, ![8192, 8192]⟩
abbrev SEx16 : Shape := ⟨2, ![262144, 16]⟩
abbrev SEx128 : Shape := ⟨2, ![262144, 128]⟩
abbrev SEx64 : Shape := ⟨2, ![262144, 64]⟩
abbrev S16x128 : Shape := ⟨2, ![16, 128]⟩
abbrev S16x64 : Shape := ⟨2, ![16, 64]⟩
abbrev S128x64 : Shape := ⟨2, ![128, 64]⟩
abbrev S64x32 : Shape := ⟨2, ![64, 32]⟩
abbrev V128 : Shape := ⟨1, ![128]⟩
abbrev V64 : Shape := ⟨1, ![64]⟩
abbrev V32 : Shape := ⟨1, ![32]⟩

/-- The float `1.0`, the factor `1 + 1e-9` rounds to. -/
abbrev one : Ideal .f32 := Scalar.ofBits (F := Ideal) .f32 0x3F800000#32
/-- The float `0.0`. -/
abbrev zero : Ideal .f32 := Scalar.ofBits (F := Ideal) .f32 0x00000000#32
/-- The slope of the leaky rectifier, the float nearest `0.01`. -/
abbrev slope : Ideal .f32 := Scalar.ofBits (F := Ideal) .f32 0x3C23D70A#32

/-- The table row a node label selects: a negative label counts from the end, and the result is cut to `[0, 19]`. -/
def embRow (v : BitVec 32) : Fin 20 :=
  ⟨min (Scalar.select (IntOp.cmpi .slt v 0#32) (IntOp.addi v 20#32) v).toInt.toNat 19, by omega⟩

/-- The node embedding. -/
def emb (x : IVec SNx1 32) (t : FVec Ideal STab .f32) : FVec Ideal SNx128 .f32 :=
  fun i => t (ix2 (embRow (x (ix2 (i 0) (0 : Fin 1)))) (i 1))

/-- The affine map of the edge attributes, 128 wide. -/
def lin128 (a : FVec Ideal SEx16 .f32) (w : FVec Ideal S16x128 .f32) (b : FVec Ideal V128 .f32) : FVec Ideal SEx128 .f32 :=
  fun i => FloatOps.addf (F := Ideal) (∑ k : Fin 16, a (ix2 (i 0) k) * w (ix2 k (i 1))) (b (ix1 (i 1)))

/-- The affine map of the edge attributes, 64 wide. -/
def lin64 (a : FVec Ideal SEx16 .f32) (w : FVec Ideal S16x64 .f32) (b : FVec Ideal V64 .f32) : FVec Ideal SEx64 .f32 :=
  fun i => FloatOps.addf (F := Ideal) (∑ k : Fin 16, a (ix2 (i 0) k) * w (ix2 k (i 1))) (b (ix1 (i 1)))

/-- The leaky rectifier. -/
def leaky (y : Ideal .f32) : Ideal .f32 :=
  Scalar.select (FloatOps.cmpf (F := Ideal) .oge y zero) y (FloatOps.mulf (F := Ideal) slope y)

/-- The first node update: an affine map of `1·h + agg`, then the leaky rectifier. -/
def upd1 (h agg : FVec Ideal SNx128 .f32) (w : FVec Ideal S128x64 .f32) (b : FVec Ideal V64 .f32) : FVec Ideal SNx64 .f32 :=
  fun i => leaky (FloatOps.addf (F := Ideal)
    (∑ k : Fin 128, FloatOps.addf (F := Ideal) (FloatOps.mulf (F := Ideal) one (h (ix2 (i 0) k))) (agg (ix2 (i 0) k)) * w (ix2 k (i 1)))
    (b (ix1 (i 1))))

/-- The second node update: an affine map of `1·h + agg`. -/
def upd2 (h agg : FVec Ideal SNx64 .f32) (w : FVec Ideal S64x32 .f32) (b : FVec Ideal V32 .f32) : FVec Ideal SNx32 .f32 :=
  fun i => FloatOps.addf (F := Ideal)
    (∑ k : Fin 64, FloatOps.addf (F := Ideal) (FloatOps.mulf (F := Ideal) one (h (ix2 (i 0) k))) (agg (ix2 (i 0) k)) * w (ix2 k (i 1)))
    (b (ix1 (i 1)))

/-- The Gram matrix of the node features. -/
def sim (h : FVec Ideal SNx32 .f32) : FVec Ideal SNxN .f32 :=
  fun i => ∑ k : Fin 32, h (ix2 (i 0) k) * h (ix2 (i 1) k)

end Cert.Gine

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.LibColumnBroadcast.lean ====
/-
  A column broadcast over the columns of a matrix, read at an entry.

  An `[a, 1]` array broadcast to `[a, b]` reads, at `(p, c)`, the operand's entry of row `p`: the unit axis is the one
  that is stretched, the row axis is kept.
-/
import Idealize.ShloMosaic.Lib.Pipeline.Value
import Idealize.ShloMosaic.Lib.ValueIdx

namespace Cert.ColumnBroadcast

open Idealize.ShloMosaic Idealize.ShloMosaic.ValueIdx

/-- An `[a, 1]` array broadcast to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnBroadcast
-- ==== Proof.KI.Pay.lean ====
/-
  The bodies' arithmetic read at an index, on the extended reals: each block a kernel body stores is, entry by
  entry, the stage's formula over the blocks it loaded. A change of float format is the identity, a product into
  the zero accumulator is the plain sum over the shared axis, and a bias row is read at its column.
-/
import proofs.«102501_j18846316494852_1_alg».proof.Proof.Gen.KernelIdeal.Skeleton
import proofs.«102501_j18846316494852_1_alg».proof.Proof.KI.Spec
import proofs.«102501_j18846316494852_1_alg».proof.Proof.LibPlainMatmul
import proofs.«102501_j18846316494852_1_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

namespace Cert.Gine.Pay

open Idealize.ShloMosaic Idealize.ShloMosaic.ValueIdx Cert.KernelIdeal Cert.KernelIdeal.Gen Cert.PointConv

/-! ## The six products, each into the zero accumulator, as sums over the shared axis -/

theorem mm_onehot (A : FVec Ideal S1024x20 .bf16) (B : FVec Ideal S20x128 .bf16) (p : Fin 1024) (f : Fin 128) :
    matmul dot_S1024x20_S20x128_S1024x128_1_0_0_1_n_n none A B (constant S1024x128 .f32 0x00000000#32) (ix2 p f)
      = ∑ c : Fin 20, A (ix2 p c) * B (ix2 c f) := plainMatmul_zero_apply _ none A B p f

theorem mm_lin128 (A : FVec Ideal S4096x16 .bf16) (B : FVec Ideal S16x128 .bf16) (p : Fin 4096) (f : Fin 128) :
    matmul dot_S4096x16_S16x128_S4096x128_1_0_0_1_n_n none A B (constant S4096x128 .f32 0x00000000#32) (ix2 p f)
      = ∑ c : Fin 16, A (ix2 p c) * B (ix2 c f) := plainMatmul_zero_apply _ none A B p f

theorem mm_lin64 (A : FVec Ideal S4096x16 .bf16) (B : FVec Ideal S16x64 .bf16) (p : Fin 4096) (f : Fin 64) :
    matmul dot_S4096x16_S16x64_S4096x64_1_0_0_1_n_n none A B (constant S4096x64 .f32 0x00000000#32) (ix2 p f)
      = ∑ c : Fin 16, A (ix2 p c) * B (ix2 c f) := plainMatmul_zero_apply _ none A B p f

theorem mm_upd1 (A : FVec Ideal S1024x128 .bf16) (B : FVec Ideal S128x64 .bf16) (p : Fin 1024) (j : Fin 64) :
    matmul dot_S1024x128_S128x64_S1024x64_1_0_0_1_n_n none A B (constant S1024x64 .f32 0x00000000#32) (ix2 p j)
      = ∑ c : Fin 128, A (ix2 p c) * B (ix2 c j) := plainMatmul_zero_apply _ none A B p j

theorem mm_upd2 (A : FVec Ideal S1024x64 .bf16) (B : FVec Ideal S64x32 .bf16) (p : Fin 1024) (j : Fin 32) :
    matmul dot_S1024x64_S64x32_S1024x32_1_0_0_1_n_n none A B (constant S1024x32 .f32 0x00000000#32) (ix2 p j)
      = ∑ c : Fin 64, A (ix2 p c) * B (ix2 c j) := plainMatmul_zero_apply _ none A B p j

theorem mm_sim (A : FVec Ideal S1024x32 .bf16) (B : FVec Ideal S32x1024 .bf16) (p q : Fin 1024) :
    matmul dot_S1024x32_S32x1024_S1024x1024_1_0_0_1_n_n none A B (constant S1024x1024 .f32 0x00000000#32) (ix2 p q)
      = ∑ c : Fin 32, A (ix2 p c) * B (ix2 c q) := plainMatmul_zero_apply _ none A B p q

/-! ## The stored blocks, entry by entry -/

/-- The weight a node label `b` gives table row `v`: one when they are the same number, zero otherwise. -/
def oh (b : BitVec 32) (v : Fin 20) : EReal :=
  ((((IntOp.cmpi .eq b (BitVec.ofNat 32 v.val)).setWidth 32).toInt : ℝ) : EReal)

/-- The embedding block: row `p` is the table's rows weighted by the label's one-hot weights. -/
theorem onehot_apply (v1 : Vec Ideal S1024x1 .i32) (v7 : Vec Ideal S20x128 .f32) (p : Fin 1024) (f : Fin 128) :
    k0_pay1 (F := Ideal) v1 v7 (ix2 p f) = ∑ v : Fin 20, oh (v1 (ix2 p (0 : Fin 1))) v * v7 (ix2 v f) := by
  unfold k0_pay1
  dsimp only
  rw [mm_onehot]
  refine Finset.sum_congr rfl fun c _ => ?_
  simp only [truncf_apply, sitofp_apply, extui_apply, cmpi, Cert.ColumnBroadcast.broadcastTo_a1_ab_apply]
  rw [show iota Kind.tc S1024x20 32 [1] iota_S1024x20_d1_w32 (ix2 p c) = BitVec.ofNat 32 c.val from
    iota_single_apply .tc S1024x20 32 1 iota_S1024x20_d1_w32 (ix2 p c)]
  rfl

/-- The 64-wide edge block: `Σ_k a(p,k)·w(k,f) + b(0,f)`. -/
theorem lin64_apply (v0 : Vec Ideal S4096x16 .f32) (v4 : Vec Ideal S16x64 .f32) (v12 : Vec Ideal S1x64 .f32)
    (p : Fin 4096) (f : Fin 64) :
    k1_pay3 (F := Ideal) v0 v4 v12 (ix2 p f) = (∑ k : Fin 16, v0 (ix2 p k) * v4 (ix2 k f)) + v12 (ix2 (0 : Fin 1) f) := by
  unfold k1_pay3 k1_pay1
  dsimp only
  rw [addf_apply, shapeCast_self, broadcastTo_1b_ab_apply, mm_lin64]
  rfl

/-- The first update's block: the leaky rectifier of `Σ_k (1·h(p,k) + g(p,k))·w(k,j) + b(0,j)`. -/
theorem upd1_apply (v0 v4 : Vec Ideal S1024x128 .f32) (v8 : Vec Ideal S128x64 .f32) (v11 : Vec Ideal S1x64 .f32)
    (p : Fin 1024) (j : Fin 64) :
    k2_pay1 (F := Ideal) v0 v4 v8 v11 (ix2 p j)
      = Cert.Gine.leaky (FloatOps.addf (F := Ideal)
          (∑ k : Fin 128, FloatOps.addf (F := Ideal) (FloatOps.mulf (F := Ideal) Cert.Gine.one (v0 (ix2 p k))) (v4 (ix2 p k)) * v8 (ix2 k j))
          (v11 (ix2 (0 : Fin 1) j))) := by
  unfold k2_pay1
  try dsimp only
  rw [select_apply, cmpf_apply, mulf_apply, addf_apply, shapeCast_self, shapeCast_self, shapeCast_self,
    broadcastTo_1b_ab_apply, mm_upd1]
  rfl

/-- The second update's block: `Σ_k (1·h(p,k) + g(p,k))·w(k,j) + b(0,j)`. -/
theorem upd2_apply (v0 v4 : Vec Ideal S1024x64 .f32) (v8 : Vec Ideal S64x32 .f32) (v11 : Vec Ideal S1x32 .f32)
    (p : Fin 1024) (j : Fin 32) :
    k3_pay1 (F := Ideal) v0 v4 v8 v11 (ix2 p j)
      = FloatOps.addf (F := Ideal)
          (∑ k : Fin 64, FloatOps.addf (F := Ideal) (FloatOps.mulf (F := Ideal) Cert.Gine.one (v0 (ix2 p k))) (v4 (ix2 p k)) * v8 (ix2 k j))
          (v11 (ix2 (0 : Fin 1) j)) := by
  unfold k3_pay1
  try dsimp only
  rw [addf_apply, shapeCast_self, shapeCast_self, shapeCast_self, broadcastTo_1b_ab_apply, mm_upd2]
  rfl

/-- The similarity block: entry `(p, q)` is the inner product of row `p` of the first operand with row `q` of the second. -/
theorem sim_apply (v0 v3 : Vec Ideal S1024x32 .f32) (p q : Fin 1024) :
    k4_pay1 (F := Ideal) v0 v3 (ix2 p q) = ∑ k : Fin 32, v0 (ix2 p k) * v3 (ix2 q k) := by
  unfold k4_pay1
  dsimp only
  rw [mm_sim, shapeCast_self, shapeCast_self]
  refine Finset.sum_congr rfl fun c _ => ?_
  rw [transpose_ix2_apply]
  rfl

/-- The 128-wide edge block: `Σ_k a(p,k)·w(k,f) + b(0,f)`. -/
theorem lin128_apply (v0 : Vec Ideal S4096x16 .f32) (v2 : Vec Ideal S16x128 .f32) (v7 : Vec Ideal S1x128 .f32)
    (p : Fin 4096) (f : Fin 128) :
    k1_pay2 (F := Ideal) v0 v2 v7 (ix2 p f) = (∑ k : Fin 16, v0 (ix2 p k) * v2 (ix2 k f)) + v7 (ix2 (0 : Fin 1) f) := by
  unfold k1_pay2 k1_pay1
  dsimp only
  rw [addf_apply, shapeCast_self, broadcastTo_1b_ab_apply]
  refine congrArg (· + v7 (ix2 (0 : Fin 1) f)) ?_
  exact (plainMatmul_zero_apply _ none _ _ p f).trans (Finset.sum_congr rfl fun c _ => rfl)

end Cert.Gine.Pay

end
-- ==== Proof.KI.Emb.lean ====
/-
  The node embedding. A label in `[0, 20)` selects its own table row: read signed it is not negative, so it is not
  counted from the end, and it is already within `[0, 19]`. Its one-hot weights are one at that row and zero at the
  other nineteen, so the weighted sum of the table's rows is that row. The range of the labels is what the
  precondition's last conjunct says, entry by entry.
-/
import proofs.«102501_j18846316494852_1_alg».proof.Pre_finite_inputs
import proofs.«102501_j18846316494852_1_alg».proof.Proof.KI.Pay
import proofs.«102501_j18846316494852_1_alg».proof.Proof.KI.Spec
import Idealize.ShloMosaic.Lib.ReduceAll
import Idealize.ShloMosaic.Lib.ValueIdx

noncomputable section

namespace Cert.Gine.Emb

open Idealize.ShloMosaic Idealize.ShloMosaic.ValueIdx

/-- A word below `20` unsigned reads the same signed. -/
theorem toInt_of_lt (b : BitVec 32) (hb : b.toNat < 20) : b.toInt = (b.toNat : Int) := by
  unfold BitVec.toInt
  split <;> omega

/-- An in-range label selects its own row. -/
theorem embRow_of_lt (b : BitVec 32) (hb : b.toNat < 20) : Cert.Gine.embRow b = ⟨b.toNat, hb⟩ := by
  have hslt : b.slt 0#32 = false := by
    show decide (b.toInt < (0#32 : BitVec 32).toInt) = false
    refine decide_eq_false ?_
    rw [toInt_of_lt b hb, BitVec.toInt_zero]; omega
  have hs : IntOp.cmpi .slt b 0#32 = 0#1 := by
    show BitVec.ofBool (b.slt 0#32) = 0#1
    rw [hslt]; rfl
  have hsel : Scalar.select (IntOp.cmpi .slt b 0#32) (IntOp.addi b 20#32) b = b := by
    rw [hs]
    show (if (0#1 : BitVec 1) = 1 then IntOp.addi b 20#32 else b) = b
    rw [if_neg (by decide)]
  apply Fin.ext
  show min (Scalar.select (IntOp.cmpi .slt b 0#32) (IntOp.addi b 20#32) b).toInt.toNat 19 = b.toNat
  rw [hsel, toInt_of_lt b hb]
  omega

theorem toInt_one : ((BitVec.ofBool true).setWidth 32).toInt = 1 := by decide
theorem toInt_zero' : ((BitVec.ofBool false).setWidth 32).toInt = 0 := by decide

/-- The one-hot weight is one at the label's own row and zero elsewhere. -/
theorem oh_eq (b : BitVec 32) (v : Fin 20) : Cert.Gine.Pay.oh b v = if b.toNat = v.val then 1 else 0 := by
  have hv : v.val < 2 ^ 32 := by have := v.isLt; omega
  show ((((BitVec.ofBool (b == BitVec.ofNat 32 v.val)).setWidth 32).toInt : ℝ) : EReal) = _
  by_cases h : b.toNat = v.val
  · have hb : b = BitVec.ofNat 32 v.val := by
      apply BitVec.eq_of_toNat_eq; rw [BitVec.toNat_ofNat, Nat.mod_eq_of_lt hv]; exact h
    rw [if_pos h, beq_iff_eq.mpr hb, toInt_one]
    simp
  · have hb : (b == BitVec.ofNat 32 v.val) = false := by
      rw [beq_eq_false_iff_ne]
      intro e; apply h; rw [e, BitVec.toNat_ofNat, Nat.mod_eq_of_lt hv]
    rw [if_neg h, hb, toInt_zero']
    simp

/-- The weighted sum of the table's rows by an in-range label's one-hot weights is the label's row. -/
theorem onehot_sum (b : BitVec 32) (hb : b.toNat < 20) (g : Fin 20 → EReal) :
    ∑ v : Fin 20, Cert.Gine.Pay.oh b v * g v = g ⟨b.toNat, hb⟩ := by
  rw [Finset.sum_eq_single (⟨b.toNat, hb⟩ : Fin 20)]
  · rw [oh_eq, if_pos rfl, one_mul]
  · intro v _ hv
    rw [oh_eq, if_neg (fun e => hv (Fin.ext e.symm)), zero_mul]
  · intro h; exact absurd (Finset.mem_univ _) h

instance : Subsingleton Cert.Pre_finite_inputs.S_.Idx := ⟨fun a b => funext fun d => d.elim0⟩

/-- A word that is at least `0` and less than `20`, both read signed, is below `20` unsigned. -/
theorem toNat_lt_of_cmp (w : BitVec 32) (h0 : IntOp.cmpi .sge w 0#32 = 1#1) (h1 : IntOp.cmpi .slt w 20#32 = 1#1) : w.toNat < 20 := by
  have b0 : (0#32 : BitVec 32).sle w = true := by
    have e : BitVec.ofBool ((0#32 : BitVec 32).sle w) = 1#1 := h0
    cases hh : (0#32 : BitVec 32).sle w
    · rw [hh] at e; exact absurd e (by decide)
    · rfl
  have b1 : w.slt 20#32 = true := by
    have e : BitVec.ofBool (w.slt 20#32) = 1#1 := h1
    cases hh : w.slt 20#32
    · rw [hh] at e; exact absurd e (by decide)
    · rfl
  simp only [BitVec.slt, BitVec.sle, decide_eq_true_eq] at b0 b1
  have h32 := w.isLt
  unfold BitVec.toInt at b0 b1
  split at b1 <;> simp at b0 b1 <;> omega

end Cert.Gine.Emb

end
-- ==== Proof.KI.Val0.lean ====
/-
  The embedding stage, from blocks to the array. Grid point `t` of the 8-point grid loads row block `t` of the node
  labels and the whole 20-row table, and writes row block `t` of the result; row `p` of that block is the table's rows
  weighted by the one-hot weights of label `1024·t + p`, which for a label in `[0, 20)` is the table row the label
  names. The 8 row blocks tile the result, so it ends as the node embedding.
-/
import proofs.«102501_j18846316494852_1_alg».proof.Proof.KI.Dat0
import proofs.«102501_j18846316494852_1_alg».proof.Proof.KI.Pay
import proofs.«102501_j18846316494852_1_alg».proof.Proof.KI.Spec
import proofs.«102501_j18846316494852_1_alg».proof.Proof.KI.Emb
import Idealize.ShloMosaic.Lib.Pipeline.Value
import Idealize.ShloMosaic.Lib.ValueIdx

set_option maxRecDepth 16384

noncomputable section

namespace Cert.Gine.Val0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

theorem hz : (![0, 0] : Fin 2 → Nat) = fun _ => 0 := funext fun a => by fin_cases a <;> rfl

/-- Where the three windows sit at a point: the labels and the result at row block `t`, block column 0; the table at
    block (0, 0). -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) ≤ 7 ∧ win0_2.index t (1 : Fin 2) = 0 :=
  (by decide +kernel : ∀ t : Fin grid0.N, _)

/-- Every row block of the result is some point's. -/
theorem idx_onto : ∀ (q0 : Fin 8), ∃ t : Fin cfg0.N, win0_2.index t = ![q0.val, 0] :=
  (by decide +kernel : ∀ (q0 : Fin 8), ∃ t : Fin grid0.N, win0_2.index t = ![q0.val, 0])

/-- One block of the embedding: if the loaded label block is row block `i0` of `X`, every label of `X` is below 20 and
    the loaded table is `Tb`, the stored block at `(p, f)` is the embedding of `X` by `Tb` at `(1024·i0 + p, f)`. -/
theorem point (X : IVec Cert.Gine.SNx1 32) (Tb : FVec Ideal Cert.Gine.STab .f32)
    (hx : ∀ n : Fin 8192, (X (ix2 n (0 : Fin 1))).toNat < 20)
    (x0 : Vec Ideal S1024x1 .i32) (x1 : Vec Ideal S20x128 .f32) (i0 : Nat) (hi0 : i0 ≤ 7)
    (h0 : ∀ (p : Fin 1024), x0 (ix2 p (0 : Fin 1)) = X (ix2 (⟨i0 * 1024 + p.val, by omega⟩ : Fin 8192) (0 : Fin 1)))
    (h1 : ∀ (v : Fin 20) (f : Fin 128), x1 (ix2 v f) = Tb (ix2 v f))
    (p : Fin 1024) (f : Fin 128) :
    k0_pay1 (F := Ideal) x0 x1 (ix2 p f)
      = Cert.Gine.emb X Tb (ix2 (⟨i0 * 1024 + p.val, by omega⟩ : Fin 8192) f) := by
  rw [Cert.Gine.Pay.onehot_apply, h0]
  simp only [h1]
  rw [Cert.Gine.Emb.onehot_sum _ (hx _) (fun v => Tb (ix2 v f))]
  unfold Cert.Gine.emb
  show _ = Tb (ix2 (Cert.Gine.embRow (X (ix2 (⟨i0 * 1024 + p.val, by omega⟩ : Fin 8192) (0 : Fin 1)))) f)
  rw [Cert.Gine.Emb.embRow_of_lt _ (hx _)]

/-- What point `t` writes back is block `t` of the embedding of the labels by the table the region finds. -/
theorem flushed_eq (c : Dev nD) (hx : ∀ n : Fin 8192, (V c (Pipeline.arrRef spec0 0) (ix2 n (0 : Fin 1))).toNat < 20) (t : Fin cfg0.N) :
    (dat0 V c).flushed 2 t
      = ((cfg0.win 2).blk t).view.read (Elt Ideal) (Cert.Gine.emb (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S1024x1) hz, View.ld_unit_zero (S := S20x128) hz]
  obtain ⟨e00, e01, e10, e11, e20, e21⟩ := idx_facts t
  funext j
  obtain ⟨p, f, rfl⟩ : ∃ (p : Fin 1024) (f : Fin 128), j = ix2 p f := ⟨j 0, j 1, eq_ix2 j⟩
  refine (point (V c (Pipeline.arrRef spec0 0)) (V c (Pipeline.arrRef spec0 1)) hx (iblk0 V c 0 t) (iblk0 V c 1 t)
    (win0_2.index t (0 : Fin 2)) e20 ?_ ?_ p f).trans ?_
  · intro p
    show V c (Pipeline.arrRef spec0 0) (((cfg0.win 0).blk t).view.emb (ix2 p (0 : Fin 1))) = _
    refine congrArg _ (funext fun a => Fin.ext ?_)
    match a with
    | ⟨0, _⟩ => show win0_0.index t (0 : Fin 2) * 1024 + 1 * p.val = win0_2.index t (0 : Fin 2) * 1024 + p.val; omega
    | ⟨1, _⟩ => show win0_0.index t (1 : Fin 2) * 1 + 1 * 0 = 0; omega
  · intro v f
    show V c (Pipeline.arrRef spec0 1) (((cfg0.win 1).blk t).view.emb (ix2 v f)) = _
    refine congrArg _ (funext fun a => Fin.ext ?_)
    match a with
    | ⟨0, _⟩ => show win0_1.index t (0 : Fin 2) * 20 + 1 * v.val = v.val; omega
    | ⟨1, _⟩ => show win0_1.index t (1 : Fin 2) * 128 + 1 * f.val = f.val; omega
  · show _ = Cert.Gine.emb (V c (Pipeline.arrRef spec0 0)) (V c (Pipeline.arrRef spec0 1)) (((cfg0.win 2).blk t).view.emb (ix2 p f))
    refine congrArg _ (funext fun a => Fin.ext ?_)
    match a with
    | ⟨0, _⟩ => show win0_2.index t (0 : Fin 2) * 1024 + p.val = win0_2.index t (0 : Fin 2) * 1024 + 1 * p.val; omega
    | ⟨1, _⟩ => show f.val = win0_2.index t (1 : Fin 2) * 128 + 1 * f.val; omega

/-- An index of the result is in point `t`'s block iff each coordinate is in the block's range on its axis. -/
theorem mem_blk (t : Fin cfg0.N) (i : S8192x128.Idx) :
    i ∈ ((cfg0.win 2).blk t).view.set ↔ ∀ a : Fin 2, win0_2.index t a * S1024x128.size a ≤ (i a).val
      ∧ (i a).val < win0_2.index t a * S1024x128.size a + S1024x128.size a := by
  show i ∈ ((View.whole main_v4).slice (win0_2.rect t)).set ↔ _
  rw [View.set_slice_whole, Rect.mem_set_unit]
  exact Iff.rfl

/-- The blocks cover the result: entry `(r, s)` lies in the block of the point at block row `r / 1024`. -/
theorem cover (i : S8192x128.Idx) : ∃ t : Fin cfg0.N, (cfg0.win 2).flush t = true ∧ i ∈ ((cfg0.win 2).blk t).view.set := by
  have hi0 : (i 0).val < 8192 := (i 0).isLt
  have hi1 : (i 1).val < 128 := (i 1).isLt
  obtain ⟨t, ht⟩ := idx_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 128 ≤ (i 1).val ∧ (i 1).val < win0_2.index t (1 : Fin 2) * 128 + 128; omega

/-- The result array after the region, when every label it found is in `[0, 20)`: the node embedding. -/
theorem final (c : Dev nD) (hx : ∀ n : Fin 8192, (V c (Pipeline.arrRef spec0 0) (ix2 n (0 : Fin 1))).toNat < 20) :
    (dat0 V c).arrAt 2 cfg0.N = Cert.Gine.emb (V c (Pipeline.arrRef spec0 0)) (V c (Pipeline.arrRef spec0 1)) :=
  (dat0 V c).arrAt_eq_of_cover 2 _ (fun t _ => flushed_eq V c hx t) cover

end Cert.Gine.Val0

end
-- ==== Proof.KI.Val1.lean ====
/-
  The edge stage, from blocks to the arrays. Grid point `t` of the 64-point grid loads row block `t` of the edge
  attributes and, whole, the two weight tables and the two bias rows, and writes row block `t` of each of the two
  results; entry `(p, f)` of such a block is the affine map of attribute row `4096·t + p` at column `f`. The 64 row
  blocks tile each result, so each ends as the affine map of all the edge attributes.
-/
import proofs.«102501_j18846316494852_1_alg».proof.Proof.KI.Dat1
import proofs.«102501_j18846316494852_1_alg».proof.Proof.KI.Pay
import proofs.«102501_j18846316494852_1_alg».proof.Proof.KI.Spec
import Idealize.ShloMosaic.Lib.Pipeline.Value
import Idealize.ShloMosaic.Lib.ValueIdx

set_option maxRecDepth 16384

noncomputable section

namespace Cert.Gine.Val1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

theorem hz : (![0, 0] : Fin 2 → Nat) = fun _ => 0 := funext fun a => by fin_cases a <;> rfl

/-- Where the seven windows sit at a point: the attributes and both results at row block `t`, block column 0; the
    weight tables and the bias rows at block (0, 0). -/
theorem idx_facts : ∀ t : Fin cfg1.N,
    win1_0.index t (0 : Fin 2) = win1_5.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 63 ∧ win1_5.index t (1 : Fin 2) = 0
    ∧ win1_6.index t (0 : Fin 2) = win1_5.index t (0 : Fin 2) ∧ win1_6.index t (1 : Fin 2) = 0 :=
  (by decide +kernel : ∀ t : Fin grid1.N, _)

/-- Every row block of result 5 is some point's. -/
theorem idx_onto5 : ∀ (q0 : Fin 64), ∃ t : Fin cfg1.N, win1_5.index t = ![q0.val, 0] :=
  (by decide +kernel : ∀ (q0 : Fin 64), ∃ t : Fin grid1.N, win1_5.index t = ![q0.val, 0])

/-- One block of the 128-wide affine map: if the loaded attribute block is row block `i0` of `A`, the weight block is
    `W` and the bias row is `B`, the stored block at `(p, f)` is the affine map of `A`, `W`, `B` at `(4096·i0 + p, f)`. -/
theorem point5 (A : FVec Ideal Cert.Gine.SEx16 .f32) (W : FVec Ideal Cert.Gine.S16x128 .f32) (B : FVec Ideal Cert.Gine.V128 .f32)
    (x0 : Vec Ideal S4096x16 .f32) (xw : Vec Ideal S16x128 .f32) (xb : Vec Ideal S1x128 .f32) (i0 : Nat) (hi0 : i0 ≤ 63)
    (h0 : ∀ (p : Fin 4096) (k : Fin 16), x0 (ix2 p k) = A (ix2 (⟨i0 * 4096 + p.val, by omega⟩ : Fin 262144) k))
    (hw : ∀ (k : Fin 16) (f : Fin 128), xw (ix2 k f) = W (ix2 k f))
    (hb : ∀ (f : Fin 128), xb (ix2 (0 : Fin 1) f) = B (ix1 f))
    (p : Fin 4096) (f : Fin 128) :
    k1_pay2 (F := Ideal) x0 xw xb (ix2 p f)
      = Cert.Gine.lin128 A W B (ix2 (⟨i0 * 4096 + p.val, by omega⟩ : Fin 262144) f) := by
  rw [Cert.Gine.Pay.lin128_apply, hb]
  unfold Cert.Gine.lin128
  refine congrArg₂ (· + ·) (Finset.sum_congr rfl fun k _ => ?_) rfl
  rw [h0, hw]

/-- What point `t` writes back to result 5 is block `t` of the 128-wide affine map of the arrays the region finds. -/
theorem flushed_eq5 (c : Dev nD) (t : Fin cfg1.N) :
    (dat1 V c).flushed 5 t
      = ((cfg1.win 5).blk t).view.read (Elt Ideal) (Cert.Gine.lin128 (V c (Pipeline.arrRef spec1 0)) (V c (Pipeline.arrRef spec1 1))
          (fun i => V c (Pipeline.arrRef spec1 2) (ix2 (0 : Fin 1) (i 0)))) := by
  show (cfg1.win 5).cut (grid1.coords t) ((dat1 V c).after 5 t) = _
  rw [after1_5]
  unfold out1_5
  rw [View.canon_unit_zero hz]
  simp only [View.ld_unit_zero (S := S4096x16) hz, View.ld_unit_zero (S := S16x128) hz, View.ld_unit_zero (S := S1x128) hz]
  obtain ⟨e00, e01, e10, e11, e20, e21, e30, e31, e40, e41, e50, e51, e60, e61⟩ := idx_facts t
  funext j
  obtain ⟨p, f, rfl⟩ : ∃ (p : Fin 4096) (f : Fin 128), j = ix2 p f := ⟨j 0, j 1, eq_ix2 j⟩
  refine (point5 (V c (Pipeline.arrRef spec1 0)) (V c (Pipeline.arrRef spec1 1)) (fun i => V c (Pipeline.arrRef spec1 2) (ix2 (0 : Fin 1) (i 0)))
    (iblk1 V c 0 t) (iblk1 V c 1 t) (iblk1 V c 2 t) (win1_5.index t (0 : Fin 2)) (by omega) ?_ ?_ ?_ p f).trans ?_
  · intro p k
    show V c (Pipeline.arrRef spec1 0) (((cfg1.win 0).blk t).view.emb (ix2 p k)) = _
    refine congrArg _ (funext fun a => Fin.ext ?_)
    match a with
    | ⟨0, _⟩ => show win1_0.index t (0 : Fin 2) * 4096 + 1 * p.val = win1_5.index t (0 : Fin 2) * 4096 + p.val; omega
    | ⟨1, _⟩ => show win1_0.index t (1 : Fin 2) * 16 + 1 * k.val = k.val; omega
  · intro k f
    show V c (Pipeline.arrRef spec1 1) (((cfg1.win 1).blk t).view.emb (ix2 k f)) = _
    refine congrArg _ (funext fun a => Fin.ext ?_)
    match a with
    | ⟨0, _⟩ => show win1_1.index t (0 : Fin 2) * 16 + 1 * k.val = k.val; omega
    | ⟨1, _⟩ => show win1_1.index t (1 : Fin 2) * 128 + 1 * f.val = f.val; omega
  · intro f
    show V c (Pipeline.arrRef spec1 2) (((cfg1.win 2).blk t).view.emb (ix2 (0 : Fin 1) f)) = V c (Pipeline.arrRef spec1 2) (ix2 (0 : Fin 1) f)
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * f.val = f.val; omega
  · show _ = Cert.Gine.lin128 (V c (Pipeline.arrRef spec1 0)) (V c (Pipeline.arrRef spec1 1)) (fun i => V c (Pipeline.arrRef spec1 2) (ix2 (0 : Fin 1) (i 0)))
      (((cfg1.win 5).blk t).view.emb (ix2 p f))
    refine congrArg _ (funext fun a => Fin.ext ?_)
    match a with
    | ⟨0, _⟩ => show win1_5.index t (0 : Fin 2) * 4096 + p.val = win1_5.index t (0 : Fin 2) * 4096 + 1 * p.val; omega
    | ⟨1, _⟩ => show f.val = win1_5.index t (1 : Fin 2) * 128 + 1 * f.val; omega

/-- An index of result 5 is in point `t`'s block iff each coordinate is in the block's range on its axis. -/
theorem mem_blk5 (t : Fin cfg1.N) (i : S262144x128.Idx) :
    i ∈ ((cfg1.win 5).blk t).view.set ↔ ∀ a : Fin 2, win1_5.index t a * S4096x128.size a ≤ (i a).val
      ∧ (i a).val < win1_5.index t a * S4096x128.size a + S4096x128.size a := by
  show i ∈ ((View.whole main_v7_0).slice (win1_5.rect t)).set ↔ _
  rw [View.set_slice_whole, Rect.mem_set_unit]
  exact Iff.rfl

/-- The blocks cover result 5: entry `(r, s)` lies in the block of the point at block row `r / 4096`. -/
theorem cover5 (i : S262144x128.Idx) : ∃ t : Fin cfg1.N, (cfg1.win 5).flush t = true ∧ i ∈ ((cfg1.win 5).blk t).view.set := by
  have hi0 : (i 0).val < 262144 := (i 0).isLt
  have hi1 : (i 1).val < 128 := (i 1).isLt
  obtain ⟨t, ht⟩ := idx_onto5 ⟨(i 0).val / 4096, by omega⟩
  have q0 : win1_5.index t (0 : Fin 2) = (i 0).val / 4096 := congrFun ht 0
  have q1 : win1_5.index t (1 : Fin 2) = 0 := congrFun ht 1
  refine ⟨t, flush1_5 t, ?_⟩
  rw [mem_blk5]
  intro a
  match a with
  | ⟨0, _⟩ => show win1_5.index t (0 : Fin 2) * 4096 ≤ (i 0).val ∧ (i 0).val < win1_5.index t (0 : Fin 2) * 4096 + 4096; omega
  | ⟨1, _⟩ => show win1_5.index t (1 : Fin 2) * 128 ≤ (i 1).val ∧ (i 1).val < win1_5.index t (1 : Fin 2) * 128 + 128; omega

/-- Result 5 after the region: the 128-wide affine map of the edge attributes, the weight table and the bias row it found. -/
theorem final5 (c : Dev nD) : (dat1 V c).arrAt 5 cfg1.N
    = Cert.Gine.lin128 (V c (Pipeline.arrRef spec1 0)) (V c (Pipeline.arrRef spec1 1)) (fun i => V c (Pipeline.arrRef spec1 2) (ix2 (0 : Fin 1) (i 0))) :=
  (dat1 V c).arrAt_eq_of_cover 5 _ (fun t _ => flushed_eq5 V c t) cover5

/-- Every row block of result 6 is some point's. -/
theorem idx_onto6 : ∀ (q0 : Fin 64), ∃ t : Fin cfg1.N, win1_6.index t = ![q0.val, 0] :=
  (by decide +kernel : ∀ (q0 : Fin 64), ∃ t : Fin grid1.N, win1_6.index t = ![q0.val, 0])

/-- One block of the 64-wide affine map: if the loaded attribute block is row block `i0` of `A`, the weight block is
    `W` and the bias row is `B`, the stored block at `(p, f)` is the affine map of `A`, `W`, `B` at `(4096·i0 + p, f)`. -/
theorem point6 (A : FVec Ideal Cert.Gine.SEx16 .f32) (W : FVec Ideal Cert.Gine.S16x64 .f32) (B : FVec Ideal Cert.Gine.V64 .f32)
    (x0 : Vec Ideal S4096x16 .f32) (xw : Vec Ideal S16x64 .f32) (xb : Vec Ideal S1x64 .f32) (i0 : Nat) (hi0 : i0 ≤ 63)
    (h0 : ∀ (p : Fin 4096) (k : Fin 16), x0 (ix2 p k) = A (ix2 (⟨i0 * 4096 + p.val, by omega⟩ : Fin 262144) k))
    (hw : ∀ (k : Fin 16) (f : Fin 64), xw (ix2 k f) = W (ix2 k f))
    (hb : ∀ (f : Fin 64), xb (ix2 (0 : Fin 1) f) = B (ix1 f))
    (p : Fin 4096) (f : Fin 64) :
    k1_pay3 (F := Ideal) x0 xw xb (ix2 p f)
      = Cert.Gine.lin64 A W B (ix2 (⟨i0 * 4096 + p.val, by omega⟩ : Fin 262144) f) := by
  rw [Cert.Gine.Pay.lin64_apply, hb]
  unfold Cert.Gine.lin64
  refine congrArg₂ (· + ·) (Finset.sum_congr rfl fun k _ => ?_) rfl
  rw [h0, hw]

/-- What point `t` writes back to result 6 is block `t` of the 64-wide affine map of the arrays the region finds. -/
theorem flushed_eq6 (c : Dev nD) (t : Fin cfg1.N) :
    (dat1 V c).flushed 6 t
      = ((cfg1.win 6).blk t).view.read (Elt Ideal) (Cert.Gine.lin64 (V c (Pipeline.arrRef spec1 0)) (V c (Pipeline.arrRef spec1 3))
          (fun i => V c (Pipeline.arrRef spec1 4) (ix2 (0 : Fin 1) (i 0)))) := by
  show (cfg1.win 6).cut (grid1.coords t) ((dat1 V c).after 6 t) = _
  rw [after1_6]
  unfold out1_6
  rw [View.canon_unit_zero hz]
  simp only [View.ld_unit_zero (S := S4096x16) hz, View.ld_unit_zero (S := S16x64) hz, View.ld_unit_zero (S := S1x64) hz]
  obtain ⟨e00, e01, e10, e11, e20, e21, e30, e31, e40, e41, e50, e51, e60, e61⟩ := idx_facts t
  funext j
  obtain ⟨p, f, rfl⟩ : ∃ (p : Fin 4096) (f : Fin 64), j = ix2 p f := ⟨j 0, j 1, eq_ix2 j⟩
  refine (point6 (V c (Pipeline.arrRef spec1 0)) (V c (Pipeline.arrRef spec1 3)) (fun i => V c (Pipeline.arrRef spec1 4) (ix2 (0 : Fin 1) (i 0)))
    (iblk1 V c 0 t) (iblk1 V c 3 t) (iblk1 V c 4 t) (win1_6.index t (0 : Fin 2)) (by omega) ?_ ?_ ?_ p f).trans ?_
  · intro p k
    show V c (Pipeline.arrRef spec1 0) (((cfg1.win 0).blk t).view.emb (ix2 p k)) = _
    refine congrArg _ (funext fun a => Fin.ext ?_)
    match a with
    | ⟨0, _⟩ => show win1_0.index t (0 : Fin 2) * 4096 + 1 * p.val = win1_6.index t (0 : Fin 2) * 4096 + p.val; omega
    | ⟨1, _⟩ => show win1_0.index t (1 : Fin 2) * 16 + 1 * k.val = k.val; omega
  · intro k f
    show V c (Pipeline.arrRef spec1 3) (((cfg1.win 3).blk t).view.emb (ix2 k f)) = _
    refine congrArg _ (funext fun a => Fin.ext ?_)
    match a with
    | ⟨0, _⟩ => show win1_3.index t (0 : Fin 2) * 16 + 1 * k.val = k.val; omega
    | ⟨1, _⟩ => show win1_3.index t (1 : Fin 2) * 64 + 1 * f.val = f.val; omega
  · intro f
    show V c (Pipeline.arrRef spec1 4) (((cfg1.win 4).blk t).view.emb (ix2 (0 : Fin 1) f)) = V c (Pipeline.arrRef spec1 4) (ix2 (0 : Fin 1) f)
    refine congrArg _ (funext fun a => Fin.ext ?_)
    match a with
    | ⟨0, _⟩ => show win1_4.index t (0 : Fin 2) * 1 + 1 * 0 = 0; omega
    | ⟨1, _⟩ => show win1_4.index t (1 : Fin 2) * 64 + 1 * f.val = f.val; omega
  · show _ = Cert.Gine.lin64 (V c (Pipeline.arrRef spec1 0)) (V c (Pipeline.arrRef spec1 3)) (fun i => V c (Pipeline.arrRef spec1 4) (ix2 (0 : Fin 1) (i 0)))
      (((cfg1.win 6).blk t).view.emb (ix2 p f))
    refine congrArg _ (funext fun a => Fin.ext ?_)
    match a with
    | ⟨0, _⟩ => show win1_6.index t (0 : Fin 2) * 4096 + p.val = win1_6.index t (0 : Fin 2) * 4096 + 1 * p.val; omega
    | ⟨1, _⟩ => show f.val = win1_6.index t (1 : Fin 2) * 64 + 1 * f.val; omega

/-- An index of result 6 is in point `t`'s block iff each coordinate is in the block's range on its axis. -/
theorem mem_blk6 (t : Fin cfg1.N) (i : S262144x64.Idx) :
    i ∈ ((cfg1.win 6).blk t).view.set ↔ ∀ a : Fin 2, win1_6.index t a * S4096x64.size a ≤ (i a).val
      ∧ (i a).val < win1_6.index t a * S4096x64.size a + S4096x64.size a := by
  show i ∈ ((View.whole main_v7_1).slice (win1_6.rect t)).set ↔ _
  rw [View.set_slice_whole, Rect.mem_set_unit]
  exact Iff.rfl

/-- The blocks cover result 6: entry `(r, s)` lies in the block of the point at block row `r / 4096`. -/
theorem cover6 (i : S262144x64.Idx) : ∃ t : Fin cfg1.N, (cfg1.win 6).flush t = true ∧ i ∈ ((cfg1.win 6).blk t).view.set := by
  have hi0 : (i 0).val < 262144 := (i 0).isLt
  have hi1 : (i 1).val < 64 := (i 1).isLt
  obtain ⟨t, ht⟩ := idx_onto6 ⟨(i 0).val / 4096, by omega⟩
  have q0 : win1_6.index t (0 : Fin 2) = (i 0).val / 4096 := congrFun ht 0
  have q1 : win1_6.index t (1 : Fin 2) = 0 := congrFun ht 1
  refine ⟨t, flush1_6 t, ?_⟩
  rw [mem_blk6]
  intro a
  match a with
  | ⟨0, _⟩ => show win1_6.index t (0 : Fin 2) * 4096 ≤ (i 0).val ∧ (i 0).val < win1_6.index t (0 : Fin 2) * 4096 + 4096; omega
  | ⟨1, _⟩ => show win1_6.index t (1 : Fin 2) * 64 ≤ (i 1).val ∧ (i 1).val < win1_6.index t (1 : Fin 2) * 64 + 64; omega

/-- Result 6 after the region: the 64-wide affine map of the edge attributes, the weight table and the bias row it found. -/
theorem final6 (c : Dev nD) : (dat1 V c).arrAt 6 cfg1.N
    = Cert.Gine.lin64 (V c (Pipeline.arrRef spec1 0)) (V c (Pipeline.arrRef spec1 3)) (fun i => V c (Pipeline.arrRef spec1 4) (ix2 (0 : Fin 1) (i 0))) :=
  (dat1 V c).arrAt_eq_of_cover 6 _ (fun t _ => flushed_eq6 V c t) cover6

end Cert.Gine.Val1

end
-- ==== Proof.KI.Val2.lean ====
/-
  The first node update, from blocks to the array. Grid point `t` of the 8 points loads row block `t` of the node
  features and of the aggregated messages, the whole weight and the bias row, and writes row block `t` of the
  result; entry `(p, j)` of that block is the leaky rectifier of `Σ_k (1·h(n,k) + agg(n,k))·w(k,j) + b(j)` at row
  `n = 1024·t + p`. The 8 row blocks tile the result, so it ends as the first update of the whole arrays.
-/
import proofs.«102501_j18846316494852_1_alg».proof.Proof.KI.Dat2
import proofs.«102501_j18846316494852_1_alg».proof.Proof.KI.Pay
import proofs.«102501_j18846316494852_1_alg».proof.Proof.KI.Spec
import Idealize.ShloMosaic.Lib.Pipeline.Value
import Idealize.ShloMosaic.Lib.ValueIdx

set_option maxRecDepth 16384

noncomputable section

namespace Cert.Gine.Val2

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

theorem hz : (![0, 0] : Fin 2 → Nat) = fun _ => 0 := funext fun a => by fin_cases a <;> rfl

/-- Where the five windows sit at a point: the two row-block inputs at the output's block row, in block column 0;
    the weight and the bias at their one block; the output's block row within the 8 blocks, its block column 0. -/
theorem idx_facts : ∀ t : Fin cfg2.N,
    win2_0.index t (0 : Fin 2) = win2_4.index t (0 : Fin 2) ∧ win2_0.index t (1 : Fin 2) = 0
    ∧ win2_1.index t (0 : Fin 2) = win2_4.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) ≤ 7 ∧ win2_4.index t (1 : Fin 2) = 0 :=
  (by decide +kernel : ∀ t : Fin grid2.N, _)

/-- Every row block of the result is some point's. -/
theorem idx_onto : ∀ (q0 : Fin 8), ∃ t : Fin cfg2.N, win2_4.index t = ![q0.val, 0] :=
  (by decide +kernel : ∀ (q0 : Fin 8), ∃ t : Fin grid2.N, win2_4.index t = ![q0.val, 0])

/-- One row block of the update: if the two loaded row blocks are row block `i0` of `H` and of `G`, the loaded weight
    is `W` and the loaded bias row is `Bv`, the stored block at `(p, j)` is the update of `H`, `G`, `W` and the bias
    read as a vector, at `(1024·i0 + p, j)`. -/
theorem point (H G : FVec Ideal Cert.Gine.SNx128 .f32) (W : FVec Ideal Cert.Gine.S128x64 .f32) (Bv : Vec Ideal S1x64 .f32)
    (x0 x1 : Vec Ideal S1024x128 .f32) (x2 : Vec Ideal S128x64 .f32) (x3 : Vec Ideal S1x64 .f32) (i0 : Nat) (hi0 : i0 ≤ 7)
    (h0 : ∀ (p : Fin 1024) (k : Fin 128), x0 (ix2 p k) = H (ix2 (⟨i0 * 1024 + p.val, by omega⟩ : Fin 8192) k))
    (h1 : ∀ (p : Fin 1024) (k : Fin 128), x1 (ix2 p k) = G (ix2 (⟨i0 * 1024 + p.val, by omega⟩ : Fin 8192) k))
    (h2 : ∀ (k : Fin 128) (j : Fin 64), x2 (ix2 k j) = W (ix2 k j))
    (h3 : ∀ (j : Fin 64), x3 (ix2 (0 : Fin 1) j) = Bv (ix2 (0 : Fin 1) j))
    (p : Fin 1024) (j : Fin 64) :
    k2_pay1 (F := Ideal) x0 x1 x2 x3 (ix2 p j)
      = Cert.Gine.upd1 H G W (fun i => Bv (ix2 (0 : Fin 1) (i 0))) (ix2 (⟨i0 * 1024 + p.val, by omega⟩ : Fin 8192) j) := by
  rw [Cert.Gine.Pay.upd1_apply]
  unfold Cert.Gine.upd1
  rw [h3]
  have hs : (∑ k : Fin 128, FloatOps.addf (F := Ideal) (FloatOps.mulf (F := Ideal) Cert.Gine.one (x0 (ix2 p k))) (x1 (ix2 p k)) * x2 (ix2 k j))
      = ∑ k : Fin 128, FloatOps.addf (F := Ideal) (FloatOps.mulf (F := Ideal) Cert.Gine.one (H (ix2 (⟨i0 * 1024 + p.val, by omega⟩ : Fin 8192) k))) (G (ix2 (⟨i0 * 1024 + p.val, by omega⟩ : Fin 8192) k)) * W (ix2 k j) :=
    Finset.sum_congr rfl fun k _ => by rw [h0, h1, h2]
  rw [hs]

/-- What point `t` writes back is block `t` of the update of the arrays the region finds. -/
theorem flushed_eq (c : Dev nD) (t : Fin cfg2.N) :
    (dat2 V c).flushed 4 t
      = ((cfg2.win 4).blk t).view.read (Elt Ideal) (Cert.Gine.upd1 (V c (Pipeline.arrRef spec2 0)) (V c (Pipeline.arrRef spec2 1))
          (V c (Pipeline.arrRef spec2 2)) (fun i => V c (Pipeline.arrRef spec2 3) (ix2 (0 : Fin 1) (i 0)))) := by
  show (cfg2.win 4).cut (grid2.coords t) ((dat2 V c).after 4 t) = _
  rw [after2_4]
  unfold out2_4
  rw [View.canon_unit_zero hz]
  simp only [View.ld_unit_zero (S := S1024x128) hz, View.ld_unit_zero (S := S128x64) hz, View.ld_unit_zero (S := S1x64) hz]
  obtain ⟨e0, e1, e2, e3, e4, e5, e6, e7, e8, e9⟩ := idx_facts t
  funext jj
  obtain ⟨p, j, rfl⟩ : ∃ (p : Fin 1024) (j : Fin 64), jj = ix2 p j := ⟨jj 0, jj 1, eq_ix2 jj⟩
  refine (point (V c (Pipeline.arrRef spec2 0)) (V c (Pipeline.arrRef spec2 1)) (V c (Pipeline.arrRef spec2 2)) (V c (Pipeline.arrRef spec2 3))
    (iblk2 V c 0 t) (iblk2 V c 1 t) (iblk2 V c 2 t) (iblk2 V c 3 t) (win2_4.index t (0 : Fin 2)) e8 ?_ ?_ ?_ ?_ p j).trans ?_
  · intro p k
    show V c (Pipeline.arrRef spec2 0) (((cfg2.win 0).blk t).view.emb (ix2 p k)) = _
    refine congrArg _ (funext fun a => Fin.ext ?_)
    match a with
    | ⟨0, _⟩ => show win2_0.index t (0 : Fin 2) * 1024 + 1 * p.val = win2_4.index t (0 : Fin 2) * 1024 + p.val; omega
    | ⟨1, _⟩ => show win2_0.index t (1 : Fin 2) * 128 + 1 * k.val = k.val; omega
  · intro p k
    show V c (Pipeline.arrRef spec2 1) (((cfg2.win 1).blk t).view.emb (ix2 p k)) = _
    refine congrArg _ (funext fun a => Fin.ext ?_)
    match a with
    | ⟨0, _⟩ => show win2_1.index t (0 : Fin 2) * 1024 + 1 * p.val = win2_4.index t (0 : Fin 2) * 1024 + p.val; omega
    | ⟨1, _⟩ => show win2_1.index t (1 : Fin 2) * 128 + 1 * k.val = k.val; omega
  · intro k j
    show V c (Pipeline.arrRef spec2 2) (((cfg2.win 2).blk t).view.emb (ix2 k j)) = _
    refine congrArg _ (funext fun a => Fin.ext ?_)
    match a with
    | ⟨0, _⟩ => show win2_2.index t (0 : Fin 2) * 128 + 1 * k.val = k.val; omega
    | ⟨1, _⟩ => show win2_2.index t (1 : Fin 2) * 64 + 1 * j.val = j.val; omega
  · intro j
    show V c (Pipeline.arrRef spec2 3) (((cfg2.win 3).blk t).view.emb (ix2 (0 : Fin 1) j)) = _
    refine congrArg _ (funext fun a => Fin.ext ?_)
    match a with
    | ⟨0, _⟩ => show win2_3.index t (0 : Fin 2) * 1 + 1 * 0 = 0; omega
    | ⟨1, _⟩ => show win2_3.index t (1 : Fin 2) * 64 + 1 * j.val = j.val; omega
  · show _ = Cert.Gine.upd1 (V c (Pipeline.arrRef spec2 0)) (V c (Pipeline.arrRef spec2 1)) (V c (Pipeline.arrRef spec2 2))
      (fun i => V c (Pipeline.arrRef spec2 3) (ix2 (0 : Fin 1) (i 0))) (((cfg2.win 4).blk t).view.emb (ix2 p j))
    refine congrArg _ (funext fun a => Fin.ext ?_)
    match a with
    | ⟨0, _⟩ => show win2_4.index t (0 : Fin 2) * 1024 + p.val = win2_4.index t (0 : Fin 2) * 1024 + 1 * p.val; omega
    | ⟨1, _⟩ => show j.val = win2_4.index t (1 : Fin 2) * 64 + 1 * j.val; omega

/-- An index of the result is in point `t`'s block iff each coordinate is in the block's range on its axis. -/
theorem mem_blk (t : Fin cfg2.N) (i : S8192x64.Idx) :
    i ∈ ((cfg2.win 4).blk t).view.set ↔ ∀ a : Fin 2, win2_4.index t a * S1024x64.size a ≤ (i a).val
      ∧ (i a).val < win2_4.index t a * S1024x64.size a + S1024x64.size a := by
  show i ∈ ((View.whole main_v21).slice (win2_4.rect t)).set ↔ _
  rw [View.set_slice_whole, Rect.mem_set_unit]
  exact Iff.rfl

/-- The blocks cover the result: entry `(r, s)` lies in the block of the point at block row `r / 1024`. -/
theorem cover (i : S8192x64.Idx) : ∃ t : Fin cfg2.N, (cfg2.win 4).flush t = true ∧ i ∈ ((cfg2.win 4).blk t).view.set := by
  have hi0 : (i 0).val < 8192 := (i 0).isLt
  have hi1 : (i 1).val < 64 := (i 1).isLt
  obtain ⟨t, ht⟩ := idx_onto ⟨(i 0).val / 1024, by omega⟩
  have q0 : win2_4.index t (0 : Fin 2) = (i 0).val / 1024 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 1024 ≤ (i 0).val ∧ (i 0).val < win2_4.index t (0 : Fin 2) * 1024 + 1024; omega
  | ⟨1, _⟩ => show win2_4.index t (1 : Fin 2) * 64 ≤ (i 1).val ∧ (i 1).val < win2_4.index t (1 : Fin 2) * 64 + 64; omega

/-- The result array after the region: the update of the arrays it found, the bias row read as a vector. -/
theorem final (c : Dev nD) : (dat2 V c).arrAt 4 cfg2.N
    = Cert.Gine.upd1 (V c (Pipeline.arrRef spec2 0)) (V c (Pipeline.arrRef spec2 1)) (V c (Pipeline.arrRef spec2 2))
        (fun i => V c (Pipeline.arrRef spec2 3) (ix2 (0 : Fin 1) (i 0))) :=
  (dat2 V c).arrAt_eq_of_cover 4 _ (fun t _ => flushed_eq V c t) cover

end Cert.Gine.Val2

end
-- ==== Proof.KI.Val3.lean ====
/-
  The second node update, from blocks to the array. Grid point `t` of the 8 points loads row block `t` of the node
  features and of the aggregated messages, the whole weight and the bias row, and writes row block `t` of the
  result; entry `(p, j)` of that block is `Σ_k (1·h(n,k) + agg(n,k))·w(k,j) + b(j)` at row `n = 1024·t + p`. The 8
  row blocks tile the result, so it ends as the second update of the whole arrays.
-/
import proofs.«102501_j18846316494852_1_alg».proof.Proof.KI.Dat3
import proofs.«102501_j18846316494852_1_alg».proof.Proof.KI.Pay
import proofs.«102501_j18846316494852_1_alg».proof.Proof.KI.Spec
import Idealize.ShloMosaic.Lib.Pipeline.Value
import Idealize.ShloMosaic.Lib.ValueIdx

set_option maxRecDepth 16384

noncomputable section

namespace Cert.Gine.Val3

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

theorem hz : (![0, 0] : Fin 2 → Nat) = fun _ => 0 := funext fun a => by fin_cases a <;> rfl

/-- Where the five windows sit at a point: the two row-block inputs at the output's block row, in block column 0;
    the weight and the bias at their one block; the output's block row within the 8 blocks, its block column 0. -/
theorem idx_facts : ∀ t : Fin cfg3.N,
    win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) ≤ 7 ∧ win3_4.index t (1 : Fin 2) = 0 :=
  (by decide +kernel : ∀ t : Fin grid3.N, _)

/-- Every row block of the result is some point's. -/
theorem idx_onto : ∀ (q0 : Fin 8), ∃ t : Fin cfg3.N, win3_4.index t = ![q0.val, 0] :=
  (by decide +kernel : ∀ (q0 : Fin 8), ∃ t : Fin grid3.N, win3_4.index t = ![q0.val, 0])

/-- One row block of the update: if the two loaded row blocks are row block `i0` of `H` and of `G`, the loaded weight
    is `W` and the loaded bias row is `Bv`, the stored block at `(p, j)` is the update of `H`, `G`, `W` and the bias
    read as a vector, at `(1024·i0 + p, j)`. -/
theorem point (H G : FVec Ideal Cert.Gine.SNx64 .f32) (W : FVec Ideal Cert.Gine.S64x32 .f32) (Bv : Vec Ideal S1x32 .f32)
    (x0 x1 : Vec Ideal S1024x64 .f32) (x2 : Vec Ideal S64x32 .f32) (x3 : Vec Ideal S1x32 .f32) (i0 : Nat) (hi0 : i0 ≤ 7)
    (h0 : ∀ (p : Fin 1024) (k : Fin 64), x0 (ix2 p k) = H (ix2 (⟨i0 * 1024 + p.val, by omega⟩ : Fin 8192) k))
    (h1 : ∀ (p : Fin 1024) (k : Fin 64), x1 (ix2 p k) = G (ix2 (⟨i0 * 1024 + p.val, by omega⟩ : Fin 8192) k))
    (h2 : ∀ (k : Fin 64) (j : Fin 32), x2 (ix2 k j) = W (ix2 k j))
    (h3 : ∀ (j : Fin 32), x3 (ix2 (0 : Fin 1) j) = Bv (ix2 (0 : Fin 1) j))
    (p : Fin 1024) (j : Fin 32) :
    k3_pay1 (F := Ideal) x0 x1 x2 x3 (ix2 p j)
      = Cert.Gine.upd2 H G W (fun i => Bv (ix2 (0 : Fin 1) (i 0))) (ix2 (⟨i0 * 1024 + p.val, by omega⟩ : Fin 8192) j) := by
  rw [Cert.Gine.Pay.upd2_apply]
  unfold Cert.Gine.upd2
  rw [h3]
  have hs : (∑ k : Fin 64, FloatOps.addf (F := Ideal) (FloatOps.mulf (F := Ideal) Cert.Gine.one (x0 (ix2 p k))) (x1 (ix2 p k)) * x2 (ix2 k j))
      = ∑ k : Fin 64, FloatOps.addf (F := Ideal) (FloatOps.mulf (F := Ideal) Cert.Gine.one (H (ix2 (⟨i0 * 1024 + p.val, by omega⟩ : Fin 8192) k))) (G (ix2 (⟨i0 * 1024 + p.val, by omega⟩ : Fin 8192) k)) * W (ix2 k j) :=
    Finset.sum_congr rfl fun k _ => by rw [h0, h1, h2]
  rw [hs]

/-- What point `t` writes back is block `t` of the update of the arrays the region finds. -/
theorem flushed_eq (c : Dev nD) (t : Fin cfg3.N) :
    (dat3 V c).flushed 4 t
      = ((cfg3.win 4).blk t).view.read (Elt Ideal) (Cert.Gine.upd2 (V c (Pipeline.arrRef spec3 0)) (V c (Pipeline.arrRef spec3 1))
          (V c (Pipeline.arrRef spec3 2)) (fun i => V c (Pipeline.arrRef spec3 3) (ix2 (0 : Fin 1) (i 0)))) := by
  show (cfg3.win 4).cut (grid3.coords t) ((dat3 V c).after 4 t) = _
  rw [after3_4]
  unfold out3_4
  rw [View.canon_unit_zero hz]
  simp only [View.ld_unit_zero (S := S1024x64) hz, View.ld_unit_zero (S := S64x32) hz, View.ld_unit_zero (S := S1x32) hz]
  obtain ⟨e0, e1, e2, e3, e4, e5, e6, e7, e8, e9⟩ := idx_facts t
  funext jj
  obtain ⟨p, j, rfl⟩ : ∃ (p : Fin 1024) (j : Fin 32), jj = ix2 p j := ⟨jj 0, jj 1, eq_ix2 jj⟩
  refine (point (V c (Pipeline.arrRef spec3 0)) (V c (Pipeline.arrRef spec3 1)) (V c (Pipeline.arrRef spec3 2)) (V c (Pipeline.arrRef spec3 3))
    (iblk3 V c 0 t) (iblk3 V c 1 t) (iblk3 V c 2 t) (iblk3 V c 3 t) (win3_4.index t (0 : Fin 2)) e8 ?_ ?_ ?_ ?_ p j).trans ?_
  · intro p k
    show V c (Pipeline.arrRef spec3 0) (((cfg3.win 0).blk t).view.emb (ix2 p k)) = _
    refine congrArg _ (funext fun a => Fin.ext ?_)
    match a with
    | ⟨0, _⟩ => show win3_0.index t (0 : Fin 2) * 1024 + 1 * p.val = win3_4.index t (0 : Fin 2) * 1024 + p.val; omega
    | ⟨1, _⟩ => show win3_0.index t (1 : Fin 2) * 64 + 1 * k.val = k.val; omega
  · intro p k
    show V c (Pipeline.arrRef spec3 1) (((cfg3.win 1).blk t).view.emb (ix2 p k)) = _
    refine congrArg _ (funext fun a => Fin.ext ?_)
    match a with
    | ⟨0, _⟩ => show win3_1.index t (0 : Fin 2) * 1024 + 1 * p.val = win3_4.index t (0 : Fin 2) * 1024 + p.val; omega
    | ⟨1, _⟩ => show win3_1.index t (1 : Fin 2) * 64 + 1 * k.val = k.val; omega
  · intro k j
    show V c (Pipeline.arrRef spec3 2) (((cfg3.win 2).blk t).view.emb (ix2 k j)) = _
    refine congrArg _ (funext fun a => Fin.ext ?_)
    match a with
    | ⟨0, _⟩ => show win3_2.index t (0 : Fin 2) * 64 + 1 * k.val = k.val; omega
    | ⟨1, _⟩ => show win3_2.index t (1 : Fin 2) * 32 + 1 * j.val = j.val; omega
  · intro j
    show V c (Pipeline.arrRef spec3 3) (((cfg3.win 3).blk t).view.emb (ix2 (0 : Fin 1) j)) = _
    refine congrArg _ (funext fun a => Fin.ext ?_)
    match a with
    | ⟨0, _⟩ => show win3_3.index t (0 : Fin 2) * 1 + 1 * 0 = 0; omega
    | ⟨1, _⟩ => show win3_3.index t (1 : Fin 2) * 32 + 1 * j.val = j.val; omega
  · show _ = Cert.Gine.upd2 (V c (Pipeline.arrRef spec3 0)) (V c (Pipeline.arrRef spec3 1)) (V c (Pipeline.arrRef spec3 2))
      (fun i => V c (Pipeline.arrRef spec3 3) (ix2 (0 : Fin 1) (i 0))) (((cfg3.win 4).blk t).view.emb (ix2 p j))
    refine congrArg _ (funext fun a => Fin.ext ?_)
    match a with
    | ⟨0, _⟩ => show win3_4.index t (0 : Fin 2) * 1024 + p.val = win3_4.index t (0 : Fin 2) * 1024 + 1 * p.val; omega
    | ⟨1, _⟩ => show j.val = win3_4.index t (1 : Fin 2) * 32 + 1 * j.val; omega

/-- An index of the result is in point `t`'s block iff each coordinate is in the block's range on its axis. -/
theorem mem_blk (t : Fin cfg3.N) (i : S8192x32.Idx) :
    i ∈ ((cfg3.win 4).blk t).view.set ↔ ∀ a : Fin 2, win3_4.index t a * S1024x32.size a ≤ (i a).val
      ∧ (i a).val < win3_4.index t a * S1024x32.size a + S1024x32.size a := by
  show i ∈ ((View.whole main_v35).slice (win3_4.rect t)).set ↔ _
  rw [View.set_slice_whole, Rect.mem_set_unit]
  exact Iff.rfl

/-- The blocks cover the result: entry `(r, s)` lies in the block of the point at block row `r / 1024`. -/
theorem cover (i : S8192x32.Idx) : ∃ t : Fin cfg3.N, (cfg3.win 4).flush t = true ∧ i ∈ ((cfg3.win 4).blk t).view.set := by
  have hi0 : (i 0).val < 8192 := (i 0).isLt
  have hi1 : (i 1).val < 32 := (i 1).isLt
  obtain ⟨t, ht⟩ := idx_onto ⟨(i 0).val / 1024, by omega⟩
  have q0 : win3_4.index t (0 : Fin 2) = (i 0).val / 1024 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 1024 ≤ (i 0).val ∧ (i 0).val < win3_4.index t (0 : Fin 2) * 1024 + 1024; omega
  | ⟨1, _⟩ => show win3_4.index t (1 : Fin 2) * 32 ≤ (i 1).val ∧ (i 1).val < win3_4.index t (1 : Fin 2) * 32 + 32; omega

/-- The result array after the region: the update of the arrays it found, the bias row read as a vector. -/
theorem final (c : Dev nD) : (dat3 V c).arrAt 4 cfg3.N
    = Cert.Gine.upd2 (V c (Pipeline.arrRef spec3 0)) (V c (Pipeline.arrRef spec3 1)) (V c (Pipeline.arrRef spec3 2))
        (fun i => V c (Pipeline.arrRef spec3 3) (ix2 (0 : Fin 1) (i 0))) :=
  (dat3 V c).arrAt_eq_of_cover 4 _ (fun t _ => flushed_eq V c t) cover

end Cert.Gine.Val3

end
-- ==== Proof.KI.Val4.lean ====
/-
  The similarity stage, from blocks to the array. Grid point `t = (i, j)` of the 8 × 8 grid loads row block `i` and row
  block `j` of the node features and writes block `(i, j)` of the result; entry `(p, q)` of that block is the inner
  product of rows `1024·i + p` and `1024·j + q`. The 64 blocks tile the result, so it ends as the Gram matrix.
-/
import proofs.«102501_j18846316494852_1_alg».proof.Proof.KI.Dat4
import proofs.«102501_j18846316494852_1_alg».proof.Proof.KI.Pay
import proofs.«102501_j18846316494852_1_alg».proof.Proof.KI.Spec
import Idealize.ShloMosaic.Lib.Pipeline.Value
import Idealize.ShloMosaic.Lib.ValueIdx

set_option maxRecDepth 16384

noncomputable section

namespace Cert.Gine.Val4

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

theorem hz : (![0, 0] : Fin 2 → Nat) = fun _ => 0 := funext fun a => by fin_cases a <;> rfl

/-- Where the three windows sit at a point: both inputs in block column 0, the first at the output's block row, the
    second at the output's block column; the output's block indices within the 8 × 8 grid. -/
theorem idx_facts : ∀ t : Fin cfg4.N,
    win4_0.index t (0 : Fin 2) = win4_2.index t (0 : Fin 2) ∧ win4_0.index t (1 : Fin 2) = 0
    ∧ win4_1.index t (0 : Fin 2) = win4_2.index t (1 : Fin 2) ∧ win4_1.index t (1 : Fin 2) = 0
    ∧ win4_2.index t (0 : Fin 2) ≤ 7 ∧ win4_2.index t (1 : Fin 2) ≤ 7 :=
  (by decide +kernel : ∀ t : Fin grid4.N, _)

/-- Every block of the result is some point's. -/
theorem idx_onto : ∀ (q0 q1 : Fin 8), ∃ t : Fin cfg4.N, win4_2.index t = ![q0.val, q1.val] :=
  (by decide +kernel : ∀ (q0 q1 : Fin 8), ∃ t : Fin grid4.N, win4_2.index t = ![q0.val, q1.val])

/-- One block of the Gram matrix: if the loaded blocks are row blocks `i0` and `i1` of `A`, the stored block at
    `(p, q)` is the Gram matrix of `A` at `(1024·i0 + p, 1024·i1 + q)`. -/
theorem point (A : FVec Ideal Cert.Gine.SNx32 .f32) (x0 x1 : Vec Ideal S1024x32 .f32) (i0 i1 : Nat) (hi0 : i0 ≤ 7) (hi1 : i1 ≤ 7)
    (h0 : ∀ (p : Fin 1024) (k : Fin 32), x0 (ix2 p k) = A (ix2 (⟨i0 * 1024 + p.val, by omega⟩ : Fin 8192) k))
    (h1 : ∀ (q : Fin 1024) (k : Fin 32), x1 (ix2 q k) = A (ix2 (⟨i1 * 1024 + q.val, by omega⟩ : Fin 8192) k))
    (p q : Fin 1024) :
    k4_pay1 (F := Ideal) x0 x1 (ix2 p q)
      = Cert.Gine.sim A (ix2 (⟨i0 * 1024 + p.val, by omega⟩ : Fin 8192) (⟨i1 * 1024 + q.val, by omega⟩ : Fin 8192)) := by
  rw [Cert.Gine.Pay.sim_apply]
  unfold Cert.Gine.sim
  refine Finset.sum_congr rfl fun k _ => ?_
  rw [h0, h1]

/-- What point `t` writes back is block `t` of the Gram matrix of the features the region finds. -/
theorem flushed_eq (c : Dev nD) (t : Fin cfg4.N) :
    (dat4 V c).flushed 2 t
      = ((cfg4.win 2).blk t).view.read (Elt Ideal) (Cert.Gine.sim (V c (Pipeline.arrRef spec4 0))) := by
  show (cfg4.win 2).cut (grid4.coords t) ((dat4 V c).after 2 t) = _
  rw [after4_2]
  unfold out4_2
  rw [View.canon_unit_zero hz]
  simp only [View.ld_unit_zero (S := S1024x32) hz]
  obtain ⟨e0, e1, e2, e3, e4, e5⟩ := idx_facts t
  funext j
  obtain ⟨p, q, rfl⟩ : ∃ (p q : Fin 1024), j = ix2 p q := ⟨j 0, j 1, eq_ix2 j⟩
  refine (point (V c (Pipeline.arrRef spec4 0)) (iblk4 V c 0 t) (iblk4 V c 1 t) (win4_2.index t (0 : Fin 2)) (win4_2.index t (1 : Fin 2)) e4 e5 ?_ ?_ p q).trans ?_
  · intro p k
    show V c (Pipeline.arrRef spec4 0) (((cfg4.win 0).blk t).view.emb (ix2 p k)) = _
    refine congrArg _ (funext fun a => Fin.ext ?_)
    match a with
    | ⟨0, _⟩ => show win4_0.index t (0 : Fin 2) * 1024 + 1 * p.val = win4_2.index t (0 : Fin 2) * 1024 + p.val; omega
    | ⟨1, _⟩ => show win4_0.index t (1 : Fin 2) * 32 + 1 * k.val = k.val; omega
  · intro q k
    show V c (Pipeline.arrRef spec4 1) (((cfg4.win 1).blk t).view.emb (ix2 q k)) = _
    refine congrArg _ (funext fun a => Fin.ext ?_)
    match a with
    | ⟨0, _⟩ => show win4_1.index t (0 : Fin 2) * 1024 + 1 * q.val = win4_2.index t (1 : Fin 2) * 1024 + q.val; omega
    | ⟨1, _⟩ => show win4_1.index t (1 : Fin 2) * 32 + 1 * k.val = k.val; omega
  · show _ = Cert.Gine.sim (V c (Pipeline.arrRef spec4 0)) (((cfg4.win 2).blk t).view.emb (ix2 p q))
    refine congrArg _ (funext fun a => Fin.ext ?_)
    match a with
    | ⟨0, _⟩ => show win4_2.index t (0 : Fin 2) * 1024 + p.val = win4_2.index t (0 : Fin 2) * 1024 + 1 * p.val; omega
    | ⟨1, _⟩ => show win4_2.index t (1 : Fin 2) * 1024 + q.val = win4_2.index t (1 : Fin 2) * 1024 + 1 * q.val; omega

/-- An index of the result is in point `t`'s block iff each coordinate is in the block's range on its axis. -/
theorem mem_blk (t : Fin cfg4.N) (i : S8192x8192.Idx) :
    i ∈ ((cfg4.win 2).blk t).view.set ↔ ∀ a : Fin 2, win4_2.index t a * S1024x1024.size a ≤ (i a).val
      ∧ (i a).val < win4_2.index t a * S1024x1024.size a + S1024x1024.size a := by
  show i ∈ ((View.whole main_v36).slice (win4_2.rect t)).set ↔ _
  rw [View.set_slice_whole, Rect.mem_set_unit]
  exact Iff.rfl

/-- The blocks cover the result: entry `(r, s)` lies in the block of the point at block row `r / 1024`, block column `s / 1024`. -/
theorem cover (i : S8192x8192.Idx) : ∃ t : Fin cfg4.N, (cfg4.win 2).flush t = true ∧ i ∈ ((cfg4.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win4_2.index t (0 : Fin 2) = (i 0).val / 1024 := congrFun ht 0
  have q1 : win4_2.index t (1 : Fin 2) = (i 1).val / 1024 := congrFun ht 1
  refine ⟨t, flush4_2 t, ?_⟩
  rw [mem_blk]
  intro a
  match a with
  | ⟨0, _⟩ => show win4_2.index t (0 : Fin 2) * 1024 ≤ (i 0).val ∧ (i 0).val < win4_2.index t (0 : Fin 2) * 1024 + 1024; omega
  | ⟨1, _⟩ => show win4_2.index t (1 : Fin 2) * 1024 ≤ (i 1).val ∧ (i 1).val < win4_2.index t (1 : Fin 2) * 1024 + 1024; omega

/-- The result array after the region: the Gram matrix of the features it found. -/
theorem final (c : Dev nD) : (dat4 V c).arrAt 2 cfg4.N = Cert.Gine.sim (V c (Pipeline.arrRef spec4 0)) :=
  (dat4 V c).arrAt_eq_of_cover 2 _ (fun t _ => flushed_eq V c t) cover

end Cert.Gine.Val4

end
-- ==== Proof.KI.PreX.lean ====
/-
  What the precondition says of the node labels. Its value is a conjunction; its last conjunct is "every label `x` has
  `x ≥ 0` and `x < 20`, read signed", an `and` reduced over all 8192 labels. When the whole is true so is that
  conjunct, hence so is each label's pair of comparisons, and a word in `[0, 20)` signed is below 20 unsigned.
-/
import proofs.«102501_j18846316494852_1_alg».proof.Pre_finite_inputs
import proofs.«102501_j18846316494852_1_alg».proof.Proof.KI.Emb
import Idealize.ShloMosaic.Lib.ReduceAll
import Idealize.ShloMosaic.Lib.Affine
import Idealize.ShloMosaic.Lib.ValueIdx

set_option maxRecDepth 16384

noncomputable section

namespace Cert.Gine.PreX

open Idealize.ShloMosaic Idealize.ShloMosaic.ValueIdx Cert.Pre_finite_inputs

variable [Cert.Pre_finite_inputs.Facts]

/-- Under the precondition every node label is below 20 (unsigned). -/
theorem x_range (x0 : IVec S8192x1 32) (x1 : IVec S2x262144 32) (x2 : FVec Ideal S262144x16 .f32) (x3 : FVec Ideal S20x128 .f32)
    (x4 : FVec Ideal S128x64 .f32) (x5 : FVec Ideal S64 .f32) (x6 : FVec Ideal S16x128 .f32) (x7 : FVec Ideal S128 .f32)
    (x8 : FVec Ideal S64x32 .f32) (x9 : FVec Ideal S32 .f32) (x10 : FVec Ideal S16x64 .f32) (x11 : FVec Ideal S64 .f32)
    (h : Cert.Pre_finite_inputs.fn (F := Ideal) x0 x1 x2 x3 x4 x5 x6 x7 x8 x9 x10 x11 = fun _ => 1#1) (n : Fin 8192) :
    (x0 (ix2 n (0 : Fin 1))).toNat < 20 := by
  have e := congrFun h ValueIdx.ix0
  dsimp only [fn, fn_part1, fn_part2, fn_part3] at e
  obtain ⟨-, e54⟩ := IntOp.andi_eq_one.mp e
  have hall := Host.reduce_andi_all _ _ _ _ _ e54 (ix2 n (0 : Fin 1))
  obtain ⟨hge, hlt⟩ := IntOp.andi_eq_one.mp hall
  exact Cert.Gine.Emb.toNat_lt_of_cmp _ hge hlt

end Cert.Gine.PreX

end
-- ==== Proof.LibRowGather.lean ====
/-
  Row gathers and row scatters read at an index.

  `x[idx]` of a matrix `x : [N, F]` (or a vector `x : [N]`) at a column of integers `idx : [E, 1]` is a gather whose
  result row `e` is row `clamp (idx e)` of the operand: the start index is read signed, a negative one becomes `0`, and
  it is cut at `N - 1`. The matrix form and the vector form clamp in the same way, so the row a matrix gather reads is the
  entry a vector gather with the same indices reads.  A scatter of rows `u : [E, F]` into `[N, F]` at such a column
  sends update `(e, f)` to `(idx e, f)` when `0 ≤ idx e < N`, and drops it otherwise: nothing is clamped there.
-/
import Idealize.ShloMosaic.PureOps.ShapeOps
import Idealize.ShloMosaic.Lib.ValueIdx

noncomputable section

namespace Cert.RowIndexing

open Idealize.ShloMosaic Idealize.ShloMosaic.ValueIdx

/-- The dimension numbers of `x[idx]` for a matrix `x : [N, F]` and a column of indices `[E, 1]`. -/
abbrev rowGatherDims (N E F : Nat)
    (wf : GatherDims.WF (⟨2, ![N, F]⟩ : Shape) ⟨2, ![E, 1]⟩ ⟨2, ![E, F]⟩ [1] [0] [] [0] [] 1 ![1, F]) :
    GatherDims (⟨2, ![N, F]⟩ : Shape) ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- The dimension numbers of `x[idx]` for a vector `x : [N]` and a column of indices `[E, 1]`. -/
abbrev vecGatherDims (N E : Nat)
    (wf : GatherDims.WF (⟨1, ![N]⟩ : Shape) ⟨2, ![E, 1]⟩ ⟨1, ![E]⟩ [] [0] [] [0] [] 1 ![1]) :
    GatherDims (⟨1, ![N]⟩ : Shape) ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The row an index column selects at position `e`: the entry read signed, cut to `[0, N - 1]`. -/
def clampRow {N E w : Nat} (hN : 0 < N) (idx : IVec (⟨2, ![E, 1]⟩ : Shape) w) (e : Fin E) : Fin N :=
  ⟨min (idx (ix2 e (0 : Fin 1))).toInt.toNat (N - 1), by omega⟩

/-- The operand index a matrix gather reads at `(e, f)`: row `clampRow idx e`, column `f`. -/
theorem rowGather_operandIdx {N E F w : Nat} (hN : 0 < N) (wf)
    (idx : IVec (⟨2, ![E, 1]⟩ : Shape) w) (e : Fin E) (f : Fin F) :
    (rowGatherDims N E F wf).operandIdx (ix2 e f) idx = ix2 (clampRow hN idx e) f := by
  funext a
  refine Fin.ext ?_
  have hsi : ∀ c, (rowGatherDims N E F wf).siIdx (ix2 e f) c = ix2 e (0 : Fin 1) := by
    intro c
    funext b; refine Fin.ext ?_
    match b with
    | ⟨0, _⟩ => rfl
    | ⟨1, _⟩ => show c.val = 0; have := c.isLt; exact Nat.lt_one_iff.mp this
  match a with
  | ⟨0, h0⟩ =>
    show (rowGatherDims N E F wf).start (ix2 e f) idx ⟨0, h0⟩ + (rowGatherDims N E F wf).batchCoord (ix2 e f) ⟨0, h0⟩
      + (rowGatherDims N E F wf).offCoord (ix2 e f) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowGatherDims N E F wf).startIndexMap from List.mem_singleton.mpr rfl)]
    rw [hsi]
    rfl
  | ⟨1, h1⟩ =>
    show (rowGatherDims N E F wf).start (ix2 e f) idx ⟨1, h1⟩ + (rowGatherDims N E F wf).batchCoord (ix2 e f) ⟨1, h1⟩
      + (rowGatherDims N E F wf).offCoord (ix2 e f) ⟨1, h1⟩ = _
    rw [GatherDims.batchCoord_eq_zero _ _ _ List.not_mem_nil]
    unfold GatherDims.start
    rw [dif_neg (show ¬ (⟨1, h1⟩ : Fin 2) ∈ (rowGatherDims N E F wf).startIndexMap from
      fun h => absurd (congrArg Fin.val (List.mem_singleton.mp h)) Nat.one_ne_zero)]
    simp only [Nat.add_zero, Nat.zero_add]
    rfl

/-- A matrix gather at `(e, f)` reads row `clampRow idx e`, column `f`. -/
theorem rowGather_apply {N E F w : Nat} {α : Type} (hN : 0 < N) (wf)
    (x : (⟨2, ![N, F]⟩ : Shape).Idx → α) (idx : IVec (⟨2, ![E, 1]⟩ : Shape) w) (e : Fin E) (f : Fin F) :
    Host.gather (rowGatherDims N E F wf) x idx (ix2 e f) = x (ix2 (clampRow hN idx e) f) :=
  congrArg x (rowGather_operandIdx hN wf idx e f)

/-- The operand index a vector gather reads at `e`: entry `clampRow idx e`. -/
theorem vecGather_operandIdx {N E w : Nat} (hN : 0 < N) (wf)
    (idx : IVec (⟨2, ![E, 1]⟩ : Shape) w) (e : Fin E) :
    (vecGatherDims N E wf).operandIdx (ix1 e) idx = ix1 (clampRow hN idx e) := by
  funext a
  obtain rfl : a = 0 := Subsingleton.elim _ _
  refine Fin.ext ?_
  have hsi : ∀ c, (vecGatherDims N E wf).siIdx (ix1 e) c = ix2 e (0 : Fin 1) := by
    intro c
    funext b; refine Fin.ext ?_
    match b with
    | ⟨0, _⟩ => rfl
    | ⟨1, _⟩ => show c.val = 0; have := c.isLt; exact Nat.lt_one_iff.mp this
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  rw [hsi]
  rfl

/-- A vector gather at `e` reads entry `clampRow idx e`. -/
theorem vecGather_apply {N E w : Nat} {α : Type} (hN : 0 < N) (wf)
    (x : (⟨1, ![N]⟩ : Shape).Idx → α) (idx : IVec (⟨2, ![E, 1]⟩ : Shape) w) (e : Fin E) :
    Host.gather (vecGatherDims N E wf) x idx (ix1 e) = x (ix1 (clampRow hN idx e)) :=
  congrArg x (vecGather_operandIdx hN wf idx e)

/-- The dimension numbers of a scatter of rows `[E, F]` into `[N, F]` at a column of indices `[E, 1]`. -/
abbrev rowScatterDims (N E F : Nat)
    (wf : ScatterDims.WF (⟨2, ![N, F]⟩ : Shape) ⟨2, ![E, 1]⟩ ⟨2, ![E, F]⟩ [1] [0] [0] 1) :
    ScatterDims (⟨2, ![N, F]⟩ : Shape) ⟨2, ![E, 1]⟩ ⟨2, ![E, F]⟩ where
  updateWindowDims := [1]
  insertedWindowDims := [0]
  scatterDimsToOperandDims := [0]
  indexVectorDim := 1
  wf := wf

/-- Where update row `e` lands, when it lands: the row its index names, read signed and NOT clamped. -/
theorem rowScatter_row {N E F w : Nat} (wf) (idx : IVec (⟨2, ![E, 1]⟩ : Shape) w) (j : (⟨2, ![E, F]⟩ : Shape).Idx)
    (i : (⟨2, ![N, F]⟩ : Shape).Idx) (h : (rowScatterDims N E F wf).resultIdx? j idx = some i) :
    (idx (ix2 (j 0) (0 : Fin 1))).toInt = ((i 0).val : Int) := by
  unfold ScatterDims.resultIdx? at h
  split at h
  · rename_i hall
    have hi := Option.some.inj h
    have h0 := congrArg (fun k : (⟨2, ![N, F]⟩ : Shape).Idx => (k 0).val) hi
    simp only at h0
    have hw : (rowScatterDims N E F wf).window j 0 = 0 := by
      unfold ScatterDims.window
      rw [dif_neg (fun hk => by
        have hk' : (0 : Fin 2) ∈ (List.finRange 2).filter (fun a : Fin 2 => a ∉ [(0 : Fin 2)]) := hk
        revert hk'; decide)]
    have hs : (rowScatterDims N E F wf).start j idx 0 = (idx (ix2 (j 0) (0 : Fin 1))).toInt := by
      unfold ScatterDims.start
      rw [dif_pos (show (0 : Fin 2) ∈ (rowScatterDims N E F wf).scatterDimsToOperandDims from List.mem_singleton.mpr rfl)]
      congr 2
      funext b; refine Fin.ext ?_
      match b with
      | ⟨0, _⟩ => rfl
      | ⟨1, _⟩ => rfl
    have hr := hall 0
    rw [hw, hs] at hr
    rw [hw, hs] at h0
    omega
  · exact absurd h (by simp)

end Cert.RowIndexing

end
-- ==== Proof.RefVal.lean ====
/-
  The reference program's result, stage by stage, as the functions of the specification.

  The reference computes, over the extended reals: the node embedding `h = emb[x]`; an affine map of the edge
  attributes `ee1`; the aggregate `agg1`, the sum over the edges into each node of `max (h[src] + ee1) 0`; the update
  `h1 = leaky ((1·h + agg1)·W1 + b1)`; the same once more without the activation; and the Gram matrix of the result.
  Each stage but the two aggregates is read index by index and is, entry for entry, the specification's arrangement of
  sums and products. The two aggregates are kept whole, as one named function of the arrays they are made from.
-/
import proofs.«102501_j18846316494852_1_alg».proof.Proof.Gen.ReferenceIdeal.Read
import proofs.«102501_j18846316494852_1_alg».proof.Proof.KI.Spec
import proofs.«102501_j18846316494852_1_alg».proof.Proof.LibRowGather

noncomputable section

namespace Cert.Gine.RefVal

open Idealize.ShloMosaic Idealize.ShloMosaic.ValueIdx
open Cert.ReferenceIdeal Cert.ReferenceIdeal.Gen Cert.ReferenceIdeal.Read
open Cert.RowIndexing

variable (x0 : (⟨S8192x1, .i32⟩ : BufTy).Contents (Elt Ideal)) (x1 : (⟨S2x262144, .i32⟩ : BufTy).Contents (Elt Ideal))
  (x2 : (⟨S262144x16, .f32⟩ : BufTy).Contents (Elt Ideal)) (x3 : (⟨S20x128, .f32⟩ : BufTy).Contents (Elt Ideal))
  (x4 : (⟨Cert.ReferenceIdeal.S128x64, .f32⟩ : BufTy).Contents (Elt Ideal)) (x5 : (⟨S64, .f32⟩ : BufTy).Contents (Elt Ideal))
  (x6 : (⟨Cert.ReferenceIdeal.S16x128, .f32⟩ : BufTy).Contents (Elt Ideal)) (x7 : (⟨S128, .f32⟩ : BufTy).Contents (Elt Ideal))
  (x8 : (⟨Cert.ReferenceIdeal.S64x32, .f32⟩ : BufTy).Contents (Elt Ideal)) (x9 : (⟨S32, .f32⟩ : BufTy).Contents (Elt Ideal))
  (x10 : (⟨Cert.ReferenceIdeal.S16x64, .f32⟩ : BufTy).Contents (Elt Ideal)) (x11 : (⟨S64, .f32⟩ : BufTy).Contents (Elt Ideal))

/-! ## Where each layout operation reads: the index functions at an index given by its coordinates -/

private theorem lidx12 (a : Fin 262144) (b : Fin 128) (k : Fin 16) : lidx_main_v12 (ix2 a b) k = ix2 a k := by
  funext d; match d with | ⟨0, _⟩ => rfl | ⟨1, _⟩ => rfl
private theorem ridx12 (a : Fin 262144) (b : Fin 128) (k : Fin 16) : ridx_main_v12 (ix2 a b) k = ix2 k b := by
  funext d; match d with | ⟨0, _⟩ => rfl | ⟨1, _⟩ => rfl
private theorem idx1314 (a : Fin 262144) (b : Fin 128) : idx_main_v13 (idx_main_v14 (ix2 a b)) = ix1 b := by
  funext d; match d with | ⟨0, _⟩ => rfl

private theorem lidx40 (a : Fin 262144) (b : Fin 64) (k : Fin 16) : lidx_main_v40 (ix2 a b) k = ix2 a k := by
  funext d; match d with | ⟨0, _⟩ => rfl | ⟨1, _⟩ => rfl
private theorem ridx40 (a : Fin 262144) (b : Fin 64) (k : Fin 16) : ridx_main_v40 (ix2 a b) k = ix2 k b := by
  funext d; match d with | ⟨0, _⟩ => rfl | ⟨1, _⟩ => rfl
private theorem idx4142 (a : Fin 262144) (b : Fin 64) : idx_main_v41 (idx_main_v42 (ix2 a b)) = ix1 b := by
  funext d; match d with | ⟨0, _⟩ => rfl

private theorem lidx31 (a : Fin 8192) (b : Fin 64) (k : Fin 128) : lidx_main_v31 (ix2 a b) k = ix2 a k := by
  funext d; match d with | ⟨0, _⟩ => rfl | ⟨1, _⟩ => rfl
private theorem ridx31 (a : Fin 8192) (b : Fin 64) (k : Fin 128) : ridx_main_v31 (ix2 a b) k = ix2 k b := by
  funext d; match d with | ⟨0, _⟩ => rfl | ⟨1, _⟩ => rfl
private theorem idx3233 (a : Fin 8192) (b : Fin 64) : idx_main_v32 (idx_main_v33 (ix2 a b)) = ix1 b := by
  funext d; match d with | ⟨0, _⟩ => rfl

private theorem lidx59 (a : Fin 8192) (b : Fin 32) (k : Fin 64) : lidx_main_v59 (ix2 a b) k = ix2 a k := by
  funext d; match d with | ⟨0, _⟩ => rfl | ⟨1, _⟩ => rfl
private theorem ridx59 (a : Fin 8192) (b : Fin 32) (k : Fin 64) : ridx_main_v59 (ix2 a b) k = ix2 k b := by
  funext d; match d with | ⟨0, _⟩ => rfl | ⟨1, _⟩ => rfl
private theorem idx6061 (a : Fin 8192) (b : Fin 32) : idx_main_v60 (idx_main_v61 (ix2 a b)) = ix1 b := by
  funext d; match d with | ⟨0, _⟩ => rfl

private theorem lidx64 (a b : Fin 8192) (k : Fin 32) : lidx_main_v64 (ix2 a b) k = ix2 a k := by
  funext d; match d with | ⟨0, _⟩ => rfl | ⟨1, _⟩ => rfl
private theorem ridx6364 (a b : Fin 8192) (k : Fin 32) : idx_main_v63 (ridx_main_v64 (ix2 a b) k) = ix2 b k := by
  funext d; match d with | ⟨0, _⟩ => rfl | ⟨1, _⟩ => rfl

private theorem idx06 (a : Fin 8192) : idx_main_v0 (idx_main_v6 (ix2 a (0 : Fin 1))) = ix2 a (0 : Fin 1) := by
  funext d
  match d with
  | ⟨0, _⟩ => exact Fin.ext (Nat.div_one _)
  | ⟨1, _⟩ => rfl

/-! ## The node embedding -/

/-- The index column the embedding gathers at: a negative label is moved up by the table's 20 rows. -/
private theorem labelCol (a : Fin 8192) :
    val_main_v6 (F := Ideal) x0 (ix2 a (0 : Fin 1))
      = Scalar.select (IntOp.cmpi .slt (x0 (ix2 a (0 : Fin 1))) 0#32) (IntOp.addi (x0 (ix2 a (0 : Fin 1))) 20#32)
          (x0 (ix2 a (0 : Fin 1))) := by
  rw [val_main_v6_apply, val_main_v5_apply, val_main_v2_apply, val_main_v4_apply, val_main_v0_apply, val_main_v1_apply,
    val_main_v3_apply, val_main_c_apply, val_main_c_0_apply, idx06]

/-- The gather of table rows at the node labels is the specification's embedding: row `n` of the result is the
    table row the clamped, wrapped label of node `n` names. -/
theorem emb_eq : Read.val_main_v7 (F := Ideal) x0 x3 = Cert.Gine.emb x0 x3 := by
  funext i
  obtain ⟨a, b, rfl⟩ : ∃ (a : Fin 8192) (b : Fin 128), i = ix2 a b := ⟨i 0, i 1, eq_ix2 i⟩
  unfold val_main_v7
  have hd : gather_S20x128_S8192x1_S8192x128_1_0_n_n_0_1_1128
      = rowGatherDims 20 8192 128 Facts₀.gather_S20x128_S8192x1_S8192x128_1_0_n_n_0_1_1128_wf := rfl
  rw [hd, rowGather_apply (show 0 < 20 by decide)]
  have hrow : clampRow (show 0 < 20 by decide) (val_main_v6 (F := Ideal) x0) a = embRow (x0 (ix2 a (0 : Fin 1))) :=
    Fin.ext (congrArg (fun v : BitVec 32 => min v.toInt.toNat 19) (labelCol x0 a))
  rw [hrow]
  rfl

/-! ## The affine maps of the edge attributes -/

/-- The 128-wide affine map of the edge attributes is the specification's. -/
theorem lin128_eq : Read.val_main_v15 (F := Ideal) x2 x6 x7 = Cert.Gine.lin128 x2 x6 x7 := by
  funext i
  obtain ⟨a, b, rfl⟩ : ∃ (a : Fin 262144) (b : Fin 128), i = ix2 a b := ⟨i 0, i 1, eq_ix2 i⟩
  rw [val_main_v15_apply, val_main_v12_apply, val_main_v14_apply, val_main_v13_apply]
  simp only [lidx12, ridx12, idx1314]
  rfl

/-- The 64-wide affine map of the edge attributes is the specification's. -/
theorem lin64_eq : Read.val_main_v43 (F := Ideal) x2 x10 x11 = Cert.Gine.lin64 x2 x10 x11 := by
  funext i
  obtain ⟨a, b, rfl⟩ : ∃ (a : Fin 262144) (b : Fin 64), i = ix2 a b := ⟨i 0, i 1, eq_ix2 i⟩
  rw [val_main_v43_apply, val_main_v40_apply, val_main_v42_apply, val_main_v41_apply]
  simp only [lidx40, ridx40, idx4142]
  rfl

/-! ## The node updates -/

/-- The first node update is the specification's, of the embedding and of the first aggregate taken whole. -/
theorem upd1_eq : Read.val_main_v39 (F := Ideal) x0 x1 x2 x3 x4 x5 x6 x7
    = Cert.Gine.upd1 (Read.val_main_v7 (F := Ideal) x0 x3) (Read.val_main_v27 (F := Ideal) x0 x1 x2 x3 x6 x7) x4 x5 := by
  funext i
  obtain ⟨a, b, rfl⟩ : ∃ (a : Fin 8192) (b : Fin 64), i = ix2 a b := ⟨i 0, i 1, eq_ix2 i⟩
  rw [val_main_v39_apply, val_main_v36_apply, val_main_v38_apply, val_main_v34_apply, val_main_v31_apply,
    val_main_v33_apply, val_main_v32_apply, val_main_v35_apply, val_main_cst_4_apply, val_main_v37_apply,
    val_main_cst_5_apply]
  simp only [val_main_v30_apply, val_main_v29_apply, val_main_v28_apply, val_main_cst_3_apply]
  generalize Read.val_main_v27 (F := Ideal) x0 x1 x2 x3 x6 x7 = agg
  generalize Read.val_main_v7 (F := Ideal) x0 x3 = h
  simp only [lidx31, ridx31, idx3233]
  rfl

/-- The second node update is the specification's, of the first update and of the second aggregate taken whole. -/
theorem upd2_eq : Read.val_main_v62 (F := Ideal) x0 x1 x2 x3 x4 x5 x6 x7 x8 x9 x10 x11
    = Cert.Gine.upd2 (Read.val_main_v39 (F := Ideal) x0 x1 x2 x3 x4 x5 x6 x7)
        (Read.val_main_v55 (F := Ideal) x0 x1 x2 x3 x4 x5 x6 x7 x10 x11) x8 x9 := by
  funext i
  obtain ⟨a, b, rfl⟩ : ∃ (a : Fin 8192) (b : Fin 32), i = ix2 a b := ⟨i 0, i 1, eq_ix2 i⟩
  rw [val_main_v62_apply, val_main_v59_apply, val_main_v61_apply, val_main_v60_apply]
  simp only [val_main_v58_apply, val_main_v57_apply, val_main_v56_apply, val_main_cst_9_apply]
  generalize Read.val_main_v55 (F := Ideal) x0 x1 x2 x3 x4 x5 x6 x7 x10 x11 = agg
  generalize Read.val_main_v39 (F := Ideal) x0 x1 x2 x3 x4 x5 x6 x7 = h
  simp only [lidx59, ridx59, idx6061]
  rfl

/-! ## The Gram matrix -/

/-- The product of the node features with their transpose is the specification's Gram matrix. -/
theorem sim_eq : Read.val_main_v64 (F := Ideal) x0 x1 x2 x3 x4 x5 x6 x7 x8 x9 x10 x11
    = Cert.Gine.sim (Read.val_main_v62 (F := Ideal) x0 x1 x2 x3 x4 x5 x6 x7 x8 x9 x10 x11) := by
  funext i
  obtain ⟨a, b, rfl⟩ : ∃ (a b : Fin 8192), i = ix2 a b := ⟨i 0, i 1, eq_ix2 i⟩
  rw [val_main_v64_apply]
  simp only [val_main_v63_apply]
  generalize Read.val_main_v62 (F := Ideal) x0 x1 x2 x3 x4 x5 x6 x7 x8 x9 x10 x11 = h
  simp only [lidx64, ridx6364]
  rfl

/-! ## The two aggregates, each one named function of the arrays it is made from -/

/-- The first aggregate as a function of the node features `h`, the edge features `ee` and the edge list: into
    row `n` of a zero array, the sum over the edges `e` whose destination is `n` of `max (h[src e] + ee e) 0`,
    the source read with a negative entry moved up by the 8192 nodes. -/
def msg128 (h : FVec Ideal S8192x128 .f32) (ee : FVec Ideal S262144x128 .f32) (x1 : IVec S2x262144 32) :
    FVec Ideal S8192x128 .f32 :=
  Host.scatterAdd scatter_S8192x128_S262144x1_S262144x128_1_0_0_1 (val_main_v25 (F := Ideal)) (val_main_v26 (F := Ideal) x1)
    (maximumf (F := Ideal)
      (addf (F := Ideal) (Host.gather gather_S8192x128_S262144x1_S262144x128_1_0_n_n_0_1_1128 h (val_main_v21 (F := Ideal) x1)) ee)
      (val_main_call0_v0 (F := Ideal)))

/-- The reference's first aggregate is that function of the embedding and the 128-wide edge features. -/
theorem msg128_eq : Read.val_main_v27 (F := Ideal) x0 x1 x2 x3 x6 x7
    = msg128 (Read.val_main_v7 (F := Ideal) x0 x3) (Read.val_main_v15 (F := Ideal) x2 x6 x7) x1 := by
  unfold val_main_v27 val_main_v24 val_main_v23 val_main_v22 msg128
  rfl

/-- The second aggregate, the same function 64 wide. -/
def msg64 (h : FVec Ideal S8192x64 .f32) (ee : FVec Ideal S262144x64 .f32) (x1 : IVec S2x262144 32) :
    FVec Ideal S8192x64 .f32 :=
  Host.scatterAdd scatter_S8192x64_S262144x1_S262144x64_1_0_0_1 (val_main_v53 (F := Ideal)) (val_main_v54 (F := Ideal) x1)
    (maximumf (F := Ideal)
      (addf (F := Ideal) (Host.gather gather_S8192x64_S262144x1_S262144x64_1_0_n_n_0_1_164 h (val_main_v49 (F := Ideal) x1)) ee)
      (val_main_call2_v0 (F := Ideal)))

/-- The reference's second aggregate is that function of the first update and the 64-wide edge features. -/
theorem msg64_eq : Read.val_main_v55 (F := Ideal) x0 x1 x2 x3 x4 x5 x6 x7 x10 x11
    = msg64 (Read.val_main_v39 (F := Ideal) x0 x1 x2 x3 x4 x5 x6 x7) (Read.val_main_v43 (F := Ideal) x2 x10 x11) x1 := by
  unfold val_main_v55 val_main_v52 val_main_v51 val_main_v50 msg64
  rfl

/-! ## The whole reference -/

/-- The reference's result: the Gram matrix of the second update of the first update of the embedding, each update
    taking the aggregate of its own input. -/
theorem ref_value : Read.val_main_v64 (F := Ideal) x0 x1 x2 x3 x4 x5 x6 x7 x8 x9 x10 x11
    = Cert.Gine.sim (Cert.Gine.upd2
        (Cert.Gine.upd1 (Cert.Gine.emb x0 x3) (msg128 (Cert.Gine.emb x0 x3) (Cert.Gine.lin128 x2 x6 x7) x1) x4 x5)
        (msg64 (Cert.Gine.upd1 (Cert.Gine.emb x0 x3) (msg128 (Cert.Gine.emb x0 x3) (Cert.Gine.lin128 x2 x6 x7) x1) x4 x5)
          (Cert.Gine.lin64 x2 x10 x11) x1)
        x8 x9) := by
  rw [sim_eq, upd2_eq, msg64_eq, upd1_eq, msg128_eq, emb_eq, lin128_eq, lin64_eq]

end Cert.Gine.RefVal

end
-- ==== Proof.KI.Chain.lean ====
/-
  The kernel program's result, read through its run. Between two kernels the host rewrites a few buffers; a buffer
  nobody writes passes through unchanged. So each kernel finds, in the arrays its windows read, the stage functions of
  the arguments computed so far, and leaves the next stage's function in its output array:

    h0 = emb x t,  e1 = lin128 a w1 b1,  e2 = lin64 a w2 b2,
    h1 = upd1 h0 (msg128 h0 e1 ei) W1 c1,  h2 = upd2 h1 (msg64 h1 e2 ei) W2 c2,  out = sim h2,

  where `msg128` and `msg64` are the host's gather, rectifier and scatter-add over the edge list `ei` — the same
  operations, in the same order, as the reference's, so the same functions.
-/
import proofs.«102501_j18846316494852_1_alg».proof.Proof.KI.Run
import proofs.«102501_j18846316494852_1_alg».proof.Proof.KI.Val0
import proofs.«102501_j18846316494852_1_alg».proof.Proof.KI.Val1
import proofs.«102501_j18846316494852_1_alg».proof.Proof.KI.Val2
import proofs.«102501_j18846316494852_1_alg».proof.Proof.KI.Val3
import proofs.«102501_j18846316494852_1_alg».proof.Proof.KI.Val4
import proofs.«102501_j18846316494852_1_alg».proof.Proof.KI.PreX
import proofs.«102501_j18846316494852_1_alg».proof.Proof.RefVal
import proofs.«102501_j18846316494852_1_alg».proof.Pre_finite_inputs
import proofs.«102501_j18846316494852_1_alg».proof.Proof.Gen.Pre_finite_inputs
import Idealize.ShloMosaic.Lib.StableHlo.Run
import Idealize.ShloMosaic.Lib.Pipeline.Value
import Idealize.ShloMosaic.Lib.ValueIdx

set_option maxRecDepth 16384

noncomputable section

namespace Cert.Gine.Chain

open Idealize.ShloMosaic Idealize.ShloMosaic.TcCoe Idealize.ShloMosaic.ValueIdx Idealize.SL.Sem Idealize.ShloMosaic.StableHlo
open Cert.KernelIdeal Cert.KernelIdeal.Gen Cert.KernelIdeal.Hand
open Cert.Gine.RefVal (msg128 msg64)

/-! ## One stretch of host operations at a time, over any contents `V` before it -/

section Stretches

variable (V : Valuation τ sig (Elt Ideal))

/-- The edge list's source row, as the reference slices and flattens it. -/
theorem read_src : StableHlo.after hostOps0 V (Proc.devRef .tc main_v1) = Cert.ReferenceIdeal.Read.val_main_v9 (F := Ideal) (V (Proc.devRef .tc main_arg1)) := by
  first | (after_results; rfl) | after_results
/-- The edge list's destination row. -/
theorem read_dst : StableHlo.after hostOps0 V (Proc.devRef .tc main_v3) = Cert.ReferenceIdeal.Read.val_main_v11 (F := Ideal) (V (Proc.devRef .tc main_arg1)) := by
  first | (after_results; rfl) | after_results

/-- The two edge biases recast as one-row matrices. -/
theorem read_bias1 : StableHlo.after hostOps1 V (Proc.devRef .tc main_v5) = shapeCast S1x128 (V (Proc.devRef .tc main_arg7)) shapeCasts_S128_S1x128 := by
  first | (after_results; rfl) | after_results
theorem read_bias2 : StableHlo.after hostOps1 V (Proc.devRef .tc main_v6) = shapeCast S1x64 (V (Proc.devRef .tc main_arg11)) shapeCasts_S64_S1x64 := by
  first | (after_results; rfl) | after_results

set_option maxHeartbeats 1000000 in
/-- First layer: the gathered rows plus the edge term. -/
theorem read_sum1 : (StableHlo.after hostOps2 V (Proc.devRef .tc main_v15) : FVec Ideal S262144x128 .f32)
    = addf (F := Ideal) (φ := .f32) (Host.gather gather_S8192x128_S262144x1_S262144x128_1_0_n_n_0_1_1128 (V (Proc.devRef .tc main_v4))
        (broadcastInDim S262144x1 ![0] bcast_S262144_S262144x1_0
          (select (cmpi .slt (V (Proc.devRef .tc main_v1)) (broadcastInDim S262144 ![] bcast_S_S262144 (constantI S_ 32 0#32)))
            (addi (V (Proc.devRef .tc main_v1)) (broadcastInDim S262144 ![] bcast_S_S262144 (constantI S_ 32 8192#32)))
            (V (Proc.devRef .tc main_v1)))))
      (V (Proc.devRef .tc main_v7_0)) := by
  after_results
set_option maxHeartbeats 1000000 in
/-- … rectified … -/
theorem read_relu1 : StableHlo.after hostOps2_1 V (Proc.devRef .tc main_v16)
    = maximumf (V (Proc.devRef .tc main_v15)) (broadcastInDim S262144x128 ![] bcast_S_S262144x128 (constant (F := Ideal) S_ .f32 0x00000000#32)) := by
  after_results; rfl
/-- … and scattered into zeros at the destinations. -/
theorem read_agg1 : StableHlo.after hostOps2_2 V (Proc.devRef .tc main_v19)
    = Host.scatterAdd scatter_S8192x128_S262144x1_S262144x128_1_0_0_1
        (broadcastInDim S8192x128 ![] bcast_S_S8192x128 (constant (F := Ideal) S_ .f32 0x00000000#32))
        (broadcastInDim S262144x1 ![0] bcast_S262144_S262144x1_0 (V (Proc.devRef .tc main_v3)))
        (V (Proc.devRef .tc main_v16)) := by
  first | (after_results; rfl) | after_results
theorem read_bias3 : StableHlo.after hostOps2_2 V (Proc.devRef .tc main_v20) = shapeCast S1x64 (V (Proc.devRef .tc main_arg5)) shapeCasts_S64_S1x64 := by
  first | (after_results; rfl) | after_results

set_option maxHeartbeats 1000000 in
/-- Second layer, likewise. -/
theorem read_sum2 : (StableHlo.after hostOps3 V (Proc.devRef .tc main_v29) : FVec Ideal S262144x64 .f32)
    = addf (F := Ideal) (φ := .f32) (Host.gather gather_S8192x64_S262144x1_S262144x64_1_0_n_n_0_1_164 (V (Proc.devRef .tc main_v21))
        (broadcastInDim S262144x1 ![0] bcast_S262144_S262144x1_0
          (select (cmpi .slt (V (Proc.devRef .tc main_v1)) (broadcastInDim S262144 ![] bcast_S_S262144 (constantI S_ 32 0#32)))
            (addi (V (Proc.devRef .tc main_v1)) (broadcastInDim S262144 ![] bcast_S_S262144 (constantI S_ 32 8192#32)))
            (V (Proc.devRef .tc main_v1)))))
      (V (Proc.devRef .tc main_v7_1)) := by
  after_results
set_option maxHeartbeats 1000000 in
theorem read_relu2 : StableHlo.after hostOps3_1 V (Proc.devRef .tc main_v30)
    = maximumf (V (Proc.devRef .tc main_v29)) (broadcastInDim S262144x64 ![] bcast_S_S262144x64 (constant (F := Ideal) S_ .f32 0x00000000#32)) := by
  after_results; rfl
theorem read_agg2 : StableHlo.after hostOps3_2 V (Proc.devRef .tc main_v33)
    = Host.scatterAdd scatter_S8192x64_S262144x1_S262144x64_1_0_0_1
        (broadcastInDim S8192x64 ![] bcast_S_S8192x64 (constant (F := Ideal) S_ .f32 0x00000000#32))
        (broadcastInDim S262144x1 ![0] bcast_S262144_S262144x1_0 (V (Proc.devRef .tc main_v3)))
        (V (Proc.devRef .tc main_v30)) := by
  first | (after_results; rfl) | after_results
theorem read_bias4 : StableHlo.after hostOps3_2 V (Proc.devRef .tc main_v34) = shapeCast S1x32 (V (Proc.devRef .tc main_arg9)) shapeCasts_S32_S1x32 := by
  first | (after_results; rfl) | after_results

/-- The first layer's three stretches together are the reference's message passing on the same inputs. -/
theorem read_msg1 (x1 : IVec S2x262144 32)
    (hsrc : V (Proc.devRef .tc main_v1) = Cert.ReferenceIdeal.Read.val_main_v9 (F := Ideal) x1)
    (hdst : V (Proc.devRef .tc main_v3) = Cert.ReferenceIdeal.Read.val_main_v11 (F := Ideal) x1) :
    StableHlo.after hostOps2_2 (StableHlo.after hostOps2_1 (StableHlo.after hostOps2 V)) (Proc.devRef .tc main_v19)
      = msg128 (V (Proc.devRef .tc main_v4)) (V (Proc.devRef .tc main_v7_0)) x1 := by
  rw [read_agg1, read_relu1, read_sum1,
    StableHlo.after_of_writes_sub hostOps2_1 _ hostOps2_1_writes (by decide : main_v3 ∉ hostOps2_1_W),
    StableHlo.after_of_writes_sub hostOps2 _ hostOps2_writes (by decide : main_v3 ∉ hostOps2_W), hsrc, hdst]
  rfl

/-- The second layer's, likewise. -/
theorem read_msg2 (x1 : IVec S2x262144 32)
    (hsrc : V (Proc.devRef .tc main_v1) = Cert.ReferenceIdeal.Read.val_main_v9 (F := Ideal) x1)
    (hdst : V (Proc.devRef .tc main_v3) = Cert.ReferenceIdeal.Read.val_main_v11 (F := Ideal) x1) :
    StableHlo.after hostOps3_2 (StableHlo.after hostOps3_1 (StableHlo.after hostOps3 V)) (Proc.devRef .tc main_v33)
      = msg64 (V (Proc.devRef .tc main_v21)) (V (Proc.devRef .tc main_v7_1)) x1 := by
  rw [read_agg2, read_relu2, read_sum2,
    StableHlo.after_of_writes_sub hostOps3_1 _ hostOps3_1_writes (by decide : main_v3 ∉ hostOps3_1_W),
    StableHlo.after_of_writes_sub hostOps3 _ hostOps3_writes (by decide : main_v3 ∉ hostOps3_W), hsrc, hdst]
  rfl

/-- A bias recast as a one-row matrix, read back along its row, is the bias. -/
theorem row_of_cast {n : Nat} (v : (⟨1, ![n]⟩ : Shape).Idx → EReal) (h : (⟨1, ![n]⟩ : Shape).ShapeCasts ⟨2, ![1, n]⟩) :
    (fun i : (⟨1, ![n]⟩ : Shape).Idx => shapeCast ⟨2, ![1, n]⟩ v h (ix2 (0 : Fin 1) (i 0))) = v := by
  funext i
  refine (shapeCast_addUnit_apply ![n] v h (ix2 (0 : Fin 1) (i 0))).trans (congrArg v (funext fun a => ?_))
  match a with
  | ⟨0, _⟩ => rfl

end Stretches

/-! ## The run, boundary by boundary -/

section Run

variable (m : (ℓ : Loc nD τ sig) → Buf (Elt Ideal) ℓ) (ρ : Dev nD → PrngReg) (c : Dev nD)

/-- Argument `b` as launched on core `c`. -/
abbrev arg (b : Ref sig .tc) : Buf (Elt Ideal) ((c : Thread nD τ).loc b) := m ((c : Thread nD τ).loc b)

/-- The node features after the embedding, the two edge projections, and the features after each update. -/
def h0 := Cert.Gine.emb (arg m c main_arg0) (arg m c main_arg3)
def e1 := Cert.Gine.lin128 (arg m c main_arg2) (arg m c main_arg6) (arg m c main_arg7)
def e2 := Cert.Gine.lin64 (arg m c main_arg2) (arg m c main_arg10) (arg m c main_arg11)
def h1 := Cert.Gine.upd1 (h0 m c) (msg128 (h0 m c) (e1 m c) (arg m c main_arg1)) (arg m c main_arg4) (arg m c main_arg5)
def h2 := Cert.Gine.upd2 (h1 m c) (msg64 (h1 m c) (e2 m c) (arg m c main_arg1)) (arg m c main_arg8) (arg m c main_arg9)
/-- The program's result: the similarity matrix of the final features. -/
def out := Cert.Gine.sim (h2 m c)

/-! ### What passes through unchanged -/

theorem keep1 (b : Ref sig .tc) (h : b ∉ hostOps0_W) : W1 m ρ c (Proc.devRef .tc b) = W0 m ρ c (Proc.devRef .tc b) :=
  StableHlo.after_of_writes_sub hostOps0 _ hostOps0_writes h
theorem keep3 (b : Ref sig .tc) (h : b ∉ hostOps1_W) : W3 m ρ c (Proc.devRef .tc b) = W2 m ρ c (Proc.devRef .tc b) :=
  StableHlo.after_of_writes_sub hostOps1 _ hostOps1_writes h
theorem keep5 (b : Ref sig .tc) (h : b ∉ hostOps2_W) : W5 m ρ c (Proc.devRef .tc b) = W4 m ρ c (Proc.devRef .tc b) :=
  StableHlo.after_of_writes_sub hostOps2 _ hostOps2_writes h
theorem keep6 (b : Ref sig .tc) (h : b ∉ hostOps2_1_W) : W6 m ρ c (Proc.devRef .tc b) = W5 m ρ c (Proc.devRef .tc b) :=
  StableHlo.after_of_writes_sub hostOps2_1 _ hostOps2_1_writes h
theorem keep7 (b : Ref sig .tc) (h : b ∉ hostOps2_2_W) : W7 m ρ c (Proc.devRef .tc b) = W6 m ρ c (Proc.devRef .tc b) :=
  StableHlo.after_of_writes_sub hostOps2_2 _ hostOps2_2_writes h
theorem keep9 (b : Ref sig .tc) (h : b ∉ hostOps3_W) : W9 m ρ c (Proc.devRef .tc b) = W8 m ρ c (Proc.devRef .tc b) :=
  StableHlo.after_of_writes_sub hostOps3 _ hostOps3_writes h
theorem keep10 (b : Ref sig .tc) (h : b ∉ hostOps3_1_W) : W10 m ρ c (Proc.devRef .tc b) = W9 m ρ c (Proc.devRef .tc b) :=
  StableHlo.after_of_writes_sub hostOps3_1 _ hostOps3_1_writes h
theorem keep11 (b : Ref sig .tc) (h : b ∉ hostOps3_2_W) : W11 m ρ c (Proc.devRef .tc b) = W10 m ρ c (Proc.devRef .tc b) :=
  StableHlo.after_of_writes_sub hostOps3_2 _ hostOps3_2_writes h

/-- An argument no host stretch writes and every region only reads is, at every boundary, as launched. -/
theorem arg1 (b : Ref sig .tc) (h0 : b ∉ hostOps0_W) : W1 m ρ c (Proc.devRef .tc b) = arg m c b := (keep1 m ρ c b h0).trans rfl
theorem arg2 (b : Ref sig .tc) (h0 : b ∉ hostOps0_W) (k0 : ∀ w, Pipeline.arrRef spec0 w = b → (cfg0.win w).isOut = false) :
    W2 m ρ c (Proc.devRef .tc b) = arg m c b := (W2_keep m ρ c b k0).trans (arg1 m ρ c b h0)
theorem arg3 (b : Ref sig .tc) (h0 : b ∉ hostOps0_W) (k0 : ∀ w, Pipeline.arrRef spec0 w = b → (cfg0.win w).isOut = false)
    (h1 : b ∉ hostOps1_W) : W3 m ρ c (Proc.devRef .tc b) = arg m c b := (keep3 m ρ c b h1).trans (arg2 m ρ c b h0 k0)
theorem arg4 (b : Ref sig .tc) (h0 : b ∉ hostOps0_W) (k0 : ∀ w, Pipeline.arrRef spec0 w = b → (cfg0.win w).isOut = false)
    (h1 : b ∉ hostOps1_W) (k1 : ∀ w, Pipeline.arrRef spec1 w = b → (cfg1.win w).isOut = false) :
    W4 m ρ c (Proc.devRef .tc b) = arg m c b := (W4_keep m ρ c b k1).trans (arg3 m ρ c b h0 k0 h1)
theorem arg6 (b : Ref sig .tc) (h0 : b ∉ hostOps0_W) (k0 : ∀ w, Pipeline.arrRef spec0 w = b → (cfg0.win w).isOut = false)
    (h1 : b ∉ hostOps1_W) (k1 : ∀ w, Pipeline.arrRef spec1 w = b → (cfg1.win w).isOut = false)
    (h2 : b ∉ hostOps2_W) (h21 : b ∉ hostOps2_1_W) : W6 m ρ c (Proc.devRef .tc b) = arg m c b :=
  (keep6 m ρ c b h21).trans ((keep5 m ρ c b h2).trans (arg4 m ρ c b h0 k0 h1 k1))
theorem arg7 (b : Ref sig .tc) (h0 : b ∉ hostOps0_W) (k0 : ∀ w, Pipeline.arrRef spec0 w = b → (cfg0.win w).isOut = false)
    (h1 : b ∉ hostOps1_W) (k1 : ∀ w, Pipeline.arrRef spec1 w = b → (cfg1.win w).isOut = false)
    (h2 : b ∉ hostOps2_W) (h21 : b ∉ hostOps2_1_W) (h22 : b ∉ hostOps2_2_W) : W7 m ρ c (Proc.devRef .tc b) = arg m c b :=
  (keep7 m ρ c b h22).trans (arg6 m ρ c b h0 k0 h1 k1 h2 h21)
theorem arg8 (b : Ref sig .tc) (h0 : b ∉ hostOps0_W) (k0 : ∀ w, Pipeline.arrRef spec0 w = b → (cfg0.win w).isOut = false)
    (h1 : b ∉ hostOps1_W) (k1 : ∀ w, Pipeline.arrRef spec1 w = b → (cfg1.win w).isOut = false)
    (h2 : b ∉ hostOps2_W) (h21 : b ∉ hostOps2_1_W) (h22 : b ∉ hostOps2_2_W)
    (k2 : ∀ w, Pipeline.arrRef spec2 w = b → (cfg2.win w).isOut = false) : W8 m ρ c (Proc.devRef .tc b) = arg m c b :=
  (W8_keep m ρ c b k2).trans (arg7 m ρ c b h0 k0 h1 k1 h2 h21 h22)
theorem arg10 (b : Ref sig .tc) (h0 : b ∉ hostOps0_W) (k0 : ∀ w, Pipeline.arrRef spec0 w = b → (cfg0.win w).isOut = false)
    (h1 : b ∉ hostOps1_W) (k1 : ∀ w, Pipeline.arrRef spec1 w = b → (cfg1.win w).isOut = false)
    (h2 : b ∉ hostOps2_W) (h21 : b ∉ hostOps2_1_W) (h22 : b ∉ hostOps2_2_W)
    (k2 : ∀ w, Pipeline.arrRef spec2 w = b → (cfg2.win w).isOut = false) (h3 : b ∉ hostOps3_W) (h31 : b ∉ hostOps3_1_W) :
    W10 m ρ c (Proc.devRef .tc b) = arg m c b :=
  (keep10 m ρ c b h31).trans ((keep9 m ρ c b h3).trans (arg8 m ρ c b h0 k0 h1 k1 h2 h21 h22 k2))
theorem arg11 (b : Ref sig .tc) (h0 : b ∉ hostOps0_W) (k0 : ∀ w, Pipeline.arrRef spec0 w = b → (cfg0.win w).isOut = false)
    (h1 : b ∉ hostOps1_W) (k1 : ∀ w, Pipeline.arrRef spec1 w = b → (cfg1.win w).isOut = false)
    (h2 : b ∉ hostOps2_W) (h21 : b ∉ hostOps2_1_W) (h22 : b ∉ hostOps2_2_W)
    (k2 : ∀ w, Pipeline.arrRef spec2 w = b → (cfg2.win w).isOut = false) (h3 : b ∉ hostOps3_W) (h31 : b ∉ hostOps3_1_W)
    (h32 : b ∉ hostOps3_2_W) : W11 m ρ c (Proc.devRef .tc b) = arg m c b :=
  (keep11 m ρ c b h32).trans (arg10 m ρ c b h0 k0 h1 k1 h2 h21 h22 k2 h3 h31)

/-- The edge list's two rows, written once at the start, are still there when each layer reads them. -/
theorem src4 : W4 m ρ c (Proc.devRef .tc main_v1) = Cert.ReferenceIdeal.Read.val_main_v9 (F := Ideal) (arg m c main_arg1) :=
  (W4_keep m ρ c main_v1 (by decide)).trans ((keep3 m ρ c main_v1 (by decide)).trans
    ((W2_keep m ρ c main_v1 (by decide)).trans (read_src (W0 m ρ c))))
theorem dst4 : W4 m ρ c (Proc.devRef .tc main_v3) = Cert.ReferenceIdeal.Read.val_main_v11 (F := Ideal) (arg m c main_arg1) :=
  (W4_keep m ρ c main_v3 (by decide)).trans ((keep3 m ρ c main_v3 (by decide)).trans
    ((W2_keep m ρ c main_v3 (by decide)).trans (read_dst (W0 m ρ c))))
theorem src8 : W8 m ρ c (Proc.devRef .tc main_v1) = Cert.ReferenceIdeal.Read.val_main_v9 (F := Ideal) (arg m c main_arg1) :=
  (W8_keep m ρ c main_v1 (by decide)).trans ((keep7 m ρ c main_v1 (by decide)).trans ((keep6 m ρ c main_v1 (by decide)).trans
    ((keep5 m ρ c main_v1 (by decide)).trans (src4 m ρ c))))
theorem dst8 : W8 m ρ c (Proc.devRef .tc main_v3) = Cert.ReferenceIdeal.Read.val_main_v11 (F := Ideal) (arg m c main_arg1) :=
  (W8_keep m ρ c main_v3 (by decide)).trans ((keep7 m ρ c main_v3 (by decide)).trans ((keep6 m ρ c main_v3 (by decide)).trans
    ((keep5 m ρ c main_v3 (by decide)).trans (dst4 m ρ c))))

/-! ### The five kernels -/

/-- The embedding kernel leaves the embedded labels. -/
theorem step0 (hx : ∀ n : Fin 8192, (arg m c main_arg0 (ix2 n (0 : Fin 1))).toNat < 20) :
    W2 m ρ c (Proc.devRef .tc main_v4) = h0 m c := by
  have e0 : V1 m ρ c (Pipeline.arrRef spec0 0) = arg m c main_arg0 := arg1 m ρ c main_arg0 (by decide)
  have e1 : V1 m ρ c (Pipeline.arrRef spec0 1) = arg m c main_arg3 := arg1 m ρ c main_arg3 (by decide)
  rw [W2_out, Cert.Gine.Val0.final (V1 m ρ) c (by rw [e0]; exact hx), e0, e1]
  rfl

/-- The edge kernel leaves the two projections of the edge attributes. -/
theorem step1a : W4 m ρ c (Proc.devRef .tc main_v7_0) = e1 m c := by
  have e0 : V3 m ρ c (Pipeline.arrRef spec1 0) = arg m c main_arg2 := arg3 m ρ c main_arg2 (by decide) (by decide) (by decide)
  have e1' : V3 m ρ c (Pipeline.arrRef spec1 1) = arg m c main_arg6 := arg3 m ρ c main_arg6 (by decide) (by decide) (by decide)
  have e2' : V3 m ρ c (Pipeline.arrRef spec1 2) = shapeCast S1x128 (arg m c main_arg7) shapeCasts_S128_S1x128 :=
    (read_bias1 (W2 m ρ c)).trans (congrArg (fun v => shapeCast S1x128 v shapeCasts_S128_S1x128) (arg2 m ρ c main_arg7 (by decide) (by decide)))
  rw [W4_out0, Cert.Gine.Val1.final5 (V3 m ρ) c, e0, e1', e2', row_of_cast]
  rfl
theorem step1b : W4 m ρ c (Proc.devRef .tc main_v7_1) = e2 m c := by
  have e0 : V3 m ρ c (Pipeline.arrRef spec1 0) = arg m c main_arg2 := arg3 m ρ c main_arg2 (by decide) (by decide) (by decide)
  have e1' : V3 m ρ c (Pipeline.arrRef spec1 3) = arg m c main_arg10 := arg3 m ρ c main_arg10 (by decide) (by decide) (by decide)
  have e2' : V3 m ρ c (Pipeline.arrRef spec1 4) = shapeCast S1x64 (arg m c main_arg11) shapeCasts_S64_S1x64 :=
    (read_bias2 (W2 m ρ c)).trans (congrArg (fun v => shapeCast S1x64 v shapeCasts_S64_S1x64) (arg2 m ρ c main_arg11 (by decide) (by decide)))
  rw [W4_out1, Cert.Gine.Val1.final6 (V3 m ρ) c, e0, e1', e2', row_of_cast]
  rfl

/-- The first update kernel finds the embedded labels and the first layer's messages, and leaves the updated features. -/
theorem step2 (hx : ∀ n : Fin 8192, (arg m c main_arg0 (ix2 n (0 : Fin 1))).toNat < 20) :
    W8 m ρ c (Proc.devRef .tc main_v21) = h1 m c := by
  have a4 : W4 m ρ c (Proc.devRef .tc main_v4) = h0 m c :=
    (W4_keep m ρ c main_v4 (by decide)).trans ((keep3 m ρ c main_v4 (by decide)).trans (step0 m ρ c hx))
  have e0 : V7 m ρ c (Pipeline.arrRef spec2 0) = h0 m c :=
    (keep7 m ρ c main_v4 (by decide)).trans ((keep6 m ρ c main_v4 (by decide)).trans ((keep5 m ρ c main_v4 (by decide)).trans a4))
  have e1' : V7 m ρ c (Pipeline.arrRef spec2 1) = msg128 (h0 m c) (e1 m c) (arg m c main_arg1) :=
    (read_msg1 (W4 m ρ c) (arg m c main_arg1) (src4 m ρ c) (dst4 m ρ c)).trans (by rw [a4, step1a])
  have e2' : V7 m ρ c (Pipeline.arrRef spec2 2) = arg m c main_arg4 :=
    arg7 m ρ c main_arg4 (by decide) (by decide) (by decide) (by decide) (by decide) (by decide) (by decide)
  have e3' : V7 m ρ c (Pipeline.arrRef spec2 3) = shapeCast S1x64 (arg m c main_arg5) shapeCasts_S64_S1x64 :=
    (read_bias3 (W6 m ρ c)).trans (congrArg (fun v => shapeCast S1x64 v shapeCasts_S64_S1x64)
      (arg6 m ρ c main_arg5 (by decide) (by decide) (by decide) (by decide) (by decide) (by decide)))
  rw [W8_out, Cert.Gine.Val2.final (V7 m ρ) c, e0, e1', e2', e3', row_of_cast]
  rfl

/-- The second update kernel, likewise. -/
theorem step3 (hx : ∀ n : Fin 8192, (arg m c main_arg0 (ix2 n (0 : Fin 1))).toNat < 20) :
    W12 m ρ c (Proc.devRef .tc main_v35) = h2 m c := by
  have a8 : W8 m ρ c (Proc.devRef .tc main_v7_1) = e2 m c :=
    (W8_keep m ρ c main_v7_1 (by decide)).trans ((keep7 m ρ c main_v7_1 (by decide)).trans ((keep6 m ρ c main_v7_1 (by decide)).trans
      ((keep5 m ρ c main_v7_1 (by decide)).trans (step1b m ρ c))))
  have e0 : V11 m ρ c (Pipeline.arrRef spec3 0) = h1 m c :=
    (keep11 m ρ c main_v21 (by decide)).trans ((keep10 m ρ c main_v21 (by decide)).trans ((keep9 m ρ c main_v21 (by decide)).trans (step2 m ρ c hx)))
  have e1' : V11 m ρ c (Pipeline.arrRef spec3 1) = msg64 (h1 m c) (e2 m c) (arg m c main_arg1) :=
    (read_msg2 (W8 m ρ c) (arg m c main_arg1) (src8 m ρ c) (dst8 m ρ c)).trans (by rw [step2 m ρ c hx, a8])
  have e2' : V11 m ρ c (Pipeline.arrRef spec3 2) = arg m c main_arg8 :=
    arg11 m ρ c main_arg8 (by decide) (by decide) (by decide) (by decide) (by decide) (by decide) (by decide) (by decide) (by decide) (by decide) (by decide)
  have e3' : V11 m ρ c (Pipeline.arrRef spec3 3) = shapeCast S1x32 (arg m c main_arg9) shapeCasts_S32_S1x32 :=
    (read_bias4 (W10 m ρ c)).trans (congrArg (fun v => shapeCast S1x32 v shapeCasts_S32_S1x32)
      (arg10 m ρ c main_arg9 (by decide) (by decide) (by decide) (by decide) (by decide) (by decide) (by decide) (by decide) (by decide) (by decide)))
  rw [W12_out, Cert.Gine.Val3.final (V11 m ρ) c, e0, e1', e2', e3', row_of_cast]
  rfl

/-- The similarity kernel finds the final features in both its input windows and leaves their similarity matrix:
    the program's result, as a function of its arguments. -/
theorem kernel_value_of (hx : ∀ n : Fin 8192, (arg m c main_arg0 (ix2 n (0 : Fin 1))).toNat < 20) :
    W13 m ρ c (Proc.devRef .tc main_v36) = out m c := by
  have e0 : V12 m ρ c (Pipeline.arrRef spec4 0) = h2 m c := step3 m ρ c hx
  rw [W13_out, Cert.Gine.Val4.final (V12 m ρ) c, e0]
  rfl

/-- Under the precondition. -/
theorem kernel_value [Cert.Pre_finite_inputs.Facts] (hpre : (Cert.Pre_finite_inputs.fn (F := Ideal) (arg m c main_arg0) (arg m c main_arg1) (arg m c main_arg2)
      (arg m c main_arg3) (arg m c main_arg4) (arg m c main_arg5) (arg m c main_arg6) (arg m c main_arg7) (arg m c main_arg8)
      (arg m c main_arg9) (arg m c main_arg10) (arg m c main_arg11)) = fun _ => 1#1) :
    W13 m ρ c (Proc.devRef .tc main_v36) = out m c :=
  kernel_value_of m ρ c (Cert.Gine.PreX.x_range _ _ _ _ _ _ _ _ _ _ _ _ hpre)

end Run

end Cert.Gine.Chain

end
-- ==== Proof.lean ====
/-
  A two-layer edge-conditioned graph network computed by five tiled kernels with the edge gather and scatter on the
  host, against the same network written with whole-array operations.

  Stage by stage the two programs compute one function. The embedding kernel multiplies each label's one-hot row into
  the 20-row table; a label in `[0, 20)` has exactly one unit weight, at its own row, so the product is that row, which
  is the row the reference's lookup reads (the precondition says every label is in that range; outside it the
  reference's lookup would leave the table). The edge projections and the two node updates are the same sums of
  products and the same bias on both sides, the factor `1 + 1e-9` being the float `1` and the rectifier's slope the
  same float in both; the similarity kernel forms the inner product of rows `i` and `j` where the reference multiplies
  by a transpose. Between the kernels both programs run the same gather, rectifier and scatter-add over the edge list,
  which is carried as one function of its inputs and never opened. Every kernel's blocks tile its result array, so
  each array ends as its stage's whole-array function. No distributive law is used, so finiteness is never called on.

  The three frames: each kernel program's run over its five regions ends with every argument array as launched (the
  similarity kernel reads one array through two windows, each holding half of the array's share while the region
  runs); the reference's frame is its run with the result dropped. The idealized kernel is the printed kernel read on
  the extended reals with no rewrite, so there is nothing to preserve.
-/
import proofs.«102501_j18846316494852_1_alg».proof.Defs
import proofs.«102501_j18846316494852_1_alg».proof.Proof.Gen.Kernel
import proofs.«102501_j18846316494852_1_alg».proof.Proof.Gen.KernelIdeal
import proofs.«102501_j18846316494852_1_alg».proof.Proof.Gen.ReferenceIdeal
import proofs.«102501_j18846316494852_1_alg».proof.Proof.Gen.ReferenceIdeal.Run
import proofs.«102501_j18846316494852_1_alg».proof.Proof.Gen.ReferenceIdeal.Read
import proofs.«102501_j18846316494852_1_alg».proof.Proof.Gen.Pre_finite_inputs
import proofs.«102501_j18846316494852_1_alg».proof.Proof.K.Run
import proofs.«102501_j18846316494852_1_alg».proof.Proof.KI.Run
import proofs.«102501_j18846316494852_1_alg».proof.Proof.KI.Chain
import proofs.«102501_j18846316494852_1_alg».proof.Proof.RefVal
import Idealize.ShloMosaic.Adequacy
import Idealize.ShloMosaic.Init

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel program runs to the end and leaves its arguments as launched. -/
theorem frame_k : Cert.frame_Kernel := fun m ρ _ =>
  (θ_run Cert.Kernel.defs _ _).mono (fun _ h c => (h c).2) (Cert.Kernel.Hand.run_main (F := Bits) m ρ)

/-- So does the idealized kernel program. -/
theorem frame_ki : Cert.frame_KernelIdeal := fun m ρ _ =>
  (θ_run Cert.KernelIdeal.defs _ _).mono (fun _ h c => (h c).2) (Cert.KernelIdeal.Hand.run_main (F := Ideal) m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the similarity matrix of the same node features. -/
theorem algebraic : Cert.algebraic_KernelIdeal_ReferenceIdeal := by
  intro m ρ m' ρ' hpre hagree
  refine ⟨fun c => Cert.Gine.Chain.out m c, ?_, ?_⟩
  · exact (θ_run Cert.KernelIdeal.defs _ _).mono
      (fun _ h c => ⟨(h c).1.trans (Cert.Gine.Chain.kernel_value m ρ c (hpre c)), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v64_eq, Cert.Gine.RefVal.ref_value]
    obtain ⟨a0, a1, a2, a3, a4, a5, a6, a7, a8, a9, a10, a11⟩ := hagree c
    rw [a0, a1, a2, a3, a4, a5, a6, a7, a8, a9, a10, a11]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
